-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x39x1 : Shape := ⟨3, ![65536, 39, 1]⟩
abbrev S65536x39 : Shape := ⟨2, ![65536, 39]⟩
abbrev S39x100000x1 : Shape := ⟨3, ![39, 100000, 1]⟩
abbrev S39x100000x16 : Shape := ⟨3, ![39, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S1 : Shape := ⟨1, ![1]⟩
abbrev S_ : Shape := ⟨0, ![]⟩

class Facts : Prop where
  bcast_S_S65536x39 : S_.BroadcastsInDim S65536x39 (![] : Fin 0 → Fin S65536x39.rank)
  reducesTo_S65536x39_S_d0_1 : S65536x39.ReducesTo [0, 1] S_
  h_S_ : 0 < S_.numel
  bcast_S_S39x100000x1 : S_.BroadcastsInDim S39x100000x1 (![] : Fin 0 → Fin S39x100000x1.rank)
  reducesTo_S39x100000x1_S_d0_1_2 : S39x100000x1.ReducesTo [0, 1, 2] S_
  bcast_S_S39x100000x16 : S_.BroadcastsInDim S39x100000x16 (![] : Fin 0 → Fin S39x100000x16.rank)
  reducesTo_S39x100000x16_S_d0_1_2 : S39x100000x16.ReducesTo [0, 1, 2] S_
  bcast_S_S624x512 : S_.BroadcastsInDim S624x512 (![] : Fin 0 → Fin S624x512.rank)
  reducesTo_S624x512_S_d0_1 : S624x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S512x256 .f32) (main_arg9 : FVec F S256 .f32) (main_arg10 : FVec F S256 .f32) (main_arg11 : FVec F S256 .f32) (main_arg12 : FVec F S1 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S512 .f32) (main_arg6 : FVec F S512 .f32) (main_arg7 : FVec F S512 .f32) (main_arg8 : FVec F S512x256 .f32) (main_arg9 : FVec F S256 .f32) (main_arg10 : FVec F S256 .f32) (main_arg11 : FVec F S256 .f32) (main_arg12 : FVec F S1 .f32) (main_v13 : IVec S_ 1) (main_v16 : IVec S624x512 1) : IVec S_ 1 :=
  let main_c_5 : IVec S_ 1 := constantI S_ 1 1#1
  let main_v17 : IVec S_ 1 := (fun x v => Host.reduce IntOp.andi x v reducesTo_S624x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S65536x39x1 32) (main_arg1 : FVec F S65536x39 .f32) (main_arg2 : FVec F S39x100000x1 .f32) (main_arg3 : FVec F S39x100000x16 .f32) (main_arg4 : FVec F S624x512 .f32) (main_arg5 : FVec F S512 .f32) (main_arg6 : FVec F S512 .f32) (main_arg7 : FVec F S512 .f32) (main_arg8 : FVec F S512x256 .f32) (main_arg9 : FVec F S256 .f32) (main_arg10 : FVec F S256 .f32) (main_arg11 : FVec F S256 .f32) (main_arg12 : FVec F S1 .f32) : IVec S_ 1 :=
  let main_v0 : FVec F S65536x39 .f32 := Host.absf main_arg1
  let main_cst : FVec F S_ .f32 := constant S_ .f32 0x7F800000#32
  let main_v1 : FVec F S65536x39 .f32 := broadcastInDim S65536x39 ![] bcast_S_S65536x39 main_cst
  let main_v2 : IVec S65536x39 1 := cmpf .olt main_v0 main_v1
  let main_c : IVec S_ 1 := constantI S_ 1 1#1
  let main_v3 : IVec S_ 1 := (fun x v => Host.reduce IntOp.andi x v reducesTo_S65536x39_S_d0_1 h_S_) main_v2 main_c
  let main_v4 : FVec F S39x100000x1 .f32 := Host.absf main_arg2
  let main_cst_0 : FVec F S_ .f32 := constant S_ .f32 0x7F800000#32
  let main_v5 : FVec F S39x100000x1 .f32 := broadcastInDim S39x100000x1 ![] bcast_S_S39x100000x1 main_cst_0
  let main_v6 : IVec S39x100000x1 1 := cmpf .olt main_v4 main_v5
  let main_c_1 : IVec S_ 1 := constantI S_ 1 1#1
  let main_v7 : IVec S_ 1 := (fun x v => Host.reduce IntOp.andi x v reducesTo_S39x100000x1_S_d0_1_2 h_S_) main_v6 main_c_1
  let main_v8 : IVec S_ 1 := andi main_v3 main_v7
  let main_v9 : FVec F S39x100000x16 .f32 := Host.absf main_arg3
  let main_cst_2 : FVec F S_ .f32 := constant S_ .f32 0x7F800000#32
  let main_v10 : FVec F S39x100000x16 .f32 := broadcastInDim S39x100000x16 ![] bcast_S_S39x100000x16 main_cst_2
  let main_v11 : IVec S39x100000x16 1 := cmpf .olt main_v9 main_v10
  let main_c_3 : IVec S_ 1 := constantI S_ 1 1#1
  let main_v12 : IVec S_ 1 := (fun x v => Host.reduce IntOp.andi x v reducesTo_S39x100000x16_S_d0_1_2 h_S_) main_v11 main_c_3
  let main_v13 : IVec S_ 1 := andi main_v8 main_v12
  let main_v14 : FVec F S624x512 .f32 := Host.absf main_arg4
  let main_cst_4 : FVec F S_ .f32 := constant S_ .f32 0x7F800000#32
  let main_v15 : FVec F S624x512 .f32 := broadcastInDim S624x512 ![] bcast_S_S624x512 main_cst_4
  let main_v16 : IVec S624x512 1 := cmpf .olt main_v14 main_v15
  fn_part1 (F := F) main_arg5 main_arg6 main_arg7 main_arg8 main_arg9 main_arg10 main_arg11 main_arg12 main_v13 main_v16
-- ==== Kernel.lean ====
abbrev S65536x39x1 : Shape := ⟨3, ![65536, 39, 1]⟩
abbrev S65536x39 : Shape := ⟨2, ![65536, 39]⟩
abbrev S39x100000x1 : Shape := ⟨3, ![39, 100000, 1]⟩
abbrev S39x100000x16 : Shape := ⟨3, ![39, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S1 : Shape := ⟨1, ![1]⟩
abbrev S39 : Shape := ⟨1, ![39]⟩
abbrev S1x39 : Shape := ⟨2, ![1, 39]⟩
abbrev S_ : Shape := ⟨0, ![]⟩
abbrev S65536x39x3 : Shape := ⟨3, ![65536, 39, 3]⟩
abbrev S65536x39x2 : Shape := ⟨3, ![65536, 39, 2]⟩
abbrev S65536x39x16 : Shape := ⟨3, ![65536, 39, 16]⟩
abbrev S65536x16 : Shape := ⟨2, ![65536, 16]⟩
abbrev S65536 : Shape := ⟨1, ![65536]⟩
abbrev S65536x1 : Shape := ⟨2, ![65536, 1]⟩
abbrev S65536x624 : Shape := ⟨2, ![65536, 624]⟩
abbrev S1x512 : Shape := ⟨2, ![1, 512]⟩
abbrev S1x256 : Shape := ⟨2, ![1, 256]⟩
abbrev S65536x512 : Shape := ⟨2, ![65536, 512]⟩
abbrev S2048x624 : Shape := ⟨2, ![2048, 624]⟩
abbrev S2048x512 : Shape := ⟨2, ![2048, 512]⟩
abbrev S65536x256 : Shape := ⟨2, ![65536, 256]⟩
abbrev S2048x256 : Shape := ⟨2, ![2048, 256]⟩
abbrev S2048x1 : Shape := ⟨2, ![2048, 1]⟩
abbrev S2048 : Shape := ⟨1, ![2048]⟩

abbrev nBuf : Space → Nat
  | .hbm => 123
  | .vmem => 30
  | .smem => 0
  | _ => 0

abbrev bufTy : (tb : Table) → Fin (tcTables nBuf tb) → BufTy
  | .hbm, ⟨0, _⟩ => ⟨S65536x39x1, .i32⟩
  | .hbm, ⟨1, _⟩ => ⟨S65536x39, .f32⟩
  | .hbm, ⟨2, _⟩ => ⟨S39x100000x1, .f32⟩
  | .hbm, ⟨3, _⟩ => ⟨S39x100000x16, .f32⟩
  | .hbm, ⟨4, _⟩ => ⟨S624x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1, .f32⟩
  | .hbm, ⟨13, _⟩ => ⟨S65536x39, .i32⟩
  | .hbm, ⟨14, _⟩ => ⟨S39, .i32⟩
  | .hbm, ⟨15, _⟩ => ⟨S1x39, .i32⟩
  | .hbm, ⟨16, _⟩ => ⟨S_, .i32⟩
  | .hbm, ⟨17, _⟩ => ⟨S1x39, .i32⟩
  | .hbm, ⟨18, _⟩ => ⟨S1x39, .i1⟩
  | .hbm, ⟨19, _⟩ => ⟨S_, .i32⟩
  | .hbm, ⟨20, _⟩ => ⟨S1x39, .i32⟩
  | .hbm, ⟨21, _⟩ => ⟨S1x39, .i32⟩
  | .hbm, ⟨22, _⟩ => ⟨S1x39, .i32⟩
  | .hbm, ⟨23, _⟩ => ⟨S_, .i32⟩
  | .hbm, ⟨24, _⟩ => ⟨S65536x39, .i32⟩
  | .hbm, ⟨25, _⟩ => ⟨S65536x39, .i1⟩
  | .hbm, ⟨26, _⟩ => ⟨S_, .i32⟩
  | .hbm, ⟨27, _⟩ => ⟨S65536x39, .i32⟩
  | .hbm, ⟨28, _⟩ => ⟨S65536x39, .i32⟩
  | .hbm, ⟨29, _⟩ => ⟨S65536x39, .i32⟩
  | .hbm, ⟨30, _⟩ => ⟨S65536x39, .i32⟩
  | .hbm, ⟨31, _⟩ => ⟨S_, .i32⟩
  | .hbm, ⟨32, _⟩ => ⟨S65536x39, .i32⟩
  | .hbm, ⟨33, _⟩ => ⟨S65536x39, .i32⟩
  | .hbm, ⟨34, _⟩ => ⟨S65536x39x1, .i32⟩
  | .hbm, ⟨35, _⟩ => ⟨S65536x39x1, .i32⟩
  | .hbm, ⟨36, _⟩ => ⟨S65536x39x1, .i32⟩
  | .hbm, ⟨37, _⟩ => ⟨S65536x39x3, .i32⟩
  | .hbm, ⟨38, _⟩ => ⟨S65536x39, .f32⟩
  | .hbm, ⟨39, _⟩ => ⟨S_, .i32⟩
  | .hbm, ⟨40, _⟩ => ⟨S1x39, .i32⟩
  | .hbm, ⟨41, _⟩ => ⟨S1x39, .i1⟩
  | .hbm, ⟨42, _⟩ => ⟨S_, .i32⟩
  | .hbm, ⟨43, _⟩ => ⟨S1x39, .i32⟩
  | .hbm, ⟨44, _⟩ => ⟨S1x39, .i32⟩
  | .hbm, ⟨45, _⟩ => ⟨S1x39, .i32⟩
  | .hbm, ⟨46, _⟩ => ⟨S_, .i32⟩
  | .hbm, ⟨47, _⟩ => ⟨S65536x39, .i32⟩
  | .hbm, ⟨48, _⟩ => ⟨S65536x39, .i1⟩
  | .hbm, ⟨49, _⟩ => ⟨S_, .i32⟩
  | .hbm, ⟨50, _⟩ => ⟨S65536x39, .i32⟩
  | .hbm, ⟨51, _⟩ => ⟨S65536x39, .i32⟩
  | .hbm, ⟨52, _⟩ => ⟨S65536x39, .i32⟩
  | .hbm, ⟨53, _⟩ => ⟨S65536x39, .i32⟩
  | .hbm, ⟨54, _⟩ => ⟨S65536x39x1, .i32⟩
  | .hbm, ⟨55, _⟩ => ⟨S65536x39x1, .i32⟩
  | .hbm, ⟨56, _⟩ => ⟨S65536x39x2, .i32⟩
  | .hbm, ⟨57, _⟩ => ⟨S65536x39x16, .f32⟩
  | .hbm, ⟨58, _⟩ => ⟨S65536x39, .f32⟩
  | .hbm, ⟨59, _⟩ => ⟨S65536x39x1, .f32⟩
  | .hbm, ⟨60, _⟩ => ⟨S65536x39x16, .f32⟩
  | .hbm, ⟨61, _⟩ => ⟨S65536x39x16, .f32⟩
  | .hbm, ⟨62, _⟩ => ⟨S_, .f32⟩
  | .hbm, ⟨63, _⟩ => ⟨S65536x16, .f32⟩
  | .hbm, ⟨64, _⟩ => ⟨S65536x39x16, .f32⟩
  | .hbm, ⟨65, _⟩ => ⟨S_, .f32⟩
  | .hbm, ⟨66, _⟩ => ⟨S65536x16, .f32⟩
  | .hbm, ⟨67, _⟩ => ⟨S65536x16, .f32⟩
  | .hbm, ⟨68, _⟩ => ⟨S65536x16, .f32⟩
  | .hbm, ⟨69, _⟩ => ⟨S_, .f32⟩
  | .hbm, ⟨70, _⟩ => ⟨S65536x16, .f32⟩
  | .hbm, ⟨71, _⟩ => ⟨S65536x16, .f32⟩
  | .hbm, ⟨72, _⟩ => ⟨S_, .f32⟩
  | .hbm, ⟨73, _⟩ => ⟨S65536, .f32⟩
  | .hbm, ⟨74, _⟩ => ⟨S_, .f32⟩
  | .hbm, ⟨75, _⟩ => ⟨S65536, .f32⟩
  | .hbm, ⟨76, _⟩ => ⟨S_, .f32⟩
  | .hbm, ⟨77, _⟩ => ⟨S65536, .f32⟩
  | .hbm, ⟨78, _⟩ => ⟨S65536, .f32⟩
  | .hbm, ⟨79, _⟩ => ⟨S65536, .f32⟩
  | .hbm, ⟨80, _⟩ => ⟨S65536x1, .f32⟩
  | .hbm, ⟨81, _⟩ => ⟨S65536x624, .f32⟩
  | .hbm, ⟨82, _⟩ => ⟨S65536x624, .bf16⟩
  | .hbm, ⟨83, _⟩ => ⟨S624x512, .bf16⟩
  | .hbm, ⟨84, _⟩ => ⟨S512x256, .bf16⟩
  | .hbm, ⟨85, _⟩ => ⟨S1x512, .f32⟩
  | .hbm, ⟨86, _⟩ => ⟨S1x256, .f32⟩
  | .hbm, ⟨87, _⟩ => ⟨S1x512, .f32⟩
  | .hbm, ⟨88, _⟩ => ⟨S1x512, .f32⟩
  | .hbm, ⟨89, _⟩ => ⟨S1x256, .f32⟩
  | .hbm, ⟨90, _⟩ => ⟨S1x256, .f32⟩
  | .hbm, ⟨91, _⟩ => ⟨S65536x512, .f32⟩
  | .hbm, ⟨92, _⟩ => ⟨S1x512, .f32⟩
  | .hbm, ⟨93, _⟩ => ⟨S1x512, .f32⟩
  | .hbm, ⟨94, _⟩ => ⟨S_, .f32⟩
  | .hbm, ⟨95, _⟩ => ⟨S1x512, .f32⟩
  | .hbm, ⟨96, _⟩ => ⟨S1x512, .f32⟩
  | .hbm, ⟨97, _⟩ => ⟨S_, .f32⟩
  | .hbm, ⟨98, _⟩ => ⟨S1x512, .f32⟩
  | .hbm, ⟨99, _⟩ => ⟨S1x512, .f32⟩
  | .hbm, ⟨100, _⟩ => ⟨S1x512, .f32⟩
  | .hbm, ⟨101, _⟩ => ⟨S1x512, .f32⟩
  | .hbm, ⟨102, _⟩ => ⟨S_, .f32⟩
  | .hbm, ⟨103, _⟩ => ⟨S1x512, .f32⟩
  | .hbm, ⟨104, _⟩ => ⟨S1x512, .f32⟩
  | .hbm, ⟨105, _⟩ => ⟨S1x512, .f32⟩
  | .hbm, ⟨106, _⟩ => ⟨S65536x256, .f32⟩
  | .hbm, ⟨107, _⟩ => ⟨S1x256, .f32⟩
  | .hbm, ⟨108, _⟩ => ⟨S1x256, .f32⟩
  | .hbm, ⟨109, _⟩ => ⟨S_, .f32⟩
  | .hbm, ⟨110, _⟩ => ⟨S1x256, .f32⟩
  | .hbm, ⟨111, _⟩ => ⟨S1x256, .f32⟩
  | .hbm, ⟨112, _⟩ => ⟨S_, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S1x256, .f32⟩
  | .hbm, ⟨117, _⟩ => ⟨S_, .f32⟩
  | .hbm, ⟨118, _⟩ => ⟨S1x256, .f32⟩
  | .hbm, ⟨119, _⟩ => ⟨S1x256, .f32⟩
  | .hbm, ⟨120, _⟩ => ⟨S1x256, .f32⟩
  | .hbm, ⟨121, _⟩ => ⟨S65536x1, .f32⟩
  | .hbm, ⟨122, _⟩ => ⟨S65536, .f32⟩
  | .local _ .vmem, ⟨0, _⟩ => ⟨S2048x624, .bf16⟩
  | .local _ .vmem, ⟨1, _⟩ => ⟨S2048x624, .bf16⟩
  | .local _ .vmem, ⟨2, _⟩ => ⟨S624x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x256, .bf16⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S1x256, .f32⟩
  | .local _ .vmem, ⟨19, _⟩ => ⟨S1x256, .f32⟩
  | .local _ .vmem, ⟨20, _⟩ => ⟨S2048x256, .f32⟩
  | .local _ .vmem, ⟨21, _⟩ => ⟨S2048x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | _, _ => ⟨S65536x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64_0 : Ref sig .tc := ⟨.hbm, 91, rfl⟩
abbrev main_v64_1 : Ref sig .tc := ⟨.hbm, 92, rfl⟩
abbrev main_v64_2 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x624 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S624x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S65536x39x1_S65536x39 : S65536x39x1.ShapeCasts S65536x39
  bcast_S39_S1x39_1 : S39.BroadcastsInDim S1x39 (![1] : Fin 1 → Fin S1x39.rank)
  bcast_S_S1x39 : S_.BroadcastsInDim S1x39 (![] : Fin 0 → Fin S1x39.rank)
  bcast_S_S65536x39 : S_.BroadcastsInDim S65536x39 (![] : Fin 0 → Fin S65536x39.rank)
  bcast_S1x39_S65536x39_0_1 : S1x39.BroadcastsInDim S65536x39 (![0, 1] : Fin 2 → Fin S65536x39.rank)
  bcast_S65536x39_S65536x39x1_0_1 : S65536x39.BroadcastsInDim S65536x39x1 (![0, 1] : Fin 2 → Fin S65536x39x1.rank)
  concatenates_S65536x39x1_S65536x39x1_S65536x39x1_S65536x39x3_d2 : Shape.Concatenates [S65536x39x1, S65536x39x1, S65536x39x1] S65536x39x3 2
  concatenates_S65536x39x1_S65536x39x1_S65536x39x2_d2 : Shape.Concatenates [S65536x39x1, S65536x39x1] S65536x39x2 2
  bcast_S65536x39x1_S65536x39x16_0_1_2 : S65536x39x1.BroadcastsInDim S65536x39x16 (![0, 1, 2] : Fin 3 → Fin S65536x39x16.rank)
  reducesTo_S65536x39x16_S65536x16_d1 : S65536x39x16.ReducesTo [1] S65536x16
  h_S_ : 0 < S_.numel
  bcast_S_S65536x16 : S_.BroadcastsInDim S65536x16 (![] : Fin 0 → Fin S65536x16.rank)
  reducesTo_S65536x39_S65536_d1 : S65536x39.ReducesTo [1] S65536
  reducesTo_S65536x16_S65536_d1 : S65536x16.ReducesTo [1] S65536
  shapeCasts_S1_S_ : S1.ShapeCasts S_
  bcast_S_S65536 : S_.BroadcastsInDim S65536 (![] : Fin 0 → Fin S65536.rank)
  shapeCasts_S65536_S65536x1 : S65536.ShapeCasts S65536x1
  shapeCasts_S65536x39x16_S65536x624 : S65536x39x16.ShapeCasts S65536x624
  bitsLt_bf16_f32 : FTy.bits .bf16 < FTy.bits .f32
  shapeCasts_S512_S1x512 : S512.ShapeCasts S1x512
  shapeCasts_S256_S1x256 : S256.ShapeCasts S1x256
  inb_S1x512_S1x512_0_0 : ∀ a, (![0, 0] : Fin 2 → Nat) a + S1x512.size a ≤ S1x512.size a
  h_S1x512 : 0 < S1x512.numel
  inb_S2048x624_S2048x624_0_0 : ∀ a, (![0, 0] : Fin 2 → Nat) a + S2048x624.size a ≤ S2048x624.size a
  h_S2048x624 : 0 < S2048x624.numel
  shapeCasts_S2048x624_S2048x624 : S2048x624.ShapeCasts S2048x624
  inb_S624x512_S624x512_0_0 : ∀ a, (![0, 0] : Fin 2 → Nat) a + S624x512.size a ≤ S624x512.size a
  h_S624x512 : 0 < S624x512.numel
  shapeCasts_S624x512_S624x512 : S624x512.ShapeCasts S624x512
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  bcast_S_S1x512 : S_.BroadcastsInDim S1x512 (![] : Fin 0 → Fin S1x512.rank)
  inb_S1x256_S1x256_0_0 : ∀ a, (![0, 0] : Fin 2 → Nat) a + S1x256.size a ≤ S1x256.size a
  h_S1x256 : 0 < S1x256.numel
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  bcast_S_S1x256 : S_.BroadcastsInDim S1x256 (![] : Fin 0 → Fin S1x256.rank)
  shapeCasts_S2048x256_S2048x256 : S2048x256.ShapeCasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S65536x1_S65536 : S65536x1.ShapeCasts S65536
  gather_S39x100000x1_S65536x39x3_S65536x39_n_012_n_n_012_2_111_wf : GatherDims.WF S39x100000x1 S65536x39x3 S65536x39 [] [0, 1, 2] [] [0, 1, 2] [] 2 ![1, 1, 1]
  gather_S39x100000x16_S65536x39x2_S65536x39x16_2_01_n_n_01_2_1116_wf : GatherDims.WF S39x100000x16 S65536x39x2 S65536x39x16 [2] [0, 1] [] [0, 1] [] 2 ![1, 1, 16]
  dot_S2048x624_S624x512_S2048x512_1_0_0_1_n_n_wf : DotDims.WF S2048x624 S624x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x624.size a ≤ S65536x624.size a
  hwx0_0 : ∀ i : grid0.Coords, EltTy.bits .bf16 = 32 ∨ (Rect.block (s := S65536x624) S2048x624.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S624x512.size a ≤ S624x512.size a
  hwx0_1 : ∀ i : grid0.Coords, EltTy.bits .bf16 = 32 ∨ (Rect.block (s := S624x512) S624x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S65536x256.size a
  hwx1_7 : ∀ i : grid1.Coords, EltTy.bits .f32 = 32 ∨ (Rect.block (s := S65536x256) S2048x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S65536x1.size a
  hwx2_5 : ∀ i : grid2.Coords, EltTy.bits .f32 = 32 ∨ (Rect.block (s := S65536x1) S2048x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x1.size a ≤ S65536x1.size a
  hwx2_6 : ∀ i : grid2.Coords, EltTy.bits .f32 = 32 ∨ (Rect.block (s := S65536x1) S2048x1.size (cc2_transform_6 i) (hinb2_6 i)).WholeWords (EltTy.packing .f32)

variable [Facts₀]

def gather_S39x100000x1_S65536x39x3_S65536x39_n_012_n_n_012_2_111 : GatherDims S39x100000x1 S65536x39x3 S65536x39 where
  offsetDims := []
  collapsedSliceDims := [0, 1, 2]
  operandBatchingDims := []
  startIndicesBatchingDims := []
  startIndexMap := [0, 1, 2]
  indexVectorDim := 2
  sliceSizes := ![1, 1, 1]
  wf := gather_S39x100000x1_S65536x39x3_S65536x39_n_012_n_n_012_2_111_wf
def gather_S39x100000x16_S65536x39x2_S65536x39x16_2_01_n_n_01_2_1116 : GatherDims S39x100000x16 S65536x39x2 S65536x39x16 where
  offsetDims := [2]
  collapsedSliceDims := [0, 1]
  operandBatchingDims := []
  startIndicesBatchingDims := []
  startIndexMap := [0, 1]
  indexVectorDim := 2
  sliceSizes := ![1, 1, 16]
  wf := gather_S39x100000x16_S65536x39x2_S65536x39x16_2_01_n_n_01_2_1116_wf
def dot_S2048x624_S624x512_S2048x512_1_0_0_1_n_n : DotDims S2048x624 S624x512 S2048x512 where
  lhsContracting := [1]
  rhsContracting := [0]
  lhsNonContracting := [0]
  rhsNonContracting := [1]
  lhsBatch := []
  rhsBatch := []
  wf := dot_S2048x624_S624x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v55) S2048x624.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S624x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v64_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74_0) S2048x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v74_1) S1x256.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v74_2) S1x256.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v74_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2048x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v84) S2048x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S65536x39x1 : Shape := ⟨3, ![65536, 39, 1]⟩
abbrev S65536x39 : Shape := ⟨2, ![65536, 39]⟩
abbrev S39x100000x1 : Shape := ⟨3, ![39, 100000, 1]⟩
abbrev S39x100000x16 : Shape := ⟨3, ![39, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S1 : Shape := ⟨1, ![1]⟩
abbrev S39 : Shape := ⟨1, ![39]⟩
abbrev S1x39 : Shape := ⟨2, ![1, 39]⟩
abbrev S_ : Shape := ⟨0, ![]⟩
abbrev S65536x39x3 : Shape := ⟨3, ![65536, 39, 3]⟩
abbrev S65536x39x2 : Shape := ⟨3, ![65536, 39, 2]⟩
abbrev S65536x39x16 : Shape := ⟨3, ![65536, 39, 16]⟩
abbrev S65536x16 : Shape := ⟨2, ![65536, 16]⟩
abbrev S65536x624 : Shape := ⟨2, ![65536, 624]⟩
abbrev S65536x512 : Shape := ⟨2, ![65536, 512]⟩
abbrev S1x512 : Shape := ⟨2, ![1, 512]⟩
abbrev S65536x256 : Shape := ⟨2, ![65536, 256]⟩
abbrev S1x256 : Shape := ⟨2, ![1, 256]⟩
abbrev S65536 : Shape := ⟨1, ![65536]⟩

abbrev nBuf : Space → Nat
  | .hbm => 151
  | .vmem => 0
  | .smem => 0
  | _ => 0

abbrev hbmTy0_0 (i : Nat) : BufTy := match i % 128 with
  | 0 => ⟨S65536x39x1, .i32⟩
  | 1 => ⟨S65536x39, .f32⟩
  | 2 => ⟨S39x100000x1, .f32⟩
  | 3 => ⟨S39x100000x16, .f32⟩
  | 4 => ⟨S624x512, .f32⟩
  | 5 => ⟨S512, .f32⟩
  | 6 => ⟨S512, .f32⟩
  | 7 => ⟨S512, .f32⟩
  | 8 => ⟨S512x256, .f32⟩
  | 9 => ⟨S256, .f32⟩
  | 10 => ⟨S256, .f32⟩
  | 11 => ⟨S256, .f32⟩
  | 12 => ⟨S1, .f32⟩
  | 13 => ⟨S65536x39, .i32⟩
  | 14 => ⟨S39, .i32⟩
  | 15 => ⟨S1x39, .i32⟩
  | 16 => ⟨S_, .i32⟩
  | 17 => ⟨S1x39, .i32⟩
  | 18 => ⟨S1x39, .i1⟩
  | 19 => ⟨S_, .i32⟩
  | 20 => ⟨S1x39, .i32⟩
  | 21 => ⟨S1x39, .i32⟩
  | 22 => ⟨S1x39, .i32⟩
  | 23 => ⟨S_, .i32⟩
  | 24 => ⟨S65536x39, .i32⟩
  | 25 => ⟨S65536x39, .i1⟩
  | 26 => ⟨S_, .i32⟩
  | 27 => ⟨S65536x39, .i32⟩
  | 28 => ⟨S65536x39, .i32⟩
  | 29 => ⟨S65536x39, .i32⟩
  | 30 => ⟨S65536x39, .i32⟩
  | 31 => ⟨S_, .i32⟩
  | 32 => ⟨S65536x39, .i32⟩
  | 33 => ⟨S65536x39, .i32⟩
  | 34 => ⟨S65536x39x1, .i32⟩
  | 35 => ⟨S65536x39x1, .i32⟩
  | 36 => ⟨S65536x39x1, .i32⟩
  | 37 => ⟨S65536x39x3, .i32⟩
  | 38 => ⟨S65536x39, .f32⟩
  | 39 => ⟨S65536x39, .f32⟩
  | 40 => ⟨S_, .i32⟩
  | 41 => ⟨S1x39, .i32⟩
  | 42 => ⟨S1x39, .i1⟩
  | 43 => ⟨S_, .i32⟩
  | 44 => ⟨S1x39, .i32⟩
  | 45 => ⟨S1x39, .i32⟩
  | 46 => ⟨S1x39, .i32⟩
  | 47 => ⟨S_, .i32⟩
  | 48 => ⟨S65536x39, .i32⟩
  | 49 => ⟨S65536x39, .i1⟩
  | 50 => ⟨S_, .i32⟩
  | 51 => ⟨S65536x39, .i32⟩
  | 52 => ⟨S65536x39, .i32⟩
  | 53 => ⟨S65536x39, .i32⟩
  | 54 => ⟨S65536x39, .i32⟩
  | 55 => ⟨S65536x39x1, .i32⟩
  | 56 => ⟨S65536x39x1, .i32⟩
  | 57 => ⟨S65536x39x2, .i32⟩
  | 58 => ⟨S65536x39x16, .f32⟩
  | 59 => ⟨S65536x39x1, .f32⟩
  | 60 => ⟨S65536x39x16, .f32⟩
  | 61 => ⟨S65536x39x16, .f32⟩
  | 62 => ⟨S_, .f32⟩
  | 63 => ⟨S65536x16, .f32⟩
  | 64 => ⟨S65536x16, .f32⟩
  | 65 => ⟨S65536x39x16, .f32⟩
  | 66 => ⟨S_, .f32⟩
  | 67 => ⟨S65536x16, .f32⟩
  | 68 => ⟨S65536x16, .f32⟩
  | 69 => ⟨S_, .f32⟩
  | 70 => ⟨S65536x16, .f32⟩
  | 71 => ⟨S65536x16, .f32⟩
  | 72 => ⟨S65536x624, .f32⟩
  | 73 => ⟨S65536x512, .f32⟩
  | 74 => ⟨S1x512, .f32⟩
  | 75 => ⟨S65536x512, .f32⟩
  | 76 => ⟨S65536x512, .f32⟩
  | 77 => ⟨S_, .f32⟩
  | 78 => ⟨S512, .f32⟩
  | 79 => ⟨S_, .f32⟩
  | 80 => ⟨S512, .f32⟩
  | 81 => ⟨S512, .f32⟩
  | 82 => ⟨S1x512, .f32⟩
  | 83 => ⟨S65536x512, .f32⟩
  | 84 => ⟨S65536x512, .f32⟩
  | 85 => ⟨S65536x512, .f32⟩
  | 86 => ⟨S_, .f32⟩
  | 87 => ⟨S512, .f32⟩
  | 88 => ⟨S_, .f32⟩
  | 89 => ⟨S512, .f32⟩
  | 90 => ⟨S512, .f32⟩
  | 91 => ⟨S1x512, .f32⟩
  | 92 => ⟨S65536x512, .f32⟩
  | 93 => ⟨S65536x512, .f32⟩
  | 94 => ⟨S_, .f32⟩
  | 95 => ⟨S512, .f32⟩
  | 96 => ⟨S512, .f32⟩
  | 97 => ⟨S512, .f32⟩
  | 98 => ⟨S1x512, .f32⟩
  | 99 => ⟨S65536x512, .f32⟩
  | 100 => ⟨S65536x512, .f32⟩
  | 101 => ⟨S1x512, .f32⟩
  | 102 => ⟨S65536x512, .f32⟩
  | 103 => ⟨S65536x512, .f32⟩
  | 104 => ⟨S1x512, .f32⟩
  | 105 => ⟨S65536x512, .f32⟩
  | 106 => ⟨S65536x512, .f32⟩
  | 107 => ⟨S65536x256, .f32⟩
  | 108 => ⟨S1x256, .f32⟩
  | 109 => ⟨S65536x256, .f32⟩
  | 110 => ⟨S65536x256, .f32⟩
  | 111 => ⟨S_, .f32⟩
  | 112 => ⟨S256, .f32⟩
  | 113 => ⟨S_, .f32⟩
  | 114 => ⟨S256, .f32⟩
  | 115 => ⟨S256, .f32⟩
  | 116 => ⟨S1x256, .f32⟩
  | 117 => ⟨S65536x256, .f32⟩
  | 118 => ⟨S65536x256, .f32⟩
  | 119 => ⟨S65536x256, .f32⟩
  | 120 => ⟨S_, .f32⟩
  | 121 => ⟨S256, .f32⟩
  | 122 => ⟨S_, .f32⟩
  | 123 => ⟨S256, .f32⟩
  | 124 => ⟨S256, .f32⟩
  | 125 => ⟨S1x256, .f32⟩
  | 126 => ⟨S65536x256, .f32⟩
  | 127 => ⟨S65536x256, .f32⟩
  | _ => ⟨S65536x39x1, .i32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S1x256, .f32⟩
  | 5 => ⟨S65536x256, .f32⟩
  | 6 => ⟨S65536x256, .f32⟩
  | 7 => ⟨S1x256, .f32⟩
  | 8 => ⟨S65536x256, .f32⟩
  | 9 => ⟨S65536x256, .f32⟩
  | 10 => ⟨S1x256, .f32⟩
  | 11 => ⟨S65536x256, .f32⟩
  | 12 => ⟨S65536x256, .f32⟩
  | 13 => ⟨S_, .f32⟩
  | 14 => ⟨S65536, .f32⟩
  | 15 => ⟨S65536, .f32⟩
  | 16 => ⟨S65536, .f32⟩
  | 17 => ⟨S_, .f32⟩
  | 18 => ⟨S65536, .f32⟩
  | 19 => ⟨S65536, .f32⟩
  | 20 => ⟨S_, .f32⟩
  | 21 => ⟨S65536, .f32⟩
  | 22 => ⟨S65536, .f32⟩
  | _ => ⟨S65536x39x1, .i32⟩

abbrev hbmTy (i : Nat) : BufTy := match i / 128 with
  | 0 => hbmTy0_0 i
  | 1 => hbmTy0_1 i
  | _ => ⟨S65536x39x1, .i32⟩

abbrev bufTy : (tb : Table) → Fin (tcTables nBuf tb) → BufTy
  | .hbm, ⟨i, _⟩ => hbmTy i
  | _, _ => ⟨S65536x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_21 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]

class Facts₀ : Prop where
  shapeCasts_S65536x39x1_S65536x39 : S65536x39x1.ShapeCasts S65536x39
  bcast_S39_S1x39_1 : S39.BroadcastsInDim S1x39 (![1] : Fin 1 → Fin S1x39.rank)
  bcast_S_S1x39 : S_.BroadcastsInDim S1x39 (![] : Fin 0 → Fin S1x39.rank)
  bcast_S_S65536x39 : S_.BroadcastsInDim S65536x39 (![] : Fin 0 → Fin S65536x39.rank)
  bcast_S1x39_S65536x39_0_1 : S1x39.BroadcastsInDim S65536x39 (![0, 1] : Fin 2 → Fin S65536x39.rank)
  bcast_S65536x39_S65536x39x1_0_1 : S65536x39.BroadcastsInDim S65536x39x1 (![0, 1] : Fin 2 → Fin S65536x39x1.rank)
  concatenates_S65536x39x1_S65536x39x1_S65536x39x1_S65536x39x3_d2 : Shape.Concatenates [S65536x39x1, S65536x39x1, S65536x39x1] S65536x39x3 2
  concatenates_S65536x39x1_S65536x39x1_S65536x39x2_d2 : Shape.Concatenates [S65536x39x1, S65536x39x1] S65536x39x2 2
  bcast_S65536x39x1_S65536x39x16_0_1_2 : S65536x39x1.BroadcastsInDim S65536x39x16 (![0, 1, 2] : Fin 3 → Fin S65536x39x16.rank)
  reducesTo_S65536x39x16_S65536x16_d1 : S65536x39x16.ReducesTo [1] S65536x16
  h_S_ : 0 < S_.numel
  bcast_S_S65536x16 : S_.BroadcastsInDim S65536x16 (![] : Fin 0 → Fin S65536x16.rank)
  shapeCasts_S65536x39x16_S65536x624 : S65536x39x16.ShapeCasts S65536x624
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S512_d0 : S65536x512.ReducesTo [0] S512
  bcast_S_S512 : S_.BroadcastsInDim S512 (![] : Fin 0 → Fin S512.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S256_d0 : S65536x256.ReducesTo [0] S256
  bcast_S_S256 : S_.BroadcastsInDim S256 (![] : Fin 0 → Fin S256.rank)
  reducesTo_S65536x39_S65536_d1 : S65536x39.ReducesTo [1] S65536
  bcast_S1_S65536_0 : S1.BroadcastsInDim S65536 (![0] : Fin 1 → Fin S65536.rank)
  reducesTo_S65536x16_S65536_d1 : S65536x16.ReducesTo [1] S65536
  reducesTo_S65536x256_S65536_d1 : S65536x256.ReducesTo [1] S65536
  gather_S39x100000x1_S65536x39x3_S65536x39_n_012_n_n_012_2_111_wf : GatherDims.WF S39x100000x1 S65536x39x3 S65536x39 [] [0, 1, 2] [] [0, 1, 2] [] 2 ![1, 1, 1]
  gather_S39x100000x16_S65536x39x2_S65536x39x16_2_01_n_n_01_2_1116_wf : GatherDims.WF S39x100000x16 S65536x39x2 S65536x39x16 [2] [0, 1] [] [0, 1] [] 2 ![1, 1, 16]
  dot_S65536x624_S624x512_S65536x512_1_0_0_1_n_n_wf : DotDims.WF S65536x624 S624x512 S65536x512 [1] [0] [0] [1] [] []
  dot_S65536x512_S512x256_S65536x256_1_0_0_1_n_n_wf : DotDims.WF S65536x512 S512x256 S65536x256 [1] [0] [0] [1] [] []

variable [Facts₀]

def gather_S39x100000x1_S65536x39x3_S65536x39_n_012_n_n_012_2_111 : GatherDims S39x100000x1 S65536x39x3 S65536x39 where
  offsetDims := []
  collapsedSliceDims := [0, 1, 2]
  operandBatchingDims := []
  startIndicesBatchingDims := []
  startIndexMap := [0, 1, 2]
  indexVectorDim := 2
  sliceSizes := ![1, 1, 1]
  wf := gather_S39x100000x1_S65536x39x3_S65536x39_n_012_n_n_012_2_111_wf
def gather_S39x100000x16_S65536x39x2_S65536x39x16_2_01_n_n_01_2_1116 : GatherDims S39x100000x16 S65536x39x2 S65536x39x16 where
  offsetDims := [2]
  collapsedSliceDims := [0, 1]
  operandBatchingDims := []
  startIndicesBatchingDims := []
  startIndexMap := [0, 1]
  indexVectorDim := 2
  sliceSizes := ![1, 1, 16]
  wf := gather_S39x100000x16_S65536x39x2_S65536x39x16_2_01_n_n_01_2_1116_wf
def dot_S65536x624_S624x512_S65536x512_1_0_0_1_n_n : DotDims S65536x624 S624x512 S65536x512 where
  lhsContracting := [1]
  rhsContracting := [0]
  lhsNonContracting := [0]
  rhsNonContracting := [1]
  lhsBatch := []
  rhsBatch := []
  wf := dot_S65536x624_S624x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.DatsK.lean ====
/-
  The proof data of the three pipelines, each stated at a PARAMETER `V`: the contents of the
  TensorCore's buffers when the region is entered.

  Region 0 multiplies a tile of 2048 rows by the first weight matrix, adds the bias, writes the tile
  out, and keeps two running column sums (of the tile's entries and of their squares) in two
  one-row outputs that stay in their staging buffers from the first grid point to the last.
  Region 1 normalises a tile, multiplies by the second weight matrix, adds the bias, and keeps the
  same two running sums.  Region 2 normalises a tile and adds each row's sum to a column.

  What a window's staging buffer holds after the body at a point: an input window its block; a
  tile output the tile's value; a running sum the body's update of what the point before left,
  started from the zero row at the first point.
-/
import proofs.«101859_j90958817394882_1_alg».proof.Proof.Gen.Kernel.Launch
import proofs.«101859_j90958817394882_1_alg».proof.Proof.Gen.Kernel.Skeleton
import proofs.«101859_j90958817394882_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body computes at point `t`: the rows' products with the weights, plus the bias. -/
def tile0 (c : Dev nD) (t : Fin cfg0.N) : Vec F S2048x512 .f32 :=
  k0_pay3 (iblk0 V c 0 t) (iblk0 V c 1 t) (iblk0 V c 2 t)

/-- The running column sum after point `n`: the body's update of the sum so far, from the zero row. -/
def sum0 (c : Dev nD) : (n : ℕ) → n < cfg0.N → Vec F S1x512 .f32
  | 0, hn => k0_pay4 (iblk0 V c 0 ⟨0, hn⟩) (iblk0 V c 1 ⟨0, hn⟩) (iblk0 V c 2 ⟨0, hn⟩) (k0_pay1 (F := F))
  | n + 1, hn => k0_pay4 (iblk0 V c 0 ⟨n + 1, hn⟩) (iblk0 V c 1 ⟨n + 1, hn⟩) (iblk0 V c 2 ⟨n + 1, hn⟩) (sum0 c n (Nat.lt_of_succ_lt hn))

/-- The running column sum of squares after point `n`. -/
def sq0 (c : Dev nD) : (n : ℕ) → n < cfg0.N → Vec F S1x512 .f32
  | 0, hn => k0_pay5 (iblk0 V c 0 ⟨0, hn⟩) (iblk0 V c 1 ⟨0, hn⟩) (iblk0 V c 2 ⟨0, hn⟩) (k0_pay2 (F := F))
  | n + 1, hn => k0_pay5 (iblk0 V c 0 ⟨n + 1, hn⟩) (iblk0 V c 1 ⟨n + 1, hn⟩) (iblk0 V c 2 ⟨n + 1, hn⟩) (sq0 c n (Nat.lt_of_succ_lt hn))

/-- Pipeline 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
    | ⟨4, _⟩ => sum0 V c t.val t.isLt
    | ⟨5, _⟩ => sq0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]
theorem after0_4 (c : Dev nD) (t : Fin cfg0.N) : (dat0 V c).after 4 t = sum0 V c t.val t.isLt := by dsimp only [dat0]
theorem after0_5 (c : Dev nD) (t : Fin cfg0.N) : (dat0 V c).after 5 t = sq0 V c t.val t.isLt := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile the body computes at point `t`: the normalised rows' products with the weights, plus the bias. -/
def tile1 (c : Dev nD) (t : Fin cfg1.N) : Vec F S2048x256 .f32 :=
  k1_pay4 (iblk1 V c 0 t) (iblk1 V c 1 t) (iblk1 V c 2 t) (iblk1 V c 3 t) (iblk1 V c 4 t) (iblk1 V c 5 t) (iblk1 V c 6 t)

def sum1 (c : Dev nD) : (n : ℕ) → n < cfg1.N → Vec F S1x256 .f32
  | 0, hn => k1_pay5 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (k1_pay2 (F := F))
  | n + 1, hn => k1_pay5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (sum1 c n (Nat.lt_of_succ_lt hn))

def sq1 (c : Dev nD) : (n : ℕ) → n < cfg1.N → Vec F S1x256 .f32
  | 0, hn => k1_pay1 (tile1 V c ⟨0, hn⟩) (k1_pay3 (F := F))
  | n + 1, hn => k1_pay1 (tile1 V c ⟨n + 1, hn⟩) (sq1 c n (Nat.lt_of_succ_lt hn))

/-- Pipeline 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => tile1 V c t
    | ⟨8, _⟩ => sum1 V c t.val t.isLt
    | ⟨9, _⟩ => sq1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = tile1 V c t := by dsimp only [dat1]
theorem after1_8 (c : Dev nD) (t : Fin cfg1.N) : (dat1 V c).after 8 t = sum1 V c t.val t.isLt := by dsimp only [dat1]
theorem after1_9 (c : Dev nD) (t : Fin cfg1.N) : (dat1 V c).after 9 t = sq1 V c t.val t.isLt := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The column the body computes at point `t`: each normalised row's sum, added to the tile of the incoming column. -/
def tile2 (c : Dev nD) (t : Fin cfg2.N) : Vec F S2048x1 .f32 :=
  k2_pay1 (iblk2 V c 0 t) (iblk2 V c 1 t) (iblk2 V c 2 t) (iblk2 V c 3 t) (iblk2 V c 4 t) (iblk2 V c 5 t)

/-- Pipeline 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => tile2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = tile2 V c t := by dsimp only [dat2]

end Cert.Kernel.Hand

end
-- ==== Proof.FoldK.lean ====
/-
  The contents of the TensorCore's buffers at every boundary of @main, as a fold from the launch
  memory: a stretch of host operations applies its operations in order; a region leaves each of
  its windows' arrays at what the pipeline's write-backs fold to and every other buffer as it was.
-/
import proofs.«101859_j90958817394882_1_alg».proof.Proof.DatsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first sixty host operations. -/
abbrev W1 : Dev nD → Valuation τ sig (Elt F) := fun c => StableHlo.after main_part0_ops0 (W0 m ρ c)
/-- After the next eighteen: region 0's entry. -/
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
/-- At region 0's exit. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the twelve host operations that turn the sums into a mean and a reciprocal deviation: region 1's entry. -/
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b
/-- At region 1's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the second such twelve: region 2's entry. -/
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At region 2's exit. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the closing reshape: what @main returns from. -/
abbrev W8 : Dev nD → Valuation τ sig (Elt F) := fun c => StableHlo.after main_part1_ops3 (W7 m ρ c)

end Cert.Kernel.Hand

end
-- ==== Proof.Body0K.lean ====
/-
  The body obligation of the first pipeline: at every grid point the body, called on the windows' current staging
  buffers at what they then hold, leaves each at what the proof data says.

  The body has one branch, taken at the first point only, which stores the zero rows in the two running sums' buffers.
  After it the body loads the three inputs, stores the tile (the rows' products with the weights, plus the bias), and
  for each running sum loads the buffer and stores its update by the tile's column sums (of the entries, of their
  squares). At the first point the loads read back the zero rows; at a later point they read what the point before
  left, the buffers being written back at the last point only. Every access is of a whole buffer.
-/
import proofs.«101859_j90958817394882_1_alg».proof.Proof.DatsK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch condition -/

/-- The condition of the body's one branch, from the grid coordinates: the point's coordinate is zero. -/
abbrev b0_cond (i : grid0.Coords) : Prop := (Scalar.cmpi .ne (Scalar.extui (Scalar.cmpi .eq (BitVec.ofNat 32 (i 0).val) 0#32)) 0#32) = 1#1
/-- It holds at the first point only: decided over the grid. -/
theorem b0_hcond : ∀ t : Fin cfg0.N, b0_cond (grid0.coords t) ↔ t.val % 32 = 0 :=
  (by decide +kernel : ∀ t : Fin grid0.N, b0_cond (grid0.coords t) ↔ t.val % 32 = 0)

/-- The zero offsets of a whole-buffer access. -/
theorem b0_hz : (![0, 0] : Fin 2 → Nat) = fun _ => 0 := funext fun a => by fin_cases a <;> rfl

/-! ## The running sums, point by point -/

/-- At the first point the running column sum is the body's update of the zero row. -/
theorem b0_sum0_first (c : Dev nD) (t : Fin cfg0.N) (h0 : t.val % 32 = 0) :
    sum0 V c t.val t.isLt = k0_pay4 (iblk0 V c 0 t) (iblk0 V c 1 t) (iblk0 V c 2 t) (k0_pay1 (F := F)) := by
  have hN : t.val < 32 := lt_of_lt_of_eq t.isLt (show cfg0.N = 32 from N_0)
  obtain ⟨n, hn⟩ := t
  cases n with
  | zero => exact rfl
  | succ n => exact (by exfalso; dsimp only at h0 hN; omega)

/-- At a later point it is the body's update of the sum the point before left. -/
theorem b0_sum0_later (c : Dev nD) (t : Fin cfg0.N) (h0 : ¬t.val % 32 = 0) :
    sum0 V c t.val t.isLt = k0_pay4 (iblk0 V c 0 t) (iblk0 V c 1 t) (iblk0 V c 2 t) (sum0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- At the first point the running column sum of squares is the body's update of the zero row. -/
theorem b0_sq0_first (c : Dev nD) (t : Fin cfg0.N) (h0 : t.val % 32 = 0) :
    sq0 V c t.val t.isLt = k0_pay5 (iblk0 V c 0 t) (iblk0 V c 1 t) (iblk0 V c 2 t) (k0_pay2 (F := F)) := by
  have hN : t.val < 32 := lt_of_lt_of_eq t.isLt (show cfg0.N = 32 from N_0)
  obtain ⟨n, hn⟩ := t
  cases n with
  | zero => exact rfl
  | succ n => exact (by exfalso; dsimp only at h0 hN; omega)

/-- At a later point it is the body's update of what the point before left. -/
theorem b0_sq0_later (c : Dev nD) (t : Fin cfg0.N) (h0 : ¬t.val % 32 = 0) :
    sq0 V c t.val t.isLt = k0_pay5 (iblk0 V c 0 t) (iblk0 V c 1 t) (iblk0 V c 2 t) (sq0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## What the body finds in each staging buffer -/

/-- An input window's current staging buffer holds its block at every point, fetched there or not. -/
theorem b0_before_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem b0_before_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem b0_before_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a point that is not the first, the column sum's staging buffer holds what the body left at the point before:
    the buffer is written back at the last point only. -/
theorem b0_before_4_later (c : Dev nD) (t : Fin cfg0.N) (h0 : ¬t.val % 32 = 0) (d) :
    (dat0 V c).before 4 t d = sum0 V c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  rw [after0_4]

/-- And the column sum of squares' likewise. -/
theorem b0_before_5_later (c : Dev nD) (t : Fin cfg0.N) (h0 : ¬t.val % 32 = 0) (d) :
    (dat0 V c).before 5 t d = sq0 V c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  rw [after0_5]

/-! ## The body's triple, case by case -/

set_option maxHeartbeats 1000000 in
/-- THE FIRST POINT (the branch taken). On whole staging buffers, the inputs' at contents `x0 x1 x2` and the outputs' at
    anything, the body runs to the continuation holding the inputs' as they were, the tile's at the rows' products with the
    weights plus the bias, and each running sum's at the body's update of the zero row: the branch stores the zero rows, the
    loads that follow read them back, and every store is of the whole buffer, so the last one is what the buffer holds. -/
theorem b0_sound_kernel_A (c : Dev nD) (E : Set ℕ) (i : grid0.Coords)
    (arg1 : Memref sig .tc .vmem S2048x624 .bf16) (harg1 : arg1.IsWhole) (arg2 : Memref sig .tc .vmem S624x512 .bf16) (harg2 : arg2.IsWhole)
    (arg3 : Memref sig .tc .vmem S1x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (hc0 : b0_cond i)
    (x0 : Vec F S2048x624 .bf16) (x1 : Vec F S624x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 (k0_pay1 (F := F)))
            ∗ owns (c : Thread nD τ) arg6 fullShare (k0_pay5 x0 x1 x2 (k0_pay2 (F := F)))) -∗ K ⟨⟩))
      ⊢ wp frame (wpE (defs₀ (F := F)) Variants.none c none) E (cc0__matmul1_kernel i arg1 harg1 arg2 harg2 arg3 harg3 arg4 harg4 arg5 harg5 arg6 harg6) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero b0_hz inb_S2048x512_S2048x512_0_0 y⟩),
      View.canon_unit_zero b0_hz]
    simp only [View.readAt_eq_ld, View.ld_unit_zero (S := S2048x624) b0_hz, View.ld_unit_zero (S := S624x512) b0_hz, View.ld_unit_zero (S := S1x512) b0_hz]
  isplitl [H4]
  · iexists _; isplitr
    swap; · iexact H4
    ipureintro
    rw [View.read_writes_eq_canon _ _ _ (fun y => ⟨_, List.mem_cons.mpr (Or.inl rfl), View.mem_set_unit_zero b0_hz inb_S1x512_S1x512_0_0 y⟩),
      View.canon_cons_unit_zero b0_hz]
    sl_unfold_words
    rw [View.readCov_unit_zero _ b0_hz]
    simp only [View.readAt_eq_ld, View.ld_unit_zero (S := S2048x624) b0_hz, View.ld_unit_zero (S := S624x512) b0_hz, View.ld_unit_zero (S := S1x512) b0_hz]
  iexists _; isplitr
  swap; · iexact H5
  ipureintro
  rw [View.read_writes_eq_canon _ _ _ (fun y => ⟨_, List.mem_cons.mpr (Or.inl rfl), View.mem_set_unit_zero b0_hz inb_S1x512_S1x512_0_0 y⟩),
    View.canon_cons_unit_zero b0_hz]
  sl_unfold_words
  rw [View.readCov_unit_zero _ b0_hz]
  simp only [View.readAt_eq_ld, View.ld_unit_zero (S := S2048x624) b0_hz, View.ld_unit_zero (S := S624x512) b0_hz, View.ld_unit_zero (S := S1x512) b0_hz]

set_option maxHeartbeats 1000000 in
/-- A LATER POINT (the branch not taken). The same, the running sums' buffers at given contents `xo4 xo5`: the loads read
    them, and the stores leave the body's update of each. -/
theorem b0_sound_kernel_B (c : Dev nD) (E : Set ℕ) (i : grid0.Coords)
    (arg1 : Memref sig .tc .vmem S2048x624 .bf16) (harg1 : arg1.IsWhole) (arg2 : Memref sig .tc .vmem S624x512 .bf16) (harg2 : arg2.IsWhole)
    (arg3 : Memref sig .tc .vmem S1x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (hc0 : ¬b0_cond i)
    (x0 : Vec F S2048x624 .bf16) (x1 : Vec F S624x512 .bf16) (x2 : Vec F S1x512 .f32) (xo4 xo5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 xo4)
            ∗ owns (c : Thread nD τ) arg6 fullShare (k0_pay5 x0 x1 x2 xo5)) -∗ K ⟨⟩))
      ⊢ wp frame (wpE (defs₀ (F := F)) Variants.none c none) E (cc0__matmul1_kernel i arg1 harg1 arg2 harg2 arg3 harg3 arg4 harg4 arg5 harg5 arg6 harg6) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero b0_hz inb_S2048x512_S2048x512_0_0 y⟩),
      View.canon_unit_zero b0_hz]
    simp only [View.readAt_eq_ld, View.ld_unit_zero (S := S2048x624) b0_hz, View.ld_unit_zero (S := S624x512) b0_hz, View.ld_unit_zero (S := S1x512) b0_hz]
  isplitl [H4]
  · iexists _; isplitr
    swap; · iexact H4
    ipureintro
    rw [View.read_writes_eq_canon _ _ _ (fun y => ⟨_, List.mem_cons.mpr (Or.inl rfl), View.mem_set_unit_zero b0_hz inb_S1x512_S1x512_0_0 y⟩),
      View.canon_unit_zero b0_hz]
    simp only [View.readAt_eq_ld, View.ld_unit_zero (S := S2048x624) b0_hz, View.ld_unit_zero (S := S624x512) b0_hz, View.ld_unit_zero (S := S1x512) b0_hz]
  iexists _; isplitr
  swap; · iexact H5
  ipureintro
  rw [View.read_writes_eq_canon _ _ _ (fun y => ⟨_, List.mem_cons.mpr (Or.inl rfl), View.mem_set_unit_zero b0_hz inb_S1x512_S1x512_0_0 y⟩),
    View.canon_unit_zero b0_hz]
  simp only [View.readAt_eq_ld, View.ld_unit_zero (S := S2048x624) b0_hz, View.ld_unit_zero (S := S624x512) b0_hz, View.ld_unit_zero (S := S1x512) b0_hz]

/-! ## The body obligation, at a generic point -/

/-- What the body is called with at point `t`: the invariant, what the core owes, and each window's current staging
    buffer at what it then holds. -/
def b0_bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the body leaves. -/
def b0_bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point. The inputs' buffers hold their blocks. At the first point the branch is taken: the two running
    sums start from the zero rows. At a later point it is not: each running sum's buffer holds what the point before
    left, and the body updates it. The invariant and what the core owes pass through unread. -/
theorem b0_sound_body (c : Dev nD) (t : Fin cfg0.N) :
    b0_bodyPre V c t ⊢ wp frame (wpE (defs₀ (F := F)) Variants.none c none) Set.univ (bodyAt0 t) (fun _ => b0_bodyPost V c t) := by
  unfold b0_bodyPre b0_bodyPost bodyAt0
  simp only [b0_before_0, b0_before_1, b0_before_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold tile0
  by_cases h0 : t.val % 32 = 0
  · rw [b0_sum0_first V c t h0, b0_sq0_first V c t h0]
    iintro ⟨HΦ, Ho, ⟨%d0, H0⟩, ⟨%d1, H1⟩, ⟨%d2, H2⟩, ⟨%d3, H3⟩, ⟨%d4, H4⟩, ⟨%d5, H5⟩⟩
    iapply (b0_sound_kernel_A c Set.univ (grid0.coords t) _ _ _ _ _ _ _ _ _ _ _ _ ((b0_hcond t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [b0_sum0_later V c t h0, b0_sq0_later V c t h0]
    simp only [b0_before_4_later V c t h0, b0_before_5_later V c t h0]
    iintro ⟨HΦ, Ho, ⟨%d0, H0⟩, ⟨%d1, H1⟩, ⟨%d2, H2⟩, ⟨%d3, H3⟩, ⟨%d4, H4⟩, ⟨%d5, H5⟩⟩
    iapply (b0_sound_kernel_B c Set.univ (grid0.coords t) _ _ _ _ _ _ _ _ _ _ _ _ (fun h => h0 ((b0_hcond t).mp h)) (iblk0 V c 0 t) (iblk0 V c 1 t) (iblk0 V c 2 t)
      (sum0 V c (t.val - 1) (Nat.lt_of_le_of_lt (Nat.sub_le _ _) t.isLt)) (sq0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the first pipeline, at every point. -/
theorem body_obligation0 (c : Dev nD) : BodyObligation (dat0 (F := F) V c) (defs₀ (F := F)) Variants.none () Set.univ := fun t => by
  rw [bigSep_W0, bigSep_W0]
  exact b0_sound_body V c t

end Cert.Kernel.Hand

end
-- ==== Proof.Body1K.lean ====
/-
  The body of the second region, at any grid point.

  The body normalises a tile of 2048 rows, multiplies it by the second weight matrix and adds the bias; it writes the
  tile out and adds the tile's column sums, and the column sums of its squares, into two one-row running sums.  At the
  first grid point a branch first sets both running sums to the zero row.

  Two cases, by whether the point is the first.  In each, every load and every store is of a whole buffer, so a load
  reads the buffer's contents and the last store to a buffer is what the buffer holds afterwards.  At the first point
  each running sum therefore ends at the body's update of the zero row; at a later point, at the body's update of what
  the buffer held — which is what the point before left there, the running sums being written back at the last point only.
-/
import proofs.«101859_j90958817394882_1_alg».proof.Proof.DatsK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however spelt. -/
theorem b1_hz : (![0, 0] : Fin 2 → Nat) = fun _ => 0 := funext fun a => by fin_cases a <;> rfl

/-- A store of the whole buffer covers it, whatever was stored before. -/
theorem b1_cover {S : Shape} {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- The condition of the body's branch, from the grid coordinates. -/
abbrev b1_cond (i : grid1.Coords) : Prop := (Scalar.cmpi .ne (Scalar.extui (Scalar.cmpi .eq (BitVec.ofNat 32 (i 0).val) 0#32)) 0#32) = 1#1
/-- It holds at the first point only. -/
theorem b1_hcond : ∀ t : Fin cfg1.N, b1_cond (grid1.coords t) ↔ t.val % 32 = 0 :=
  (by decide +kernel : ∀ t : Fin grid1.N, b1_cond (grid1.coords t) ↔ t.val % 32 = 0)

/-! ## The input windows -/

/-- Input window 0's current buffer holds its block at every point, fetched there or not (unfetched, the block index
    has not moved): for any proof data whose array is the entry contents and whose body leaves the block in place. -/
theorem b1_before_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem b1_before_0 (c : Dev nD) (t : Fin cfg1.N) (d) : (dat1 V c).before 0 t d = iblk1 V c 0 t :=
  b1_before_0_of V (dat1 V c) (A_eq1 V c 0) (after1_0 V c) t d

/-- Input window 1's current buffer holds its block at every point, fetched there or not (unfetched, the block index
    has not moved): for any proof data whose array is the entry contents and whose body leaves the block in place. -/
theorem b1_before_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem b1_before_1 (c : Dev nD) (t : Fin cfg1.N) (d) : (dat1 V c).before 1 t d = iblk1 V c 1 t :=
  b1_before_1_of V (dat1 V c) (A_eq1 V c 1) (after1_1 V c) t d

/-- Input window 2's current buffer holds its block at every point, fetched there or not (unfetched, the block index
    has not moved): for any proof data whose array is the entry contents and whose body leaves the block in place. -/
theorem b1_before_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem b1_before_2 (c : Dev nD) (t : Fin cfg1.N) (d) : (dat1 V c).before 2 t d = iblk1 V c 2 t :=
  b1_before_2_of V (dat1 V c) (A_eq1 V c 2) (after1_2 V c) t d

/-- Input window 3's current buffer holds its block at every point, fetched there or not (unfetched, the block index
    has not moved): for any proof data whose array is the entry contents and whose body leaves the block in place. -/
theorem b1_before_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem b1_before_3 (c : Dev nD) (t : Fin cfg1.N) (d) : (dat1 V c).before 3 t d = iblk1 V c 3 t :=
  b1_before_3_of V (dat1 V c) (A_eq1 V c 3) (after1_3 V c) t d

/-- Input window 4's current buffer holds its block at every point, fetched there or not (unfetched, the block index
    has not moved): for any proof data whose array is the entry contents and whose body leaves the block in place. -/
theorem b1_before_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem b1_before_4 (c : Dev nD) (t : Fin cfg1.N) (d) : (dat1 V c).before 4 t d = iblk1 V c 4 t :=
  b1_before_4_of V (dat1 V c) (A_eq1 V c 4) (after1_4 V c) t d

/-- Input window 5's current buffer holds its block at every point, fetched there or not (unfetched, the block index
    has not moved): for any proof data whose array is the entry contents and whose body leaves the block in place. -/
theorem b1_before_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem b1_before_5 (c : Dev nD) (t : Fin cfg1.N) (d) : (dat1 V c).before 5 t d = iblk1 V c 5 t :=
  b1_before_5_of V (dat1 V c) (A_eq1 V c 5) (after1_5 V c) t d

/-- Input window 6's current buffer holds its block at every point, fetched there or not (unfetched, the block index
    has not moved): for any proof data whose array is the entry contents and whose body leaves the block in place. -/
theorem b1_before_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem b1_before_6 (c : Dev nD) (t : Fin cfg1.N) (d) : (dat1 V c).before 6 t d = iblk1 V c 6 t :=
  b1_before_6_of V (dat1 V c) (A_eq1 V c 6) (after1_6 V c) t d

/-! ## The body's triple, case by case -/

set_option maxHeartbeats 1000000 in
/-- THE FIRST POINT. On whole buffers, the inputs' at contents `x0 … x6` and the three outputs' at anything, the body runs
    to the continuation holding the inputs' as they were, the tile output's at the tile computed from the inputs, and
    each running sum's at the body's update of the zero row: the branch stores the zero row, the later load reads it
    back, and the last store of each buffer, a store of the whole buffer, is what the buffer ends with. -/
theorem b1_sound_kernel_A (c : Dev nD) (E : Set ℕ) (i : grid1.Coords) (arg1 : Memref sig .tc .vmem S2048x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S2048x256 .f32) (harg8 : arg8.IsWhole) (arg9 : Memref sig .tc .vmem S1x256 .f32) (harg9 : arg9.IsWhole) (arg10 : Memref sig .tc .vmem S1x256 .f32) (harg10 : arg10.IsWhole) (hc0 : b1_cond i)
    (x0 : Vec F S2048x512 .f32) (x1 : Vec F S1x512 .f32) (x2 : Vec F S1x512 .f32) (x3 : Vec F S1x512 .f32) (x4 : Vec F S1x512 .f32) (x5 : Vec F S512x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay4 x0 x1 x2 x3 x4 x5 x6) ∗ owns (c : Thread nD τ) arg9 fullShare (k1_pay5 x0 x1 x2 x3 x4 x5 x6 (k1_pay2 (F := F))) ∗ owns (c : Thread nD τ) arg10 fullShare (k1_pay1 (k1_pay4 x0 x1 x2 x3 x4 x5 x6) (k1_pay3 (F := F)))) -∗ K ⟨⟩))
      ⊢ wp frame (wpE (defs₀ (F := F)) Variants.none c none) E (cc1__matmul2_kernel i arg1 harg1 arg2 harg2 arg3 harg3 arg4 harg4 arg5 harg5 arg6 harg6 arg7 harg7 arg8 harg8 arg9 harg9 arg10 harg10) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  isplitl [H8]
  · iexists _; isplitr
    swap; · iexact H8
    ipureintro
    sl_unfold_run_names
    rw [View.read_writes_eq_canon _ _ _ (b1_cover b1_hz _ _ _), View.canon_cons_unit_zero (S := S1x256) b1_hz, View.readCov_unit_zero (S := S1x256) _ b1_hz]
    simp only [View.readAt_eq_ld, View.ld_unit_zero (S := S2048x512) b1_hz, View.ld_unit_zero (S := S1x512) b1_hz, View.ld_unit_zero (S := S512x256) b1_hz, View.ld_unit_zero (S := S1x256) b1_hz]
  iexists _; isplitr
  swap; · iexact H9
  ipureintro
  sl_unfold_run_names
  rw [View.read_writes_eq_canon _ _ _ (b1_cover b1_hz _ _ _), View.canon_cons_unit_zero (S := S1x256) b1_hz, View.readCov_unit_zero (S := S1x256) _ b1_hz]
  simp only [View.readAt_eq_ld, View.ld_unit_zero (S := S2048x512) b1_hz, View.ld_unit_zero (S := S1x512) b1_hz, View.ld_unit_zero (S := S512x256) b1_hz, View.ld_unit_zero (S := S1x256) b1_hz]

set_option maxHeartbeats 1000000 in
/-- A LATER POINT. The same, the running sums' buffers at given contents `xo8`, `xo9`: the branch is not taken, so the
    loads read those contents and each running sum ends at the body's update of them. -/
theorem b1_sound_kernel_B (c : Dev nD) (E : Set ℕ) (i : grid1.Coords) (arg1 : Memref sig .tc .vmem S2048x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S2048x256 .f32) (harg8 : arg8.IsWhole) (arg9 : Memref sig .tc .vmem S1x256 .f32) (harg9 : arg9.IsWhole) (arg10 : Memref sig .tc .vmem S1x256 .f32) (harg10 : arg10.IsWhole) (hc0 : ¬b1_cond i)
    (x0 : Vec F S2048x512 .f32) (x1 : Vec F S1x512 .f32) (x2 : Vec F S1x512 .f32) (x3 : Vec F S1x512 .f32) (x4 : Vec F S1x512 .f32) (x5 : Vec F S512x256 .bf16) (x6 : Vec F S1x256 .f32) (xo8 xo9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay4 x0 x1 x2 x3 x4 x5 x6) ∗ owns (c : Thread nD τ) arg9 fullShare (k1_pay5 x0 x1 x2 x3 x4 x5 x6 xo8) ∗ owns (c : Thread nD τ) arg10 fullShare (k1_pay1 (k1_pay4 x0 x1 x2 x3 x4 x5 x6) xo9)) -∗ K ⟨⟩))
      ⊢ wp frame (wpE (defs₀ (F := F)) Variants.none c none) E (cc1__matmul2_kernel i arg1 harg1 arg2 harg2 arg3 harg3 arg4 harg4 arg5 harg5 arg6 harg6 arg7 harg7 arg8 harg8 arg9 harg9 arg10 harg10) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6 hf8 hf9
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  isplitl [H8]
  · iexists _; isplitr
    swap; · iexact H8
    ipureintro
    sl_unfold_run_names
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  iexists _; isplitr
  swap; · iexact H9
  ipureintro
  sl_unfold_run_names
  rw [View.read_writes_eq_canon _ _ _ (b1_cover b1_hz _ _ _), View.canon_unit_zero b1_hz]
  simp only [View.readAt_eq_ld, View.ld_unit_zero (S := S2048x512) b1_hz, View.ld_unit_zero (S := S1x512) b1_hz, View.ld_unit_zero (S := S512x256) b1_hz, View.ld_unit_zero (S := S1x256) b1_hz]

/-! ## The running sums, point by point -/

/-- At the first point the running column sum is the body's update of the zero row. -/
theorem b1_sum1_A (c : Dev nD) (t : Fin cfg1.N) (h0 : t.val % 32 = 0) :
    sum1 V c t.val t.isLt = k1_pay5 (iblk1 V c 0 t) (iblk1 V c 1 t) (iblk1 V c 2 t) (iblk1 V c 3 t) (iblk1 V c 4 t) (iblk1 V c 5 t) (iblk1 V c 6 t) (k1_pay2 (F := F)) := by
  have hN : t.val < 32 := lt_of_lt_of_eq t.isLt (show cfg1.N = 32 from N_1)
  obtain ⟨n, hn⟩ := t
  cases n with
  | zero => rfl
  | succ n => exfalso; dsimp only at h0 hN; omega

/-- At a later point it is the body's update of the sum the point before left. -/
theorem b1_sum1_B (c : Dev nD) (t : Fin cfg1.N) (h0 : ¬t.val % 32 = 0) :
    sum1 V c t.val t.isLt = k1_pay5 (iblk1 V c 0 t) (iblk1 V c 1 t) (iblk1 V c 2 t) (iblk1 V c 3 t) (iblk1 V c 4 t) (iblk1 V c 5 t) (iblk1 V c 6 t) (sum1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rfl

/-- The same for the running column sum of squares, over the tile the body computes at the point. -/
theorem b1_sq1_A (c : Dev nD) (t : Fin cfg1.N) (h0 : t.val % 32 = 0) :
    sq1 V c t.val t.isLt = k1_pay1 (tile1 V c t) (k1_pay3 (F := F)) := by
  have hN : t.val < 32 := lt_of_lt_of_eq t.isLt (show cfg1.N = 32 from N_1)
  obtain ⟨n, hn⟩ := t
  cases n with
  | zero => rfl
  | succ n => exfalso; dsimp only at h0 hN; omega

theorem b1_sq1_B (c : Dev nD) (t : Fin cfg1.N) (h0 : ¬t.val % 32 = 0) :
    sq1 V c t.val t.isLt = k1_pay1 (tile1 V c t) (sq1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rfl

/-- At a point that is not the first, accumulator window 8's staging buffer holds what the body left at the point
    before: the buffer is written back at the last point only, and the window is uncut and never idle. -/
theorem b1_before_8_B (c : Dev nD) (t : Fin cfg1.N) (h0 : ¬t.val % 32 = 0) (d) :
    (dat1 V c).before 8 t d = sum1 V c (t.val - 1) (Nat.lt_of_le_of_lt (Nat.sub_le _ _) t.isLt) := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

/-- At a point that is not the first, accumulator window 9's staging buffer holds what the body left at the point
    before: the buffer is written back at the last point only, and the window is uncut and never idle. -/
theorem b1_before_9_B (c : Dev nD) (t : Fin cfg1.N) (h0 : ¬t.val % 32 = 0) (d) :
    (dat1 V c).before 9 t d = sq1 V c (t.val - 1) (Nat.lt_of_le_of_lt (Nat.sub_le _ _) t.isLt) := by
  have hN : t.val < 32 := lt_of_lt_of_eq t.isLt (show cfg1.N = 32 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

/-- What the body is called with at point `t`, the windows one by one, -/
def b1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def b1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 800000 in
/-- The body at any point: the inputs' buffers hold their blocks; at the first point the branch zeroes both running sums,
    at a later point they hold what the point before left; so the body's triple of that case applies, and the invariant
    and what the core owes pass through unread. -/
theorem b1_sound_body (c : Dev nD) (t : Fin cfg1.N) :
    b1_bodyPre V c t ⊢ wp frame (wpE (defs₀ (F := F)) Variants.none c none) Set.univ (bodyAt1 t) (fun _ => b1_bodyPost V c t) := by
  unfold b1_bodyPre b1_bodyPost bodyAt1
  simp only [b1_before_0, b1_before_1, b1_before_2, b1_before_3, b1_before_4, b1_before_5, b1_before_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 32 := lt_of_lt_of_eq t.isLt (show cfg1.N = 32 from N_1)
  by_cases h0 : t.val % 32 = 0
  · rw [b1_sum1_A V c t h0, b1_sq1_A V c t h0]
    unfold tile1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (b1_sound_kernel_A c Set.univ (grid1.coords t) _ _ _ _ _ _ _ _ _ _ _ _ _ _ _ _ _ _ _ _ ((b1_hcond t).mpr h0) (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [b1_sum1_B V c t h0, b1_sq1_B V c t h0]
    simp only [b1_before_8_B V c t h0, b1_before_9_B V c t h0]
    unfold tile1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (b1_sound_kernel_B c Set.univ (grid1.coords t) _ _ _ _ _ _ _ _ _ _ _ _ _ _ _ _ _ _ _ _ (fun h => h0 ((b1_hcond t).mp h)) (iblk1 V c 0 t) (iblk1 V c 1 t) (iblk1 V c 2 t) (iblk1 V c 3 t) (iblk1 V c 4 t) (iblk1 V c 5 t) (iblk1 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation1 (c : Dev nD) : BodyObligation (dat1 (F := F) V c) (defs₀ (F := F)) Variants.none () Set.univ := fun t => by
  rw [bigSep_W1, bigSep_W1]
  exact b1_sound_body V c t

end Cert.Kernel.Hand

end
-- ==== Proof.Body2K.lean ====
/-
  The body of the third pipeline at a grid point: it reads the six input windows' staging buffers
  (the tile of rows, four one-row parameters of the normalisation, the incoming column), computes
  for each row the sum of its normalised entries added to the incoming column's entry, and stores
  that column over the whole output staging buffer.  Every input buffer holds its window's block at
  every point, fetched there or not; the one store covers the output buffer, so what the buffer
  holds afterwards is the stored value, whatever it held before.
-/
import proofs.«101859_j90958817394882_1_alg».proof.Proof.DatsK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it is
    not fetched the block index has not moved since the point before. -/
theorem b2_before_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every point, fetched there or not: where it is
    not fetched the block index has not moved since the point before. -/
theorem b2_before_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every point, fetched there or not: where it is
    not fetched the block index has not moved since the point before. -/
theorem b2_before_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- Input window 3's current staging buffer holds its block at every point, fetched there or not: where it is
    not fetched the block index has not moved since the point before. -/
theorem b2_before_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- Input window 4's current staging buffer holds its block at every point, fetched there or not: where it is
    not fetched the block index has not moved since the point before. -/
theorem b2_before_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- Input window 5's current staging buffer holds its block at every point, fetched there or not: where it is
    not fetched the block index has not moved since the point before. -/
theorem b2_before_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-! ## The body's triple -/

/-- The offsets of every access of the body are zero. -/
theorem b2_hz : (![0, 0] : Fin 2 → Nat) = fun _ => 0 := funext fun a => by fin_cases a <;> rfl

/-- The one store is of the whole output buffer, so it covers it. -/
theorem b2_cover (p0 : Vec F S2048x1 .f32) (y : S2048x1.Idx) :
    ∃ pc ∈ ([⟨Rect.unit (s := S2048x1) ![0, 0] S2048x1.size inb_S2048x1_S2048x1_0_0, p0⟩] : List (View.Piece (Elt F) S2048x1 .f32)), y ∈ pc.1.set :=
  View.cover_of_tiled [⟨Rect.unit (s := S2048x1) ![0, 0] S2048x1.size inb_S2048x1_S2048x1_0_0, p0⟩] S2048x1.size (by rfl) y

set_option maxHeartbeats 1000000 in
/-- The kernel body on whole staging memrefs, the six inputs' at read contents and the output's at anything, runs to
    the continuation holding the inputs' as they were and the output's at the computed column of the inputs. -/
theorem b2_sound_kernel (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x1 .f32) (harg6 : arg6.IsWhole) (arg7 : Memref sig .tc .vmem S2048x1 .f32) (harg7 : arg7.IsWhole)
    (x0 : Vec F S2048x256 .f32) (x1 x2 x3 x4 : Vec F S1x256 .f32) (x5 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 x0 x1 x2 x3 x4 x5)) -∗ K ⟨⟩))
      ⊢ wp frame (wpE (defs₀ (F := F)) Variants.none c none) E (cc2__bn2_kernel i arg1 harg1 arg2 harg2 arg3 harg3 arg4 harg4 arg5 harg5 arg6 harg6 arg7 harg7) K := by
  simp only [cc2__bn2_kernel_eq_skeleton]; unfold cc2__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (b2_cover _), View.canon_unit_zero b2_hz]
  simp only [View.readAt_eq_ld, View.ld_unit_zero (S := S2048x256) b2_hz, View.ld_unit_zero (S := S1x256) b2_hz,
    View.ld_unit_zero (S := S2048x1) b2_hz]

/-! ## The body obligation, at a generic point -/

/-- What the body is called with at point `t`: the invariant, the core's debts, and each window's current staging
    buffer at what the pipeline left in it, -/
def b2_bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, each buffer at what the body leaves in it. -/
def b2_bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the body's triple applies; the invariant and
    the core's debts pass through unread. -/
theorem b2_sound_body (c : Dev nD) (t : Fin cfg2.N) :
    b2_bodyPre V c t ⊢ wp frame (wpE (defs₀ (F := F)) Variants.none c none) Set.univ (bodyAt2 t) (fun _ => b2_bodyPost V c t) := by
  unfold b2_bodyPre b2_bodyPost bodyAt2
  simp only [b2_before_0, b2_before_1, b2_before_2, b2_before_3, b2_before_4, b2_before_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (b2_sound_kernel c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold tile2
  iexact H6

/-- The library's body obligation, at every point. -/
theorem body_obligation2 (c : Dev nD) : BodyObligation (dat2 (F := F) V c) (defs₀ (F := F)) Variants.none () Set.univ := fun t => by
  rw [bigSep_W2, bigSep_W2]
  exact b2_sound_body V c t

end Cert.Kernel.Hand

end
-- ==== Proof.RunK.lean ====
/-
  The run of @main from the launch to the return, as one theorem at any float instance: three kernel
  regions among five stretches of host operations, eight segments in @main's order.

  The thread state at every boundary is "every unscoped buffer of the TensorCore at the boundary's
  contents, the generator register at some state, nothing owed".  A stretch of host operations takes the
  contents to what its operations applied in order leave; a region takes its windows' arrays to what
  the pipeline's write-backs fold to and leaves every other buffer alone.  The conclusion: every
  weakly fair execution terminates, and in every final state each unscoped buffer holds the last
  boundary's contents.
-/
import proofs.«101859_j90958817394882_1_alg».proof.Proof.FoldK
import proofs.«101859_j90958817394882_1_alg».proof.Proof.Body0K
import proofs.«101859_j90958817394882_1_alg».proof.Proof.Body1K
import proofs.«101859_j90958817394882_1_alg».proof.Proof.Body2K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what
    it owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding
    along: it ends with those references at the operations applied in order to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the stretch allocates a buffer. -/
theorem main_part0_ops0_fresh : (main_part0_ops0 : List (HloOp τ sig (Elt F))).Forall fun op => op.fresh = ∅ := by
  simp only [List.Forall]; repeat' constructor
/-- No operation of the stretch allocates a buffer. -/
theorem main_part1_ops0_fresh : (main_part1_ops0 : List (HloOp τ sig (Elt F))).Forall fun op => op.fresh = ∅ := by
  simp only [List.Forall]; repeat' constructor
/-- No operation of the stretch allocates a buffer. -/
theorem main_part1_ops1_fresh : (main_part1_ops1 : List (HloOp τ sig (Elt F))).Forall fun op => op.fresh = ∅ := by
  simp only [List.Forall]; repeat' constructor
/-- No operation of the stretch allocates a buffer. -/
theorem main_part1_ops2_fresh : (main_part1_ops2 : List (HloOp τ sig (Elt F))).Forall fun op => op.fresh = ∅ := by
  simp only [List.Forall]; repeat' constructor
/-- No operation of the stretch allocates a buffer. -/
theorem main_part1_ops3_fresh : (main_part1_ops3 : List (HloOp τ sig (Elt F))).Forall fun op => op.fresh = ∅ := by
  simp only [List.Forall]; repeat' constructor

/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned family of configurations unifies with the printed configuration only when
-- unification may unfold plain definitions in a metavariable's type
set_option backward.isDefEq.respectTransparency.types false in
/-- Region 0 over the thread state: entered from every unscoped buffer at `W2`, left at `W3`. The tile's product with the first weight matrix and its two running column sums.
    Its arrays are split out of the unscoped buffers at entry and put back at the exit contents; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned family of configurations unifies with the printed configuration only when
-- unification may unfold plain definitions in a metavariable's type
set_option backward.isDefEq.respectTransparency.types false in
/-- Region 1 over the thread state: entered from every unscoped buffer at `W4`, left at `W5`. The normalised tile's product with the second weight matrix and its two running column sums.
    Its arrays are split out of the unscoped buffers at entry and put back at the exit contents; the generator
    register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned family of configurations unifies with the printed configuration only when
-- unification may unfold plain definitions in a metavariable's type
set_option backward.isDefEq.respectTransparency.types false in
/-- Region 2 over the thread state: entered from every unscoped buffer at `W6`, left at `W7`. The normalised tile's row sums added to a column.
    Its arrays are split out of the unscoped buffers at entry and put back at the exit contents; the generator
    register goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: a host segment per stretch from its boundary's contents, a region per kernel. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)),
    .region (reg2 m ρ),
    .host (hseg main_part1_ops3 main_part1_ops3_sub main_part1_ops3_fresh (W7 m ρ)) ]
/-- @main is the run of the segments: @main as the chain of its items, then the segments' run against that chain
    by definitional unfolding. -/
theorem main_run (c : Dev nD) : main (F := F) c = Pipeline.Seg.run (segs m ρ) := (main_chain_windows c).trans (by chain_rfl)

end Run

open Run

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCore terminates, nothing faulting, and in every final state every unscoped buffer holds the last
    boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Kernel.Hand

end
-- ==== Proof.ArgsK.lean ====
/-
  The thirteen argument arrays end as launched.  A stretch of host operations changes only the
  buffers its operations write, one result each; a region changes only its windows' arrays.  No
  argument array is a result of a host operation or a window's array, so at each boundary of @main
  it holds what it held at the boundary before, and so, at the end, what it held at launch.
-/
import proofs.«101859_j90958817394882_1_alg».proof.Proof.FoldK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The references written by the first sixty host operations: one result each. -/
abbrev args_W1 : List (Ref sig .tc) :=
  [main_v0, main_v1, main_v2, main_c, main_v3, main_v4, main_c_0, main_v5, main_v6, main_v7, main_c_1,
   main_v8, main_v9, main_c_2, main_v10, main_v11, main_v12, main_v13, main_c_3, main_v14, main_v15,
   main_v16, main_v17, main_v18, main_v19, main_v20, main_c_4, main_v21, main_v22, main_c_5, main_v23,
   main_v24, main_v25, main_c_6, main_v26, main_v27, main_c_7, main_v28, main_v29, main_v30, main_v31,
   main_v32, main_v33, main_v34, main_v35, main_v36, main_v37, main_v38, main_v39, main_cst, main_v40,
   main_v41, main_cst_8, main_v42, main_v43, main_v44, main_cst_9, main_v45, main_v46, main_cst_10]

set_option maxHeartbeats 4000000 in
/-- Each of them writes its result only, and the result is in the list. -/
theorem args_writes1 : (main_part0_ops0 : List (HloOp τ sig (Elt F))).Forall fun op => op.writes ⊆ (args_W1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep1 (c : Dev nD) (b : Ref sig .tc) (hb : b ∉ args_W1) :
    W1 m ρ c (Proc.devRef .tc b) = W0 m ρ c (Proc.devRef .tc b) :=
  StableHlo.after_of_writes_sub main_part0_ops0 _ args_writes1 hb

/-- The references written by the eighteen host operations before the first region: one result each. -/
abbrev args_W2 : List (Ref sig .tc) :=
  [main_v47, main_cst_11, main_v48, main_v49, main_v50, main_v51, main_v52, main_v53, main_v54, main_v55,
   main_v56, main_v57, main_v58, main_v59, main_v60, main_v61, main_v62, main_v63]

/-- Each of them writes its result only, and the result is in the list. -/
theorem args_writes2 : (main_part1_ops0 : List (HloOp τ sig (Elt F))).Forall fun op => op.writes ⊆ (args_W2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep2 (c : Dev nD) (b : Ref sig .tc) (hb : b ∉ args_W2) :
    W2 m ρ c (Proc.devRef .tc b) = W1 m ρ c (Proc.devRef .tc b) :=
  StableHlo.after_of_writes_sub main_part1_ops0 _ args_writes2 hb

/-- The references written by the twelve host operations between the first region and the second: one result each. -/
abbrev args_W4 : List (Ref sig .tc) :=
  [main_cst_12, main_v65, main_v66, main_cst_13, main_v67, main_v68, main_v69, main_v70, main_cst_14,
   main_v71, main_v72, main_v73]

/-- Each of them writes its result only, and the result is in the list. -/
theorem args_writes4 : (main_part1_ops1 : List (HloOp τ sig (Elt F))).Forall fun op => op.writes ⊆ (args_W4.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep4 (c : Dev nD) (b : Ref sig .tc) (hb : b ∉ args_W4) :
    W4 m ρ c (Proc.devRef .tc b) = W3 m ρ c (Proc.devRef .tc b) :=
  StableHlo.after_of_writes_sub main_part1_ops1 _ args_writes4 hb

/-- The references written by the twelve host operations between the second region and the third: one result each. -/
abbrev args_W6 : List (Ref sig .tc) :=
  [main_cst_15, main_v75, main_v76, main_cst_16, main_v77, main_v78, main_v79, main_v80, main_cst_17,
   main_v81, main_v82, main_v83]

/-- Each of them writes its result only, and the result is in the list. -/
theorem args_writes6 : (main_part1_ops2 : List (HloOp τ sig (Elt F))).Forall fun op => op.writes ⊆ (args_W6.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep6 (c : Dev nD) (b : Ref sig .tc) (hb : b ∉ args_W6) :
    W6 m ρ c (Proc.devRef .tc b) = W5 m ρ c (Proc.devRef .tc b) :=
  StableHlo.after_of_writes_sub main_part1_ops2 _ args_writes6 hb

/-- The references written by the closing reshape: one result each. -/
abbrev args_W8 : List (Ref sig .tc) :=
  [main_v85]

/-- Each of them writes its result only, and the result is in the list. -/
theorem args_writes8 : (main_part1_ops3 : List (HloOp τ sig (Elt F))).Forall fun op => op.writes ⊆ (args_W8.map (Proc.devRef (τ := τ) .tc)).toFinset := by
  simp only [List.Forall]
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep8 (c : Dev nD) (b : Ref sig .tc) (hb : b ∉ args_W8) :
    W8 m ρ c (Proc.devRef .tc b) = W7 m ρ c (Proc.devRef .tc b) :=
  StableHlo.after_of_writes_sub main_part1_ops3 _ args_writes8 hb

/-! ## The argument arrays end as launched

No host operation writes an argument array and no region stages one through a window, so the fold at an
argument's buffer walks back, boundary by boundary, to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := args_keep8 m ρ c main_arg0 (by decide)
    _ = W6 m ρ c (Proc.devRef .tc main_arg0) := W7_of_ne m ρ c main_arg0 (by decide)
    _ = W5 m ρ c (Proc.devRef .tc main_arg0) := args_keep6 m ρ c main_arg0 (by decide)
    _ = W4 m ρ c (Proc.devRef .tc main_arg0) := W5_of_ne m ρ c main_arg0 (by decide)
    _ = W3 m ρ c (Proc.devRef .tc main_arg0) := args_keep4 m ρ c main_arg0 (by decide)
    _ = W2 m ρ c (Proc.devRef .tc main_arg0) := W3_of_ne m ρ c main_arg0 (by decide)
    _ = W1 m ρ c (Proc.devRef .tc main_arg0) := args_keep2 m ρ c main_arg0 (by decide)
    _ = W0 m ρ c (Proc.devRef .tc main_arg0) := args_keep1 m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := args_keep8 m ρ c main_arg1 (by decide)
    _ = W6 m ρ c (Proc.devRef .tc main_arg1) := W7_of_ne m ρ c main_arg1 (by decide)
    _ = W5 m ρ c (Proc.devRef .tc main_arg1) := args_keep6 m ρ c main_arg1 (by decide)
    _ = W4 m ρ c (Proc.devRef .tc main_arg1) := W5_of_ne m ρ c main_arg1 (by decide)
    _ = W3 m ρ c (Proc.devRef .tc main_arg1) := args_keep4 m ρ c main_arg1 (by decide)
    _ = W2 m ρ c (Proc.devRef .tc main_arg1) := W3_of_ne m ρ c main_arg1 (by decide)
    _ = W1 m ρ c (Proc.devRef .tc main_arg1) := args_keep2 m ρ c main_arg1 (by decide)
    _ = W0 m ρ c (Proc.devRef .tc main_arg1) := args_keep1 m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := args_keep8 m ρ c main_arg2 (by decide)
    _ = W6 m ρ c (Proc.devRef .tc main_arg2) := W7_of_ne m ρ c main_arg2 (by decide)
    _ = W5 m ρ c (Proc.devRef .tc main_arg2) := args_keep6 m ρ c main_arg2 (by decide)
    _ = W4 m ρ c (Proc.devRef .tc main_arg2) := W5_of_ne m ρ c main_arg2 (by decide)
    _ = W3 m ρ c (Proc.devRef .tc main_arg2) := args_keep4 m ρ c main_arg2 (by decide)
    _ = W2 m ρ c (Proc.devRef .tc main_arg2) := W3_of_ne m ρ c main_arg2 (by decide)
    _ = W1 m ρ c (Proc.devRef .tc main_arg2) := args_keep2 m ρ c main_arg2 (by decide)
    _ = W0 m ρ c (Proc.devRef .tc main_arg2) := args_keep1 m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := args_keep8 m ρ c main_arg3 (by decide)
    _ = W6 m ρ c (Proc.devRef .tc main_arg3) := W7_of_ne m ρ c main_arg3 (by decide)
    _ = W5 m ρ c (Proc.devRef .tc main_arg3) := args_keep6 m ρ c main_arg3 (by decide)
    _ = W4 m ρ c (Proc.devRef .tc main_arg3) := W5_of_ne m ρ c main_arg3 (by decide)
    _ = W3 m ρ c (Proc.devRef .tc main_arg3) := args_keep4 m ρ c main_arg3 (by decide)
    _ = W2 m ρ c (Proc.devRef .tc main_arg3) := W3_of_ne m ρ c main_arg3 (by decide)
    _ = W1 m ρ c (Proc.devRef .tc main_arg3) := args_keep2 m ρ c main_arg3 (by decide)
    _ = W0 m ρ c (Proc.devRef .tc main_arg3) := args_keep1 m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := args_keep8 m ρ c main_arg4 (by decide)
    _ = W6 m ρ c (Proc.devRef .tc main_arg4) := W7_of_ne m ρ c main_arg4 (by decide)
    _ = W5 m ρ c (Proc.devRef .tc main_arg4) := args_keep6 m ρ c main_arg4 (by decide)
    _ = W4 m ρ c (Proc.devRef .tc main_arg4) := W5_of_ne m ρ c main_arg4 (by decide)
    _ = W3 m ρ c (Proc.devRef .tc main_arg4) := args_keep4 m ρ c main_arg4 (by decide)
    _ = W2 m ρ c (Proc.devRef .tc main_arg4) := W3_of_ne m ρ c main_arg4 (by decide)
    _ = W1 m ρ c (Proc.devRef .tc main_arg4) := args_keep2 m ρ c main_arg4 (by decide)
    _ = W0 m ρ c (Proc.devRef .tc main_arg4) := args_keep1 m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := args_keep8 m ρ c main_arg5 (by decide)
    _ = W6 m ρ c (Proc.devRef .tc main_arg5) := W7_of_ne m ρ c main_arg5 (by decide)
    _ = W5 m ρ c (Proc.devRef .tc main_arg5) := args_keep6 m ρ c main_arg5 (by decide)
    _ = W4 m ρ c (Proc.devRef .tc main_arg5) := W5_of_ne m ρ c main_arg5 (by decide)
    _ = W3 m ρ c (Proc.devRef .tc main_arg5) := args_keep4 m ρ c main_arg5 (by decide)
    _ = W2 m ρ c (Proc.devRef .tc main_arg5) := W3_of_ne m ρ c main_arg5 (by decide)
    _ = W1 m ρ c (Proc.devRef .tc main_arg5) := args_keep2 m ρ c main_arg5 (by decide)
    _ = W0 m ρ c (Proc.devRef .tc main_arg5) := args_keep1 m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := args_keep8 m ρ c main_arg6 (by decide)
    _ = W6 m ρ c (Proc.devRef .tc main_arg6) := W7_of_ne m ρ c main_arg6 (by decide)
    _ = W5 m ρ c (Proc.devRef .tc main_arg6) := args_keep6 m ρ c main_arg6 (by decide)
    _ = W4 m ρ c (Proc.devRef .tc main_arg6) := W5_of_ne m ρ c main_arg6 (by decide)
    _ = W3 m ρ c (Proc.devRef .tc main_arg6) := args_keep4 m ρ c main_arg6 (by decide)
    _ = W2 m ρ c (Proc.devRef .tc main_arg6) := W3_of_ne m ρ c main_arg6 (by decide)
    _ = W1 m ρ c (Proc.devRef .tc main_arg6) := args_keep2 m ρ c main_arg6 (by decide)
    _ = W0 m ρ c (Proc.devRef .tc main_arg6) := args_keep1 m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := args_keep8 m ρ c main_arg7 (by decide)
    _ = W6 m ρ c (Proc.devRef .tc main_arg7) := W7_of_ne m ρ c main_arg7 (by decide)
    _ = W5 m ρ c (Proc.devRef .tc main_arg7) := args_keep6 m ρ c main_arg7 (by decide)
    _ = W4 m ρ c (Proc.devRef .tc main_arg7) := W5_of_ne m ρ c main_arg7 (by decide)
    _ = W3 m ρ c (Proc.devRef .tc main_arg7) := args_keep4 m ρ c main_arg7 (by decide)
    _ = W2 m ρ c (Proc.devRef .tc main_arg7) := W3_of_ne m ρ c main_arg7 (by decide)
    _ = W1 m ρ c (Proc.devRef .tc main_arg7) := args_keep2 m ρ c main_arg7 (by decide)
    _ = W0 m ρ c (Proc.devRef .tc main_arg7) := args_keep1 m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := args_keep8 m ρ c main_arg8 (by decide)
    _ = W6 m ρ c (Proc.devRef .tc main_arg8) := W7_of_ne m ρ c main_arg8 (by decide)
    _ = W5 m ρ c (Proc.devRef .tc main_arg8) := args_keep6 m ρ c main_arg8 (by decide)
    _ = W4 m ρ c (Proc.devRef .tc main_arg8) := W5_of_ne m ρ c main_arg8 (by decide)
    _ = W3 m ρ c (Proc.devRef .tc main_arg8) := args_keep4 m ρ c main_arg8 (by decide)
    _ = W2 m ρ c (Proc.devRef .tc main_arg8) := W3_of_ne m ρ c main_arg8 (by decide)
    _ = W1 m ρ c (Proc.devRef .tc main_arg8) := args_keep2 m ρ c main_arg8 (by decide)
    _ = W0 m ρ c (Proc.devRef .tc main_arg8) := args_keep1 m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := args_keep8 m ρ c main_arg9 (by decide)
    _ = W6 m ρ c (Proc.devRef .tc main_arg9) := W7_of_ne m ρ c main_arg9 (by decide)
    _ = W5 m ρ c (Proc.devRef .tc main_arg9) := args_keep6 m ρ c main_arg9 (by decide)
    _ = W4 m ρ c (Proc.devRef .tc main_arg9) := W5_of_ne m ρ c main_arg9 (by decide)
    _ = W3 m ρ c (Proc.devRef .tc main_arg9) := args_keep4 m ρ c main_arg9 (by decide)
    _ = W2 m ρ c (Proc.devRef .tc main_arg9) := W3_of_ne m ρ c main_arg9 (by decide)
    _ = W1 m ρ c (Proc.devRef .tc main_arg9) := args_keep2 m ρ c main_arg9 (by decide)
    _ = W0 m ρ c (Proc.devRef .tc main_arg9) := args_keep1 m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := args_keep8 m ρ c main_arg10 (by decide)
    _ = W6 m ρ c (Proc.devRef .tc main_arg10) := W7_of_ne m ρ c main_arg10 (by decide)
    _ = W5 m ρ c (Proc.devRef .tc main_arg10) := args_keep6 m ρ c main_arg10 (by decide)
    _ = W4 m ρ c (Proc.devRef .tc main_arg10) := W5_of_ne m ρ c main_arg10 (by decide)
    _ = W3 m ρ c (Proc.devRef .tc main_arg10) := args_keep4 m ρ c main_arg10 (by decide)
    _ = W2 m ρ c (Proc.devRef .tc main_arg10) := W3_of_ne m ρ c main_arg10 (by decide)
    _ = W1 m ρ c (Proc.devRef .tc main_arg10) := args_keep2 m ρ c main_arg10 (by decide)
    _ = W0 m ρ c (Proc.devRef .tc main_arg10) := args_keep1 m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := args_keep8 m ρ c main_arg11 (by decide)
    _ = W6 m ρ c (Proc.devRef .tc main_arg11) := W7_of_ne m ρ c main_arg11 (by decide)
    _ = W5 m ρ c (Proc.devRef .tc main_arg11) := args_keep6 m ρ c main_arg11 (by decide)
    _ = W4 m ρ c (Proc.devRef .tc main_arg11) := W5_of_ne m ρ c main_arg11 (by decide)
    _ = W3 m ρ c (Proc.devRef .tc main_arg11) := args_keep4 m ρ c main_arg11 (by decide)
    _ = W2 m ρ c (Proc.devRef .tc main_arg11) := W3_of_ne m ρ c main_arg11 (by decide)
    _ = W1 m ρ c (Proc.devRef .tc main_arg11) := args_keep2 m ρ c main_arg11 (by decide)
    _ = W0 m ρ c (Proc.devRef .tc main_arg11) := args_keep1 m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := args_keep8 m ρ c main_arg12 (by decide)
    _ = W6 m ρ c (Proc.devRef .tc main_arg12) := W7_of_ne m ρ c main_arg12 (by decide)
    _ = W5 m ρ c (Proc.devRef .tc main_arg12) := args_keep6 m ρ c main_arg12 (by decide)
    _ = W4 m ρ c (Proc.devRef .tc main_arg12) := W5_of_ne m ρ c main_arg12 (by decide)
    _ = W3 m ρ c (Proc.devRef .tc main_arg12) := args_keep4 m ρ c main_arg12 (by decide)
    _ = W2 m ρ c (Proc.devRef .tc main_arg12) := W3_of_ne m ρ c main_arg12 (by decide)
    _ = W1 m ρ c (Proc.devRef .tc main_arg12) := args_keep2 m ρ c main_arg12 (by decide)
    _ = W0 m ρ c (Proc.devRef .tc main_arg12) := args_keep1 m ρ c main_arg12 (by decide)
    _ = m ((c : Thread nD τ).loc main_arg12) := rfl

end Cert.Kernel.Hand

end
-- ==== Proof.DatsI.lean ====
/-
  The proof data of the three pipelines, each stated at a PARAMETER `V`: the contents of the
  TensorCore's buffers when the region is entered.

  Region 0 multiplies a tile of 2048 rows by the first weight matrix, adds the bias, writes the tile
  out, and keeps two running column sums (of the tile's entries and of their squares) in two
  one-row outputs that stay in their staging buffers from the first grid point to the last.
  Region 1 normalises a tile, multiplies by the second weight matrix, adds the bias, and keeps the
  same two running sums.  Region 2 normalises a tile and adds each row's sum to a column.

  What a window's staging buffer holds after the body at a point: an input window its block; a
  tile output the tile's value; a running sum the body's update of what the point before left,
  started from the zero row at the first point.
-/
import proofs.«101859_j90958817394882_1_alg».proof.Proof.Gen.KernelIdeal.Launch
import proofs.«101859_j90958817394882_1_alg».proof.Proof.Gen.KernelIdeal.Skeleton
import proofs.«101859_j90958817394882_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body computes at point `t`: the rows' products with the weights, plus the bias. -/
def tile0 (c : Dev nD) (t : Fin cfg0.N) : Vec F S2048x512 .f32 :=
  k0_pay3 (iblk0 V c 0 t) (iblk0 V c 1 t) (iblk0 V c 2 t)

/-- The running column sum after point `n`: the body's update of the sum so far, from the zero row. -/
def sum0 (c : Dev nD) : (n : ℕ) → n < cfg0.N → Vec F S1x512 .f32
  | 0, hn => k0_pay4 (iblk0 V c 0 ⟨0, hn⟩) (iblk0 V c 1 ⟨0, hn⟩) (iblk0 V c 2 ⟨0, hn⟩) (k0_pay1 (F := F))
  | n + 1, hn => k0_pay4 (iblk0 V c 0 ⟨n + 1, hn⟩) (iblk0 V c 1 ⟨n + 1, hn⟩) (iblk0 V c 2 ⟨n + 1, hn⟩) (sum0 c n (Nat.lt_of_succ_lt hn))

/-- The running column sum of squares after point `n`. -/
def sq0 (c : Dev nD) : (n : ℕ) → n < cfg0.N → Vec F S1x512 .f32
  | 0, hn => k0_pay5 (iblk0 V c 0 ⟨0, hn⟩) (iblk0 V c 1 ⟨0, hn⟩) (iblk0 V c 2 ⟨0, hn⟩) (k0_pay2 (F := F))
  | n + 1, hn => k0_pay5 (iblk0 V c 0 ⟨n + 1, hn⟩) (iblk0 V c 1 ⟨n + 1, hn⟩) (iblk0 V c 2 ⟨n + 1, hn⟩) (sq0 c n (Nat.lt_of_succ_lt hn))

/-- Pipeline 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
    | ⟨4, _⟩ => sum0 V c t.val t.isLt
    | ⟨5, _⟩ => sq0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]
theorem after0_4 (c : Dev nD) (t : Fin cfg0.N) : (dat0 V c).after 4 t = sum0 V c t.val t.isLt := by dsimp only [dat0]
theorem after0_5 (c : Dev nD) (t : Fin cfg0.N) : (dat0 V c).after 5 t = sq0 V c t.val t.isLt := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile the body computes at point `t`: the normalised rows' products with the weights, plus the bias. -/
def tile1 (c : Dev nD) (t : Fin cfg1.N) : Vec F S2048x256 .f32 :=
  k1_pay4 (iblk1 V c 0 t) (iblk1 V c 1 t) (iblk1 V c 2 t) (iblk1 V c 3 t) (iblk1 V c 4 t) (iblk1 V c 5 t) (iblk1 V c 6 t)

def sum1 (c : Dev nD) : (n : ℕ) → n < cfg1.N → Vec F S1x256 .f32
  | 0, hn => k1_pay5 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (k1_pay2 (F := F))
  | n + 1, hn => k1_pay5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (sum1 c n (Nat.lt_of_succ_lt hn))

def sq1 (c : Dev nD) : (n : ℕ) → n < cfg1.N → Vec F S1x256 .f32
  | 0, hn => k1_pay1 (tile1 V c ⟨0, hn⟩) (k1_pay3 (F := F))
  | n + 1, hn => k1_pay1 (tile1 V c ⟨n + 1, hn⟩) (sq1 c n (Nat.lt_of_succ_lt hn))

/-- Pipeline 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => tile1 V c t
    | ⟨8, _⟩ => sum1 V c t.val t.isLt
    | ⟨9, _⟩ => sq1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = tile1 V c t := by dsimp only [dat1]
theorem after1_8 (c : Dev nD) (t : Fin cfg1.N) : (dat1 V c).after 8 t = sum1 V c t.val t.isLt := by dsimp only [dat1]
theorem after1_9 (c : Dev nD) (t : Fin cfg1.N) : (dat1 V c).after 9 t = sq1 V c t.val t.isLt := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The column the body computes at point `t`: each normalised row's sum, added to the tile of the incoming column. -/
def tile2 (c : Dev nD) (t : Fin cfg2.N) : Vec F S2048x1 .f32 :=
  k2_pay1 (iblk2 V c 0 t) (iblk2 V c 1 t) (iblk2 V c 2 t) (iblk2 V c 3 t) (iblk2 V c 4 t) (iblk2 V c 5 t)

/-- Pipeline 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => tile2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = tile2 V c t := by dsimp only [dat2]

end Cert.KernelIdeal.Hand

end
-- ==== Proof.FoldI.lean ====
/-
  The contents of the TensorCore's buffers at every boundary of @main, as a fold from the launch
  memory: a stretch of host operations applies its operations in order; a region leaves each of
  its windows' arrays at what the pipeline's write-backs fold to and every other buffer as it was.
-/
import proofs.«101859_j90958817394882_1_alg».proof.Proof.DatsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first sixty host operations. -/
abbrev W1 : Dev nD → Valuation τ sig (Elt F) := fun c => StableHlo.after main_part0_ops0 (W0 m ρ c)
/-- After the next eighteen: region 0's entry. -/
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
/-- At region 0's exit. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the twelve host operations that turn the sums into a mean and a reciprocal deviation: region 1's entry. -/
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b
/-- At region 1's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the second such twelve: region 2's entry. -/
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At region 2's exit. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the closing reshape: what @main returns from. -/
abbrev W8 : Dev nD → Valuation τ sig (Elt F) := fun c => StableHlo.after main_part1_ops3 (W7 m ρ c)

end Cert.KernelIdeal.Hand

end
-- ==== Proof.Body0I.lean ====
/-
  The body obligation of the first pipeline: at every grid point the body, called on the windows' current staging
  buffers at what they then hold, leaves each at what the proof data says.

  The body has one branch, taken at the first point only, which stores the zero rows in the two running sums' buffers.
  After it the body loads the three inputs, stores the tile (the rows' products with the weights, plus the bias), and
  for each running sum loads the buffer and stores its update by the tile's column sums (of the entries, of their
  squares). At the first point the loads read back the zero rows; at a later point they read what the point before
  left, the buffers being written back at the last point only. Every access is of a whole buffer.
-/
import proofs.«101859_j90958817394882_1_alg».proof.Proof.DatsI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch condition -/

/-- The condition of the body's one branch, from the grid coordinates: the point's coordinate is zero. -/
abbrev b0_cond (i : grid0.Coords) : Prop := (Scalar.cmpi .ne (Scalar.extui (Scalar.cmpi .eq (BitVec.ofNat 32 (i 0).val) 0#32)) 0#32) = 1#1
/-- It holds at the first point only: decided over the grid. -/
theorem b0_hcond : ∀ t : Fin cfg0.N, b0_cond (grid0.coords t) ↔ t.val % 32 = 0 :=
  (by decide +kernel : ∀ t : Fin grid0.N, b0_cond (grid0.coords t) ↔ t.val % 32 = 0)

/-- The zero offsets of a whole-buffer access. -/
theorem b0_hz : (![0, 0] : Fin 2 → Nat) = fun _ => 0 := funext fun a => by fin_cases a <;> rfl

/-! ## The running sums, point by point -/

/-- At the first point the running column sum is the body's update of the zero row. -/
theorem b0_sum0_first (c : Dev nD) (t : Fin cfg0.N) (h0 : t.val % 32 = 0) :
    sum0 V c t.val t.isLt = k0_pay4 (iblk0 V c 0 t) (iblk0 V c 1 t) (iblk0 V c 2 t) (k0_pay1 (F := F)) := by
  have hN : t.val < 32 := lt_of_lt_of_eq t.isLt (show cfg0.N = 32 from N_0)
  obtain ⟨n, hn⟩ := t
  cases n with
  | zero => exact rfl
  | succ n => exact (by exfalso; dsimp only at h0 hN; omega)

/-- At a later point it is the body's update of the sum the point before left. -/
theorem b0_sum0_later (c : Dev nD) (t : Fin cfg0.N) (h0 : ¬t.val % 32 = 0) :
    sum0 V c t.val t.isLt = k0_pay4 (iblk0 V c 0 t) (iblk0 V c 1 t) (iblk0 V c 2 t) (sum0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- At the first point the running column sum of squares is the body's update of the zero row. -/
theorem b0_sq0_first (c : Dev nD) (t : Fin cfg0.N) (h0 : t.val % 32 = 0) :
    sq0 V c t.val t.isLt = k0_pay5 (iblk0 V c 0 t) (iblk0 V c 1 t) (iblk0 V c 2 t) (k0_pay2 (F := F)) := by
  have hN : t.val < 32 := lt_of_lt_of_eq t.isLt (show cfg0.N = 32 from N_0)
  obtain ⟨n, hn⟩ := t
  cases n with
  | zero => exact rfl
  | succ n => exact (by exfalso; dsimp only at h0 hN; omega)

/-- At a later point it is the body's update of what the point before left. -/
theorem b0_sq0_later (c : Dev nD) (t : Fin cfg0.N) (h0 : ¬t.val % 32 = 0) :
    sq0 V c t.val t.isLt = k0_pay5 (iblk0 V c 0 t) (iblk0 V c 1 t) (iblk0 V c 2 t) (sq0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## What the body finds in each staging buffer -/

/-- An input window's current staging buffer holds its block at every point, fetched there or not. -/
theorem b0_before_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem b0_before_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem b0_before_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a point that is not the first, the column sum's staging buffer holds what the body left at the point before:
    the buffer is written back at the last point only. -/
theorem b0_before_4_later (c : Dev nD) (t : Fin cfg0.N) (h0 : ¬t.val % 32 = 0) (d) :
    (dat0 V c).before 4 t d = sum0 V c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  rw [after0_4]

/-- And the column sum of squares' likewise. -/
theorem b0_before_5_later (c : Dev nD) (t : Fin cfg0.N) (h0 : ¬t.val % 32 = 0) (d) :
    (dat0 V c).before 5 t d = sq0 V c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  rw [after0_5]

/-! ## The body's triple, case by case -/

set_option maxHeartbeats 1000000 in
/-- THE FIRST POINT (the branch taken). On whole staging buffers, the inputs' at contents `x0 x1 x2` and the outputs' at
    anything, the body runs to the continuation holding the inputs' as they were, the tile's at the rows' products with the
    weights plus the bias, and each running sum's at the body's update of the zero row: the branch stores the zero rows, the
    loads that follow read them back, and every store is of the whole buffer, so the last one is what the buffer holds. -/
theorem b0_sound_kernel_A (c : Dev nD) (E : Set ℕ) (i : grid0.Coords)
    (arg1 : Memref sig .tc .vmem S2048x624 .bf16) (harg1 : arg1.IsWhole) (arg2 : Memref sig .tc .vmem S624x512 .bf16) (harg2 : arg2.IsWhole)
    (arg3 : Memref sig .tc .vmem S1x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (hc0 : b0_cond i)
    (x0 : Vec F S2048x624 .bf16) (x1 : Vec F S624x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 (k0_pay1 (F := F)))
            ∗ owns (c : Thread nD τ) arg6 fullShare (k0_pay5 x0 x1 x2 (k0_pay2 (F := F)))) -∗ K ⟨⟩))
      ⊢ wp frame (wpE (defs₀ (F := F)) Variants.none c none) E (cc0__matmul1_kernel i arg1 harg1 arg2 harg2 arg3 harg3 arg4 harg4 arg5 harg5 arg6 harg6) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero b0_hz inb_S2048x512_S2048x512_0_0 y⟩),
      View.canon_unit_zero b0_hz]
    simp only [View.readAt_eq_ld, View.ld_unit_zero (S := S2048x624) b0_hz, View.ld_unit_zero (S := S624x512) b0_hz, View.ld_unit_zero (S := S1x512) b0_hz]
  isplitl [H4]
  · iexists _; isplitr
    swap; · iexact H4
    ipureintro
    rw [View.read_writes_eq_canon _ _ _ (fun y => ⟨_, List.mem_cons.mpr (Or.inl rfl), View.mem_set_unit_zero b0_hz inb_S1x512_S1x512_0_0 y⟩),
      View.canon_cons_unit_zero b0_hz]
    sl_unfold_words
    rw [View.readCov_unit_zero _ b0_hz]
    simp only [View.readAt_eq_ld, View.ld_unit_zero (S := S2048x624) b0_hz, View.ld_unit_zero (S := S624x512) b0_hz, View.ld_unit_zero (S := S1x512) b0_hz]
  iexists _; isplitr
  swap; · iexact H5
  ipureintro
  rw [View.read_writes_eq_canon _ _ _ (fun y => ⟨_, List.mem_cons.mpr (Or.inl rfl), View.mem_set_unit_zero b0_hz inb_S1x512_S1x512_0_0 y⟩),
    View.canon_cons_unit_zero b0_hz]
  sl_unfold_words
  rw [View.readCov_unit_zero _ b0_hz]
  simp only [View.readAt_eq_ld, View.ld_unit_zero (S := S2048x624) b0_hz, View.ld_unit_zero (S := S624x512) b0_hz, View.ld_unit_zero (S := S1x512) b0_hz]

set_option maxHeartbeats 1000000 in
/-- A LATER POINT (the branch not taken). The same, the running sums' buffers at given contents `xo4 xo5`: the loads read
    them, and the stores leave the body's update of each. -/
theorem b0_sound_kernel_B (c : Dev nD) (E : Set ℕ) (i : grid0.Coords)
    (arg1 : Memref sig .tc .vmem S2048x624 .bf16) (harg1 : arg1.IsWhole) (arg2 : Memref sig .tc .vmem S624x512 .bf16) (harg2 : arg2.IsWhole)
    (arg3 : Memref sig .tc .vmem S1x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (hc0 : ¬b0_cond i)
    (x0 : Vec F S2048x624 .bf16) (x1 : Vec F S624x512 .bf16) (x2 : Vec F S1x512 .f32) (xo4 xo5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 xo4)
            ∗ owns (c : Thread nD τ) arg6 fullShare (k0_pay5 x0 x1 x2 xo5)) -∗ K ⟨⟩))
      ⊢ wp frame (wpE (defs₀ (F := F)) Variants.none c none) E (cc0__matmul1_kernel i arg1 harg1 arg2 harg2 arg3 harg3 arg4 harg4 arg5 harg5 arg6 harg6) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero b0_hz inb_S2048x512_S2048x512_0_0 y⟩),
      View.canon_unit_zero b0_hz]
    simp only [View.readAt_eq_ld, View.ld_unit_zero (S := S2048x624) b0_hz, View.ld_unit_zero (S := S624x512) b0_hz, View.ld_unit_zero (S := S1x512) b0_hz]
  isplitl [H4]
  · iexists _; isplitr
    swap; · iexact H4
    ipureintro
    rw [View.read_writes_eq_canon _ _ _ (fun y => ⟨_, List.mem_cons.mpr (Or.inl rfl), View.mem_set_unit_zero b0_hz inb_S1x512_S1x512_0_0 y⟩),
      View.canon_unit_zero b0_hz]
    simp only [View.readAt_eq_ld, View.ld_unit_zero (S := S2048x624) b0_hz, View.ld_unit_zero (S := S624x512) b0_hz, View.ld_unit_zero (S := S1x512) b0_hz]
  iexists _; isplitr
  swap; · iexact H5
  ipureintro
  rw [View.read_writes_eq_canon _ _ _ (fun y => ⟨_, List.mem_cons.mpr (Or.inl rfl), View.mem_set_unit_zero b0_hz inb_S1x512_S1x512_0_0 y⟩),
    View.canon_unit_zero b0_hz]
  simp only [View.readAt_eq_ld, View.ld_unit_zero (S := S2048x624) b0_hz, View.ld_unit_zero (S := S624x512) b0_hz, View.ld_unit_zero (S := S1x512) b0_hz]

/-! ## The body obligation, at a generic point -/

/-- What the body is called with at point `t`: the invariant, what the core owes, and each window's current staging
    buffer at what it then holds. -/
def b0_bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same, each buffer at what the body leaves. -/
def b0_bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point. The inputs' buffers hold their blocks. At the first point the branch is taken: the two running
    sums start from the zero rows. At a later point it is not: each running sum's buffer holds what the point before
    left, and the body updates it. The invariant and what the core owes pass through unread. -/
theorem b0_sound_body (c : Dev nD) (t : Fin cfg0.N) :
    b0_bodyPre V c t ⊢ wp frame (wpE (defs₀ (F := F)) Variants.none c none) Set.univ (bodyAt0 t) (fun _ => b0_bodyPost V c t) := by
  unfold b0_bodyPre b0_bodyPost bodyAt0
  simp only [b0_before_0, b0_before_1, b0_before_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold tile0
  by_cases h0 : t.val % 32 = 0
  · rw [b0_sum0_first V c t h0, b0_sq0_first V c t h0]
    iintro ⟨HΦ, Ho, ⟨%d0, H0⟩, ⟨%d1, H1⟩, ⟨%d2, H2⟩, ⟨%d3, H3⟩, ⟨%d4, H4⟩, ⟨%d5, H5⟩⟩
    iapply (b0_sound_kernel_A c Set.univ (grid0.coords t) _ _ _ _ _ _ _ _ _ _ _ _ ((b0_hcond t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [b0_sum0_later V c t h0, b0_sq0_later V c t h0]
    simp only [b0_before_4_later V c t h0, b0_before_5_later V c t h0]
    iintro ⟨HΦ, Ho, ⟨%d0, H0⟩, ⟨%d1, H1⟩, ⟨%d2, H2⟩, ⟨%d3, H3⟩, ⟨%d4, H4⟩, ⟨%d5, H5⟩⟩
    iapply (b0_sound_kernel_B c Set.univ (grid0.coords t) _ _ _ _ _ _ _ _ _ _ _ _ (fun h => h0 ((b0_hcond t).mp h)) (iblk0 V c 0 t) (iblk0 V c 1 t) (iblk0 V c 2 t)
      (sum0 V c (t.val - 1) (Nat.lt_of_le_of_lt (Nat.sub_le _ _) t.isLt)) (sq0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the first pipeline, at every point. -/
theorem body_obligation0 (c : Dev nD) : BodyObligation (dat0 (F := F) V c) (defs₀ (F := F)) Variants.none () Set.univ := fun t => by
  rw [bigSep_W0, bigSep_W0]
  exact b0_sound_body V c t

end Cert.KernelIdeal.Hand

end
-- ==== Proof.Body1I.lean ====
/-
  The body of the second region, at any grid point.

  The body normalises a tile of 2048 rows, multiplies it by the second weight matrix and adds the bias; it writes the
  tile out and adds the tile's column sums, and the column sums of its squares, into two one-row running sums.  At the
  first grid point a branch first sets both running sums to the zero row.

  Two cases, by whether the point is the first.  In each, every load and every store is of a whole buffer, so a load
  reads the buffer's contents and the last store to a buffer is what the buffer holds afterwards.  At the first point
  each running sum therefore ends at the body's update of the zero row; at a later point, at the body's update of what
  the buffer held — which is what the point before left there, the running sums being written back at the last point only.
-/
import proofs.«101859_j90958817394882_1_alg».proof.Proof.DatsI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however spelt. -/
theorem b1_hz : (![0, 0] : Fin 2 → Nat) = fun _ => 0 := funext fun a => by fin_cases a <;> rfl

/-- A store of the whole buffer covers it, whatever was stored before. -/
theorem b1_cover {S : Shape} {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- The condition of the body's branch, from the grid coordinates. -/
abbrev b1_cond (i : grid1.Coords) : Prop := (Scalar.cmpi .ne (Scalar.extui (Scalar.cmpi .eq (BitVec.ofNat 32 (i 0).val) 0#32)) 0#32) = 1#1
/-- It holds at the first point only. -/
theorem b1_hcond : ∀ t : Fin cfg1.N, b1_cond (grid1.coords t) ↔ t.val % 32 = 0 :=
  (by decide +kernel : ∀ t : Fin grid1.N, b1_cond (grid1.coords t) ↔ t.val % 32 = 0)

/-! ## The input windows -/

/-- Input window 0's current buffer holds its block at every point, fetched there or not (unfetched, the block index
    has not moved): for any proof data whose array is the entry contents and whose body leaves the block in place. -/
theorem b1_before_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem b1_before_0 (c : Dev nD) (t : Fin cfg1.N) (d) : (dat1 V c).before 0 t d = iblk1 V c 0 t :=
  b1_before_0_of V (dat1 V c) (A_eq1 V c 0) (after1_0 V c) t d

/-- Input window 1's current buffer holds its block at every point, fetched there or not (unfetched, the block index
    has not moved): for any proof data whose array is the entry contents and whose body leaves the block in place. -/
theorem b1_before_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem b1_before_1 (c : Dev nD) (t : Fin cfg1.N) (d) : (dat1 V c).before 1 t d = iblk1 V c 1 t :=
  b1_before_1_of V (dat1 V c) (A_eq1 V c 1) (after1_1 V c) t d

/-- Input window 2's current buffer holds its block at every point, fetched there or not (unfetched, the block index
    has not moved): for any proof data whose array is the entry contents and whose body leaves the block in place. -/
theorem b1_before_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem b1_before_2 (c : Dev nD) (t : Fin cfg1.N) (d) : (dat1 V c).before 2 t d = iblk1 V c 2 t :=
  b1_before_2_of V (dat1 V c) (A_eq1 V c 2) (after1_2 V c) t d

/-- Input window 3's current buffer holds its block at every point, fetched there or not (unfetched, the block index
    has not moved): for any proof data whose array is the entry contents and whose body leaves the block in place. -/
theorem b1_before_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem b1_before_3 (c : Dev nD) (t : Fin cfg1.N) (d) : (dat1 V c).before 3 t d = iblk1 V c 3 t :=
  b1_before_3_of V (dat1 V c) (A_eq1 V c 3) (after1_3 V c) t d

/-- Input window 4's current buffer holds its block at every point, fetched there or not (unfetched, the block index
    has not moved): for any proof data whose array is the entry contents and whose body leaves the block in place. -/
theorem b1_before_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem b1_before_4 (c : Dev nD) (t : Fin cfg1.N) (d) : (dat1 V c).before 4 t d = iblk1 V c 4 t :=
  b1_before_4_of V (dat1 V c) (A_eq1 V c 4) (after1_4 V c) t d

/-- Input window 5's current buffer holds its block at every point, fetched there or not (unfetched, the block index
    has not moved): for any proof data whose array is the entry contents and whose body leaves the block in place. -/
theorem b1_before_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem b1_before_5 (c : Dev nD) (t : Fin cfg1.N) (d) : (dat1 V c).before 5 t d = iblk1 V c 5 t :=
  b1_before_5_of V (dat1 V c) (A_eq1 V c 5) (after1_5 V c) t d

/-- Input window 6's current buffer holds its block at every point, fetched there or not (unfetched, the block index
    has not moved): for any proof data whose array is the entry contents and whose body leaves the block in place. -/
theorem b1_before_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem b1_before_6 (c : Dev nD) (t : Fin cfg1.N) (d) : (dat1 V c).before 6 t d = iblk1 V c 6 t :=
  b1_before_6_of V (dat1 V c) (A_eq1 V c 6) (after1_6 V c) t d

/-! ## The body's triple, case by case -/

set_option maxHeartbeats 1000000 in
/-- THE FIRST POINT. On whole buffers, the inputs' at contents `x0 … x6` and the three outputs' at anything, the body runs
    to the continuation holding the inputs' as they were, the tile output's at the tile computed from the inputs, and
    each running sum's at the body's update of the zero row: the branch stores the zero row, the later load reads it
    back, and the last store of each buffer, a store of the whole buffer, is what the buffer ends with. -/
theorem b1_sound_kernel_A (c : Dev nD) (E : Set ℕ) (i : grid1.Coords) (arg1 : Memref sig .tc .vmem S2048x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S2048x256 .f32) (harg8 : arg8.IsWhole) (arg9 : Memref sig .tc .vmem S1x256 .f32) (harg9 : arg9.IsWhole) (arg10 : Memref sig .tc .vmem S1x256 .f32) (harg10 : arg10.IsWhole) (hc0 : b1_cond i)
    (x0 : Vec F S2048x512 .f32) (x1 : Vec F S1x512 .f32) (x2 : Vec F S1x512 .f32) (x3 : Vec F S1x512 .f32) (x4 : Vec F S1x512 .f32) (x5 : Vec F S512x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay4 x0 x1 x2 x3 x4 x5 x6) ∗ owns (c : Thread nD τ) arg9 fullShare (k1_pay5 x0 x1 x2 x3 x4 x5 x6 (k1_pay2 (F := F))) ∗ owns (c : Thread nD τ) arg10 fullShare (k1_pay1 (k1_pay4 x0 x1 x2 x3 x4 x5 x6) (k1_pay3 (F := F)))) -∗ K ⟨⟩))
      ⊢ wp frame (wpE (defs₀ (F := F)) Variants.none c none) E (cc1__matmul2_kernel i arg1 harg1 arg2 harg2 arg3 harg3 arg4 harg4 arg5 harg5 arg6 harg6 arg7 harg7 arg8 harg8 arg9 harg9 arg10 harg10) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  isplitl [H8]
  · iexists _; isplitr
    swap; · iexact H8
    ipureintro
    sl_unfold_run_names
    rw [View.read_writes_eq_canon _ _ _ (b1_cover b1_hz _ _ _), View.canon_cons_unit_zero (S := S1x256) b1_hz, View.readCov_unit_zero (S := S1x256) _ b1_hz]
    simp only [View.readAt_eq_ld, View.ld_unit_zero (S := S2048x512) b1_hz, View.ld_unit_zero (S := S1x512) b1_hz, View.ld_unit_zero (S := S512x256) b1_hz, View.ld_unit_zero (S := S1x256) b1_hz]
  iexists _; isplitr
  swap; · iexact H9
  ipureintro
  sl_unfold_run_names
  rw [View.read_writes_eq_canon _ _ _ (b1_cover b1_hz _ _ _), View.canon_cons_unit_zero (S := S1x256) b1_hz, View.readCov_unit_zero (S := S1x256) _ b1_hz]
  simp only [View.readAt_eq_ld, View.ld_unit_zero (S := S2048x512) b1_hz, View.ld_unit_zero (S := S1x512) b1_hz, View.ld_unit_zero (S := S512x256) b1_hz, View.ld_unit_zero (S := S1x256) b1_hz]

set_option maxHeartbeats 1000000 in
/-- A LATER POINT. The same, the running sums' buffers at given contents `xo8`, `xo9`: the branch is not taken, so the
    loads read those contents and each running sum ends at the body's update of them. -/
theorem b1_sound_kernel_B (c : Dev nD) (E : Set ℕ) (i : grid1.Coords) (arg1 : Memref sig .tc .vmem S2048x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S2048x256 .f32) (harg8 : arg8.IsWhole) (arg9 : Memref sig .tc .vmem S1x256 .f32) (harg9 : arg9.IsWhole) (arg10 : Memref sig .tc .vmem S1x256 .f32) (harg10 : arg10.IsWhole) (hc0 : ¬b1_cond i)
    (x0 : Vec F S2048x512 .f32) (x1 : Vec F S1x512 .f32) (x2 : Vec F S1x512 .f32) (x3 : Vec F S1x512 .f32) (x4 : Vec F S1x512 .f32) (x5 : Vec F S512x256 .bf16) (x6 : Vec F S1x256 .f32) (xo8 xo9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay4 x0 x1 x2 x3 x4 x5 x6) ∗ owns (c : Thread nD τ) arg9 fullShare (k1_pay5 x0 x1 x2 x3 x4 x5 x6 xo8) ∗ owns (c : Thread nD τ) arg10 fullShare (k1_pay1 (k1_pay4 x0 x1 x2 x3 x4 x5 x6) xo9)) -∗ K ⟨⟩))
      ⊢ wp frame (wpE (defs₀ (F := F)) Variants.none c none) E (cc1__matmul2_kernel i arg1 harg1 arg2 harg2 arg3 harg3 arg4 harg4 arg5 harg5 arg6 harg6 arg7 harg7 arg8 harg8 arg9 harg9 arg10 harg10) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6 hf8 hf9
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  isplitl [H8]
  · iexists _; isplitr
    swap; · iexact H8
    ipureintro
    sl_unfold_run_names
    rw [View.read_writes_eq_canon _ _ _ (b1_cover b1_hz _ _ _), View.canon_unit_zero b1_hz]
    simp only [View.readAt_eq_ld, View.ld_unit_zero (S := S2048x512) b1_hz, View.ld_unit_zero (S := S1x512) b1_hz, View.ld_unit_zero (S := S512x256) b1_hz, View.ld_unit_zero (S := S1x256) b1_hz]
  iexists _; isplitr
  swap; · iexact H9
  ipureintro
  sl_unfold_run_names
  rw [View.read_writes_eq_canon _ _ _ (b1_cover b1_hz _ _ _), View.canon_unit_zero b1_hz]
  simp only [View.readAt_eq_ld, View.ld_unit_zero (S := S2048x512) b1_hz, View.ld_unit_zero (S := S1x512) b1_hz, View.ld_unit_zero (S := S512x256) b1_hz, View.ld_unit_zero (S := S1x256) b1_hz]

/-! ## The running sums, point by point -/

/-- At the first point the running column sum is the body's update of the zero row. -/
theorem b1_sum1_A (c : Dev nD) (t : Fin cfg1.N) (h0 : t.val % 32 = 0) :
    sum1 V c t.val t.isLt = k1_pay5 (iblk1 V c 0 t) (iblk1 V c 1 t) (iblk1 V c 2 t) (iblk1 V c 3 t) (iblk1 V c 4 t) (iblk1 V c 5 t) (iblk1 V c 6 t) (k1_pay2 (F := F)) := by
  have hN : t.val < 32 := lt_of_lt_of_eq t.isLt (show cfg1.N = 32 from N_1)
  obtain ⟨n, hn⟩ := t
  cases n with
  | zero => rfl
  | succ n => exfalso; dsimp only at h0 hN; omega

/-- At a later point it is the body's update of the sum the point before left. -/
theorem b1_sum1_B (c : Dev nD) (t : Fin cfg1.N) (h0 : ¬t.val % 32 = 0) :
    sum1 V c t.val t.isLt = k1_pay5 (iblk1 V c 0 t) (iblk1 V c 1 t) (iblk1 V c 2 t) (iblk1 V c 3 t) (iblk1 V c 4 t) (iblk1 V c 5 t) (iblk1 V c 6 t) (sum1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rfl

/-- The same for the running column sum of squares, over the tile the body computes at the point. -/
theorem b1_sq1_A (c : Dev nD) (t : Fin cfg1.N) (h0 : t.val % 32 = 0) :
    sq1 V c t.val t.isLt = k1_pay1 (tile1 V c t) (k1_pay3 (F := F)) := by
  have hN : t.val < 32 := lt_of_lt_of_eq t.isLt (show cfg1.N = 32 from N_1)
  obtain ⟨n, hn⟩ := t
  cases n with
  | zero => rfl
  | succ n => exfalso; dsimp only at h0 hN; omega

theorem b1_sq1_B (c : Dev nD) (t : Fin cfg1.N) (h0 : ¬t.val % 32 = 0) :
    sq1 V c t.val t.isLt = k1_pay1 (tile1 V c t) (sq1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rfl

/-- At a point that is not the first, accumulator window 8's staging buffer holds what the body left at the point
    before: the buffer is written back at the last point only, and the window is uncut and never idle. -/
theorem b1_before_8_B (c : Dev nD) (t : Fin cfg1.N) (h0 : ¬t.val % 32 = 0) (d) :
    (dat1 V c).before 8 t d = sum1 V c (t.val - 1) (Nat.lt_of_le_of_lt (Nat.sub_le _ _) t.isLt) := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

/-- At a point that is not the first, accumulator window 9's staging buffer holds what the body left at the point
    before: the buffer is written back at the last point only, and the window is uncut and never idle. -/
theorem b1_before_9_B (c : Dev nD) (t : Fin cfg1.N) (h0 : ¬t.val % 32 = 0) (d) :
    (dat1 V c).before 9 t d = sq1 V c (t.val - 1) (Nat.lt_of_le_of_lt (Nat.sub_le _ _) t.isLt) := by
  have hN : t.val < 32 := lt_of_lt_of_eq t.isLt (show cfg1.N = 32 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

/-- What the body is called with at point `t`, the windows one by one, -/
def b1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def b1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 800000 in
/-- The body at any point: the inputs' buffers hold their blocks; at the first point the branch zeroes both running sums,
    at a later point they hold what the point before left; so the body's triple of that case applies, and the invariant
    and what the core owes pass through unread. -/
theorem b1_sound_body (c : Dev nD) (t : Fin cfg1.N) :
    b1_bodyPre V c t ⊢ wp frame (wpE (defs₀ (F := F)) Variants.none c none) Set.univ (bodyAt1 t) (fun _ => b1_bodyPost V c t) := by
  unfold b1_bodyPre b1_bodyPost bodyAt1
  simp only [b1_before_0, b1_before_1, b1_before_2, b1_before_3, b1_before_4, b1_before_5, b1_before_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 32 := lt_of_lt_of_eq t.isLt (show cfg1.N = 32 from N_1)
  by_cases h0 : t.val % 32 = 0
  · rw [b1_sum1_A V c t h0, b1_sq1_A V c t h0]
    unfold tile1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (b1_sound_kernel_A c Set.univ (grid1.coords t) _ _ _ _ _ _ _ _ _ _ _ _ _ _ _ _ _ _ _ _ ((b1_hcond t).mpr h0) (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [b1_sum1_B V c t h0, b1_sq1_B V c t h0]
    simp only [b1_before_8_B V c t h0, b1_before_9_B V c t h0]
    unfold tile1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (b1_sound_kernel_B c Set.univ (grid1.coords t) _ _ _ _ _ _ _ _ _ _ _ _ _ _ _ _ _ _ _ _ (fun h => h0 ((b1_hcond t).mp h)) (iblk1 V c 0 t) (iblk1 V c 1 t) (iblk1 V c 2 t) (iblk1 V c 3 t) (iblk1 V c 4 t) (iblk1 V c 5 t) (iblk1 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation1 (c : Dev nD) : BodyObligation (dat1 (F := F) V c) (defs₀ (F := F)) Variants.none () Set.univ := fun t => by
  rw [bigSep_W1, bigSep_W1]
  exact b1_sound_body V c t

end Cert.KernelIdeal.Hand

end
-- ==== Proof.Body2I.lean ====
/-
  The body of the third pipeline at a grid point: it reads the six input windows' staging buffers
  (the tile of rows, four one-row parameters of the normalisation, the incoming column), computes
  for each row the sum of its normalised entries added to the incoming column's entry, and stores
  that column over the whole output staging buffer.  Every input buffer holds its window's block at
  every point, fetched there or not; the one store covers the output buffer, so what the buffer
  holds afterwards is the stored value, whatever it held before.
-/
import proofs.«101859_j90958817394882_1_alg».proof.Proof.DatsI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it is
    not fetched the block index has not moved since the point before. -/
theorem b2_before_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every point, fetched there or not: where it is
    not fetched the block index has not moved since the point before. -/
theorem b2_before_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every point, fetched there or not: where it is
    not fetched the block index has not moved since the point before. -/
theorem b2_before_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- Input window 3's current staging buffer holds its block at every point, fetched there or not: where it is
    not fetched the block index has not moved since the point before. -/
theorem b2_before_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- Input window 4's current staging buffer holds its block at every point, fetched there or not: where it is
    not fetched the block index has not moved since the point before. -/
theorem b2_before_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- Input window 5's current staging buffer holds its block at every point, fetched there or not: where it is
    not fetched the block index has not moved since the point before. -/
theorem b2_before_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-! ## The body's triple -/

/-- The offsets of every access of the body are zero. -/
theorem b2_hz : (![0, 0] : Fin 2 → Nat) = fun _ => 0 := funext fun a => by fin_cases a <;> rfl

/-- The one store is of the whole output buffer, so it covers it. -/
theorem b2_cover (p0 : Vec F S2048x1 .f32) (y : S2048x1.Idx) :
    ∃ pc ∈ ([⟨Rect.unit (s := S2048x1) ![0, 0] S2048x1.size inb_S2048x1_S2048x1_0_0, p0⟩] : List (View.Piece (Elt F) S2048x1 .f32)), y ∈ pc.1.set :=
  View.cover_of_tiled [⟨Rect.unit (s := S2048x1) ![0, 0] S2048x1.size inb_S2048x1_S2048x1_0_0, p0⟩] S2048x1.size (by rfl) y

set_option maxHeartbeats 1000000 in
/-- The kernel body on whole staging memrefs, the six inputs' at read contents and the output's at anything, runs to
    the continuation holding the inputs' as they were and the output's at the computed column of the inputs. -/
theorem b2_sound_kernel (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x1 .f32) (harg6 : arg6.IsWhole) (arg7 : Memref sig .tc .vmem S2048x1 .f32) (harg7 : arg7.IsWhole)
    (x0 : Vec F S2048x256 .f32) (x1 x2 x3 x4 : Vec F S1x256 .f32) (x5 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 x0 x1 x2 x3 x4 x5)) -∗ K ⟨⟩))
      ⊢ wp frame (wpE (defs₀ (F := F)) Variants.none c none) E (cc2__bn2_kernel i arg1 harg1 arg2 harg2 arg3 harg3 arg4 harg4 arg5 harg5 arg6 harg6 arg7 harg7) K := by
  simp only [cc2__bn2_kernel_eq_skeleton]; unfold cc2__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (b2_cover _), View.canon_unit_zero b2_hz]
  simp only [View.readAt_eq_ld, View.ld_unit_zero (S := S2048x256) b2_hz, View.ld_unit_zero (S := S1x256) b2_hz,
    View.ld_unit_zero (S := S2048x1) b2_hz]

/-! ## The body obligation, at a generic point -/

/-- What the body is called with at point `t`: the invariant, the core's debts, and each window's current staging
    buffer at what the pipeline left in it, -/
def b2_bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, each buffer at what the body leaves in it. -/
def b2_bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the body's triple applies; the invariant and
    the core's debts pass through unread. -/
theorem b2_sound_body (c : Dev nD) (t : Fin cfg2.N) :
    b2_bodyPre V c t ⊢ wp frame (wpE (defs₀ (F := F)) Variants.none c none) Set.univ (bodyAt2 t) (fun _ => b2_bodyPost V c t) := by
  unfold b2_bodyPre b2_bodyPost bodyAt2
  simp only [b2_before_0, b2_before_1, b2_before_2, b2_before_3, b2_before_4, b2_before_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (b2_sound_kernel c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold tile2
  iexact H6

/-- The library's body obligation, at every point. -/
theorem body_obligation2 (c : Dev nD) : BodyObligation (dat2 (F := F) V c) (defs₀ (F := F)) Variants.none () Set.univ := fun t => by
  rw [bigSep_W2, bigSep_W2]
  exact b2_sound_body V c t

end Cert.KernelIdeal.Hand

end
-- ==== Proof.RunI.lean ====
/-
  The run of @main from the launch to the return, as one theorem at any float instance: three kernel
  regions among five stretches of host operations, eight segments in @main's order.

  The thread state at every boundary is "every unscoped buffer of the TensorCore at the boundary's
  contents, the generator register at some state, nothing owed".  A stretch of host operations takes the
  contents to what its operations applied in order leave; a region takes its windows' arrays to what
  the pipeline's write-backs fold to and leaves every other buffer alone.  The conclusion: every
  weakly fair execution terminates, and in every final state each unscoped buffer holds the last
  boundary's contents.
-/
import proofs.«101859_j90958817394882_1_alg».proof.Proof.FoldI
import proofs.«101859_j90958817394882_1_alg».proof.Proof.Body0I
import proofs.«101859_j90958817394882_1_alg».proof.Proof.Body1I
import proofs.«101859_j90958817394882_1_alg».proof.Proof.Body2I

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what
    it owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding
    along: it ends with those references at the operations applied in order to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the stretch allocates a buffer. -/
theorem main_part0_ops0_fresh : (main_part0_ops0 : List (HloOp τ sig (Elt F))).Forall fun op => op.fresh = ∅ := by
  simp only [List.Forall]; repeat' constructor
/-- No operation of the stretch allocates a buffer. -/
theorem main_part1_ops0_fresh : (main_part1_ops0 : List (HloOp τ sig (Elt F))).Forall fun op => op.fresh = ∅ := by
  simp only [List.Forall]; repeat' constructor
/-- No operation of the stretch allocates a buffer. -/
theorem main_part1_ops1_fresh : (main_part1_ops1 : List (HloOp τ sig (Elt F))).Forall fun op => op.fresh = ∅ := by
  simp only [List.Forall]; repeat' constructor
/-- No operation of the stretch allocates a buffer. -/
theorem main_part1_ops2_fresh : (main_part1_ops2 : List (HloOp τ sig (Elt F))).Forall fun op => op.fresh = ∅ := by
  simp only [List.Forall]; repeat' constructor
/-- No operation of the stretch allocates a buffer. -/
theorem main_part1_ops3_fresh : (main_part1_ops3 : List (HloOp τ sig (Elt F))).Forall fun op => op.fresh = ∅ := by
  simp only [List.Forall]; repeat' constructor

/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned family of configurations unifies with the printed configuration only when
-- unification may unfold plain definitions in a metavariable's type
set_option backward.isDefEq.respectTransparency.types false in
/-- Region 0 over the thread state: entered from every unscoped buffer at `W2`, left at `W3`. The tile's product with the first weight matrix and its two running column sums.
    Its arrays are split out of the unscoped buffers at entry and put back at the exit contents; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned family of configurations unifies with the printed configuration only when
-- unification may unfold plain definitions in a metavariable's type
set_option backward.isDefEq.respectTransparency.types false in
/-- Region 1 over the thread state: entered from every unscoped buffer at `W4`, left at `W5`. The normalised tile's product with the second weight matrix and its two running column sums.
    Its arrays are split out of the unscoped buffers at entry and put back at the exit contents; the generator
    register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned family of configurations unifies with the printed configuration only when
-- unification may unfold plain definitions in a metavariable's type
set_option backward.isDefEq.respectTransparency.types false in
/-- Region 2 over the thread state: entered from every unscoped buffer at `W6`, left at `W7`. The normalised tile's row sums added to a column.
    Its arrays are split out of the unscoped buffers at entry and put back at the exit contents; the generator
    register goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: a host segment per stretch from its boundary's contents, a region per kernel. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)),
    .region (reg2 m ρ),
    .host (hseg main_part1_ops3 main_part1_ops3_sub main_part1_ops3_fresh (W7 m ρ)) ]
/-- @main is the run of the segments: @main as the chain of its items, then the segments' run against that chain
    by definitional unfolding. -/
theorem main_run (c : Dev nD) : main (F := F) c = Pipeline.Seg.run (segs m ρ) := (main_chain_windows c).trans (by chain_rfl)

end Run

open Run

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCore terminates, nothing faulting, and in every final state every unscoped buffer holds the last
    boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Hand

end
-- ==== Proof.ArgsI.lean ====
/-
  The thirteen argument arrays end as launched.  A stretch of host operations changes only the
  buffers its operations write, one result each; a region changes only its windows' arrays.  No
  argument array is a result of a host operation or a window's array, so at each boundary of @main
  it holds what it held at the boundary before, and so, at the end, what it held at launch.
-/
import proofs.«101859_j90958817394882_1_alg».proof.Proof.FoldI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The references written by the first sixty host operations: one result each. -/
abbrev args_W1 : List (Ref sig .tc) :=
  [main_v0, main_v1, main_v2, main_c, main_v3, main_v4, main_c_0, main_v5, main_v6, main_v7, main_c_1,
   main_v8, main_v9, main_c_2, main_v10, main_v11, main_v12, main_v13, main_c_3, main_v14, main_v15,
   main_v16, main_v17, main_v18, main_v19, main_v20, main_c_4, main_v21, main_v22, main_c_5, main_v23,
   main_v24, main_v25, main_c_6, main_v26, main_v27, main_c_7, main_v28, main_v29, main_v30, main_v31,
   main_v32, main_v33, main_v34, main_v35, main_v36, main_v37, main_v38, main_v39, main_cst, main_v40,
   main_v41, main_cst_8, main_v42, main_v43, main_v44, main_cst_9, main_v45, main_v46, main_cst_10]

set_option maxHeartbeats 4000000 in
/-- Each of them writes its result only, and the result is in the list. -/
theorem args_writes1 : (main_part0_ops0 : List (HloOp τ sig (Elt F))).Forall fun op => op.writes ⊆ (args_W1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep1 (c : Dev nD) (b : Ref sig .tc) (hb : b ∉ args_W1) :
    W1 m ρ c (Proc.devRef .tc b) = W0 m ρ c (Proc.devRef .tc b) :=
  StableHlo.after_of_writes_sub main_part0_ops0 _ args_writes1 hb

/-- The references written by the eighteen host operations before the first region: one result each. -/
abbrev args_W2 : List (Ref sig .tc) :=
  [main_v47, main_cst_11, main_v48, main_v49, main_v50, main_v51, main_v52, main_v53, main_v54, main_v55,
   main_v56, main_v57, main_v58, main_v59, main_v60, main_v61, main_v62, main_v63]

/-- Each of them writes its result only, and the result is in the list. -/
theorem args_writes2 : (main_part1_ops0 : List (HloOp τ sig (Elt F))).Forall fun op => op.writes ⊆ (args_W2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep2 (c : Dev nD) (b : Ref sig .tc) (hb : b ∉ args_W2) :
    W2 m ρ c (Proc.devRef .tc b) = W1 m ρ c (Proc.devRef .tc b) :=
  StableHlo.after_of_writes_sub main_part1_ops0 _ args_writes2 hb

/-- The references written by the twelve host operations between the first region and the second: one result each. -/
abbrev args_W4 : List (Ref sig .tc) :=
  [main_cst_12, main_v65, main_v66, main_cst_13, main_v67, main_v68, main_v69, main_v70, main_cst_14,
   main_v71, main_v72, main_v73]

/-- Each of them writes its result only, and the result is in the list. -/
theorem args_writes4 : (main_part1_ops1 : List (HloOp τ sig (Elt F))).Forall fun op => op.writes ⊆ (args_W4.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep4 (c : Dev nD) (b : Ref sig .tc) (hb : b ∉ args_W4) :
    W4 m ρ c (Proc.devRef .tc b) = W3 m ρ c (Proc.devRef .tc b) :=
  StableHlo.after_of_writes_sub main_part1_ops1 _ args_writes4 hb

/-- The references written by the twelve host operations between the second region and the third: one result each. -/
abbrev args_W6 : List (Ref sig .tc) :=
  [main_cst_15, main_v75, main_v76, main_cst_16, main_v77, main_v78, main_v79, main_v80, main_cst_17,
   main_v81, main_v82, main_v83]

/-- Each of them writes its result only, and the result is in the list. -/
theorem args_writes6 : (main_part1_ops2 : List (HloOp τ sig (Elt F))).Forall fun op => op.writes ⊆ (args_W6.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep6 (c : Dev nD) (b : Ref sig .tc) (hb : b ∉ args_W6) :
    W6 m ρ c (Proc.devRef .tc b) = W5 m ρ c (Proc.devRef .tc b) :=
  StableHlo.after_of_writes_sub main_part1_ops2 _ args_writes6 hb

/-- The references written by the closing reshape: one result each. -/
abbrev args_W8 : List (Ref sig .tc) :=
  [main_v85]

/-- Each of them writes its result only, and the result is in the list. -/
theorem args_writes8 : (main_part1_ops3 : List (HloOp τ sig (Elt F))).Forall fun op => op.writes ⊆ (args_W8.map (Proc.devRef (τ := τ) .tc)).toFinset := by
  simp only [List.Forall]
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference they do not write keeps its contents. -/
theorem args_keep8 (c : Dev nD) (b : Ref sig .tc) (hb : b ∉ args_W8) :
    W8 m ρ c (Proc.devRef .tc b) = W7 m ρ c (Proc.devRef .tc b) :=
  StableHlo.after_of_writes_sub main_part1_ops3 _ args_writes8 hb

/-! ## The argument arrays end as launched

No host operation writes an argument array and no region stages one through a window, so the fold at an
argument's buffer walks back, boundary by boundary, to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := args_keep8 m ρ c main_arg0 (by decide)
    _ = W6 m ρ c (Proc.devRef .tc main_arg0) := W7_of_ne m ρ c main_arg0 (by decide)
    _ = W5 m ρ c (Proc.devRef .tc main_arg0) := args_keep6 m ρ c main_arg0 (by decide)
    _ = W4 m ρ c (Proc.devRef .tc main_arg0) := W5_of_ne m ρ c main_arg0 (by decide)
    _ = W3 m ρ c (Proc.devRef .tc main_arg0) := args_keep4 m ρ c main_arg0 (by decide)
    _ = W2 m ρ c (Proc.devRef .tc main_arg0) := W3_of_ne m ρ c main_arg0 (by decide)
    _ = W1 m ρ c (Proc.devRef .tc main_arg0) := args_keep2 m ρ c main_arg0 (by decide)
    _ = W0 m ρ c (Proc.devRef .tc main_arg0) := args_keep1 m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := args_keep8 m ρ c main_arg1 (by decide)
    _ = W6 m ρ c (Proc.devRef .tc main_arg1) := W7_of_ne m ρ c main_arg1 (by decide)
    _ = W5 m ρ c (Proc.devRef .tc main_arg1) := args_keep6 m ρ c main_arg1 (by decide)
    _ = W4 m ρ c (Proc.devRef .tc main_arg1) := W5_of_ne m ρ c main_arg1 (by decide)
    _ = W3 m ρ c (Proc.devRef .tc main_arg1) := args_keep4 m ρ c main_arg1 (by decide)
    _ = W2 m ρ c (Proc.devRef .tc main_arg1) := W3_of_ne m ρ c main_arg1 (by decide)
    _ = W1 m ρ c (Proc.devRef .tc main_arg1) := args_keep2 m ρ c main_arg1 (by decide)
    _ = W0 m ρ c (Proc.devRef .tc main_arg1) := args_keep1 m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := args_keep8 m ρ c main_arg2 (by decide)
    _ = W6 m ρ c (Proc.devRef .tc main_arg2) := W7_of_ne m ρ c main_arg2 (by decide)
    _ = W5 m ρ c (Proc.devRef .tc main_arg2) := args_keep6 m ρ c main_arg2 (by decide)
    _ = W4 m ρ c (Proc.devRef .tc main_arg2) := W5_of_ne m ρ c main_arg2 (by decide)
    _ = W3 m ρ c (Proc.devRef .tc main_arg2) := args_keep4 m ρ c main_arg2 (by decide)
    _ = W2 m ρ c (Proc.devRef .tc main_arg2) := W3_of_ne m ρ c main_arg2 (by decide)
    _ = W1 m ρ c (Proc.devRef .tc main_arg2) := args_keep2 m ρ c main_arg2 (by decide)
    _ = W0 m ρ c (Proc.devRef .tc main_arg2) := args_keep1 m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := args_keep8 m ρ c main_arg3 (by decide)
    _ = W6 m ρ c (Proc.devRef .tc main_arg3) := W7_of_ne m ρ c main_arg3 (by decide)
    _ = W5 m ρ c (Proc.devRef .tc main_arg3) := args_keep6 m ρ c main_arg3 (by decide)
    _ = W4 m ρ c (Proc.devRef .tc main_arg3) := W5_of_ne m ρ c main_arg3 (by decide)
    _ = W3 m ρ c (Proc.devRef .tc main_arg3) := args_keep4 m ρ c main_arg3 (by decide)
    _ = W2 m ρ c (Proc.devRef .tc main_arg3) := W3_of_ne m ρ c main_arg3 (by decide)
    _ = W1 m ρ c (Proc.devRef .tc main_arg3) := args_keep2 m ρ c main_arg3 (by decide)
    _ = W0 m ρ c (Proc.devRef .tc main_arg3) := args_keep1 m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := args_keep8 m ρ c main_arg4 (by decide)
    _ = W6 m ρ c (Proc.devRef .tc main_arg4) := W7_of_ne m ρ c main_arg4 (by decide)
    _ = W5 m ρ c (Proc.devRef .tc main_arg4) := args_keep6 m ρ c main_arg4 (by decide)
    _ = W4 m ρ c (Proc.devRef .tc main_arg4) := W5_of_ne m ρ c main_arg4 (by decide)
    _ = W3 m ρ c (Proc.devRef .tc main_arg4) := args_keep4 m ρ c main_arg4 (by decide)
    _ = W2 m ρ c (Proc.devRef .tc main_arg4) := W3_of_ne m ρ c main_arg4 (by decide)
    _ = W1 m ρ c (Proc.devRef .tc main_arg4) := args_keep2 m ρ c main_arg4 (by decide)
    _ = W0 m ρ c (Proc.devRef .tc main_arg4) := args_keep1 m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := args_keep8 m ρ c main_arg5 (by decide)
    _ = W6 m ρ c (Proc.devRef .tc main_arg5) := W7_of_ne m ρ c main_arg5 (by decide)
    _ = W5 m ρ c (Proc.devRef .tc main_arg5) := args_keep6 m ρ c main_arg5 (by decide)
    _ = W4 m ρ c (Proc.devRef .tc main_arg5) := W5_of_ne m ρ c main_arg5 (by decide)
    _ = W3 m ρ c (Proc.devRef .tc main_arg5) := args_keep4 m ρ c main_arg5 (by decide)
    _ = W2 m ρ c (Proc.devRef .tc main_arg5) := W3_of_ne m ρ c main_arg5 (by decide)
    _ = W1 m ρ c (Proc.devRef .tc main_arg5) := args_keep2 m ρ c main_arg5 (by decide)
    _ = W0 m ρ c (Proc.devRef .tc main_arg5) := args_keep1 m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := args_keep8 m ρ c main_arg6 (by decide)
    _ = W6 m ρ c (Proc.devRef .tc main_arg6) := W7_of_ne m ρ c main_arg6 (by decide)
    _ = W5 m ρ c (Proc.devRef .tc main_arg6) := args_keep6 m ρ c main_arg6 (by decide)
    _ = W4 m ρ c (Proc.devRef .tc main_arg6) := W5_of_ne m ρ c main_arg6 (by decide)
    _ = W3 m ρ c (Proc.devRef .tc main_arg6) := args_keep4 m ρ c main_arg6 (by decide)
    _ = W2 m ρ c (Proc.devRef .tc main_arg6) := W3_of_ne m ρ c main_arg6 (by decide)
    _ = W1 m ρ c (Proc.devRef .tc main_arg6) := args_keep2 m ρ c main_arg6 (by decide)
    _ = W0 m ρ c (Proc.devRef .tc main_arg6) := args_keep1 m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := args_keep8 m ρ c main_arg7 (by decide)
    _ = W6 m ρ c (Proc.devRef .tc main_arg7) := W7_of_ne m ρ c main_arg7 (by decide)
    _ = W5 m ρ c (Proc.devRef .tc main_arg7) := args_keep6 m ρ c main_arg7 (by decide)
    _ = W4 m ρ c (Proc.devRef .tc main_arg7) := W5_of_ne m ρ c main_arg7 (by decide)
    _ = W3 m ρ c (Proc.devRef .tc main_arg7) := args_keep4 m ρ c main_arg7 (by decide)
    _ = W2 m ρ c (Proc.devRef .tc main_arg7) := W3_of_ne m ρ c main_arg7 (by decide)
    _ = W1 m ρ c (Proc.devRef .tc main_arg7) := args_keep2 m ρ c main_arg7 (by decide)
    _ = W0 m ρ c (Proc.devRef .tc main_arg7) := args_keep1 m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := args_keep8 m ρ c main_arg8 (by decide)
    _ = W6 m ρ c (Proc.devRef .tc main_arg8) := W7_of_ne m ρ c main_arg8 (by decide)
    _ = W5 m ρ c (Proc.devRef .tc main_arg8) := args_keep6 m ρ c main_arg8 (by decide)
    _ = W4 m ρ c (Proc.devRef .tc main_arg8) := W5_of_ne m ρ c main_arg8 (by decide)
    _ = W3 m ρ c (Proc.devRef .tc main_arg8) := args_keep4 m ρ c main_arg8 (by decide)
    _ = W2 m ρ c (Proc.devRef .tc main_arg8) := W3_of_ne m ρ c main_arg8 (by decide)
    _ = W1 m ρ c (Proc.devRef .tc main_arg8) := args_keep2 m ρ c main_arg8 (by decide)
    _ = W0 m ρ c (Proc.devRef .tc main_arg8) := args_keep1 m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := args_keep8 m ρ c main_arg9 (by decide)
    _ = W6 m ρ c (Proc.devRef .tc main_arg9) := W7_of_ne m ρ c main_arg9 (by decide)
    _ = W5 m ρ c (Proc.devRef .tc main_arg9) := args_keep6 m ρ c main_arg9 (by decide)
    _ = W4 m ρ c (Proc.devRef .tc main_arg9) := W5_of_ne m ρ c main_arg9 (by decide)
    _ = W3 m ρ c (Proc.devRef .tc main_arg9) := args_keep4 m ρ c main_arg9 (by decide)
    _ = W2 m ρ c (Proc.devRef .tc main_arg9) := W3_of_ne m ρ c main_arg9 (by decide)
    _ = W1 m ρ c (Proc.devRef .tc main_arg9) := args_keep2 m ρ c main_arg9 (by decide)
    _ = W0 m ρ c (Proc.devRef .tc main_arg9) := args_keep1 m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := args_keep8 m ρ c main_arg10 (by decide)
    _ = W6 m ρ c (Proc.devRef .tc main_arg10) := W7_of_ne m ρ c main_arg10 (by decide)
    _ = W5 m ρ c (Proc.devRef .tc main_arg10) := args_keep6 m ρ c main_arg10 (by decide)
    _ = W4 m ρ c (Proc.devRef .tc main_arg10) := W5_of_ne m ρ c main_arg10 (by decide)
    _ = W3 m ρ c (Proc.devRef .tc main_arg10) := args_keep4 m ρ c main_arg10 (by decide)
    _ = W2 m ρ c (Proc.devRef .tc main_arg10) := W3_of_ne m ρ c main_arg10 (by decide)
    _ = W1 m ρ c (Proc.devRef .tc main_arg10) := args_keep2 m ρ c main_arg10 (by decide)
    _ = W0 m ρ c (Proc.devRef .tc main_arg10) := args_keep1 m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := args_keep8 m ρ c main_arg11 (by decide)
    _ = W6 m ρ c (Proc.devRef .tc main_arg11) := W7_of_ne m ρ c main_arg11 (by decide)
    _ = W5 m ρ c (Proc.devRef .tc main_arg11) := args_keep6 m ρ c main_arg11 (by decide)
    _ = W4 m ρ c (Proc.devRef .tc main_arg11) := W5_of_ne m ρ c main_arg11 (by decide)
    _ = W3 m ρ c (Proc.devRef .tc main_arg11) := args_keep4 m ρ c main_arg11 (by decide)
    _ = W2 m ρ c (Proc.devRef .tc main_arg11) := W3_of_ne m ρ c main_arg11 (by decide)
    _ = W1 m ρ c (Proc.devRef .tc main_arg11) := args_keep2 m ρ c main_arg11 (by decide)
    _ = W0 m ρ c (Proc.devRef .tc main_arg11) := args_keep1 m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := args_keep8 m ρ c main_arg12 (by decide)
    _ = W6 m ρ c (Proc.devRef .tc main_arg12) := W7_of_ne m ρ c main_arg12 (by decide)
    _ = W5 m ρ c (Proc.devRef .tc main_arg12) := args_keep6 m ρ c main_arg12 (by decide)
    _ = W4 m ρ c (Proc.devRef .tc main_arg12) := W5_of_ne m ρ c main_arg12 (by decide)
    _ = W3 m ρ c (Proc.devRef .tc main_arg12) := args_keep4 m ρ c main_arg12 (by decide)
    _ = W2 m ρ c (Proc.devRef .tc main_arg12) := W3_of_ne m ρ c main_arg12 (by decide)
    _ = W1 m ρ c (Proc.devRef .tc main_arg12) := args_keep2 m ρ c main_arg12 (by decide)
    _ = W0 m ρ c (Proc.devRef .tc main_arg12) := args_keep1 m ρ c main_arg12 (by decide)
    _ = m ((c : Thread nD τ).loc main_arg12) := rfl

end Cert.KernelIdeal.Hand

end
-- ==== Proof.Spec.lean ====
/-
  The mathematics of the two programs, as plain functions on the extended reals.

  A batch of 65536 rows goes through two affine layers, each followed by a batch normalisation
  over the whole batch, and the normalised rows are summed.  The two programs differ only in
  how the batch statistics are taken:

  * one side adds the 65536 rows up in 32 tiles of 2048 rows, keeps the sum and the sum of
    squares of each column, and takes the variance as  E[y²] − (E[y])²;
  * the other side sums each column in one go and takes the variance as  E[(y − E[y])²].

  Over finite reals the two agree; the statements here fix the exact shape of each side.
-/
import Idealize.ShloMosaic.PureOps.Ideal

noncomputable section

namespace Cert.DeepFM

open Idealize.ShloMosaic

/-- A matrix of extended reals. -/
abbrev Mat (a b : ℕ) : Type := Fin a → Fin b → EReal

/-- The batch size as an extended real: the float 65536.0. -/
def cB : EReal := Ideal.ofBits .f32 0x47800000#32
/-- The normalisation's epsilon: the float nearest 1e-5. -/
def cEps : EReal := Ideal.ofBits .f32 0x3727C5AC#32

/-- An affine layer: row `r` times the weight matrix, plus the bias. -/
def lin {B K N : ℕ} (x : Mat B K) (w : Mat K N) (b : Fin N → EReal) : Mat B N :=
  fun r j => (∑ k : Fin K, x r k * w k j) + b j

/-- Row `r` of tile `t`: the batch is cut into 32 tiles of 2048 consecutive rows. -/
def row (t : Fin 32) (r : Fin 2048) : Fin 65536 := ⟨t.val * 2048 + r.val, by omega⟩

/-- One tile's column sum. -/
def tileSum {N : ℕ} (y : Mat 65536 N) (t : Fin 32) (j : Fin N) : EReal := ∑ r : Fin 2048, y (row t r) j

/-- The running column sum after tiles `0 … n`: started from zero at the first tile. -/
def accSum {N : ℕ} (y : Mat 65536 N) (j : Fin N) : (n : ℕ) → n < 32 → EReal
  | 0, h => 0 + tileSum y ⟨0, h⟩ j
  | n + 1, h => accSum y j n (Nat.lt_of_succ_lt h) + tileSum y ⟨n + 1, h⟩ j

/-- The column sum taken tile by tile. -/
def tsum {N : ℕ} (y : Mat 65536 N) (j : Fin N) : EReal := accSum y j 31 (by norm_num)

/-- Batch normalisation with given mean and reciprocal deviation. -/
def bn {N : ℕ} (y : Mat 65536 N) (mean rstd g be : Fin N → EReal) : Mat 65536 N :=
  fun r j => (y r j - mean j) * rstd j * g j + be j

/-! ### The tiled side -/

def meanT {N : ℕ} (y : Mat 65536 N) (j : Fin N) : EReal := Ideal.div (tsum y j) cB
def varT {N : ℕ} (y : Mat 65536 N) (j : Fin N) : EReal :=
  Ideal.div (tsum (fun r j => y r j * y r j) j) cB - meanT y j * meanT y j
def rstdT {N : ℕ} (y : Mat 65536 N) (j : Fin N) : EReal := Ideal.rsqrt (varT y j + cEps)
def bnT {N : ℕ} (y : Mat 65536 N) (g be : Fin N → EReal) : Mat 65536 N := bn y (meanT y) (rstdT y) g be

/-- The tiled side's result for row `r`. -/
def outT (x : Mat 65536 624) (w1 : Mat 624 512) (b1 g1 be1 : Fin 512 → EReal)
    (w2 : Mat 512 256) (b2 g2 be2 : Fin 256 → EReal) (extra : Fin 65536 → EReal) (r : Fin 65536) : EReal :=
  extra r + ∑ j : Fin 256, bnT (lin (bnT (lin x w1 b1) g1 be1) w2 b2) g2 be2 r j

/-! ### The whole-batch side -/

def meanW {N : ℕ} (y : Mat 65536 N) (j : Fin N) : EReal := Ideal.div (0 + ∑ r : Fin 65536, y r j) cB
def varW {N : ℕ} (y : Mat 65536 N) (j : Fin N) : EReal :=
  Ideal.div (0 + ∑ r : Fin 65536, (y r j - meanW y j) * (y r j - meanW y j)) cB
def rstdW {N : ℕ} (y : Mat 65536 N) (j : Fin N) : EReal := Ideal.rsqrt (varW y j + cEps)
def bnW {N : ℕ} (y : Mat 65536 N) (g be : Fin N → EReal) : Mat 65536 N := bn y (meanW y) (rstdW y) g be

/-- The whole-batch side's result for row `r`. -/
def outW (x : Mat 65536 624) (w1 : Mat 624 512) (b1 g1 be1 : Fin 512 → EReal)
    (w2 : Mat 512 256) (b2 g2 be2 : Fin 256 → EReal) (extra : Fin 65536 → EReal) (r : Fin 65536) : EReal :=
  extra r + (0 + ∑ j : Fin 256, bnW (lin (bnW (lin x w1 b1) g1 be1) w2 b2) g2 be2 r j)

/-- A vector / matrix of finite entries. -/
def FinV {N : ℕ} (v : Fin N → EReal) : Prop := ∀ j, ∃ a : ℝ, v j = (a : EReal)
def FinM {a b : ℕ} (m : Mat a b) : Prop := ∀ i j, ∃ r : ℝ, m i j = (r : EReal)

end Cert.DeepFM

end
-- ==== Proof.Val0I.lean ====
/-
  What the first region leaves in its three output arrays, at the ideal values, as plain functions
  of the arrays it reads.

  Each of the 32 grid points takes 2048 consecutive rows of the 65536-row batch, multiplies them by
  the first weight matrix and adds the bias: entry (r, j) of the tile at point t is the affine layer
  at row t·2048 + r.  The tiles fill the tile output's array, so that array ends as the layer's
  output.  The two one-row outputs carry, from the first point to the last, the column sums of the
  tiles' entries and of their squares, each started from the zero row and updated by adding one tile's
  column sum; they are written out once, after the last point, so they end as the column sums taken
  tile by tile in order.
-/
import proofs.«101859_j90958817394882_1_alg».proof.Proof.DatsI
import proofs.«101859_j90958817394882_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val0

open Cert.KernelIdeal Cert.KernelIdeal.Gen Cert.KernelIdeal.Hand
open Idealize.ShloMosaic Idealize.ShloMosaic.ValueIdx Idealize.ShloMosaic.TcCoe Cert.DeepFM
open Idealize.ShloMosaic.Pipeline (Dat)

/-! ### The matmul's operand indices -/

theorem lhs_0 (i : S2048x512.Idx) (q : dot_S2048x624_S624x512_S2048x512_1_0_0_1_n_n.contr.Idx) :
    (dot_S2048x624_S624x512_S2048x512_1_0_0_1_n_n.lhsIdx i q 0).val = (i 0).val := by
  unfold DotDims.lhsIdx
  rw [dif_neg (show ¬(0 : Fin S2048x624.rank) ∈ dot_S2048x624_S624x512_S2048x512_1_0_0_1_n_n.lhsBatch by decide), dif_pos (show (0 : Fin S2048x624.rank) ∈ dot_S2048x624_S624x512_S2048x512_1_0_0_1_n_n.lhsNonContracting by decide)]
  rfl
theorem lhs_1 (i : S2048x512.Idx) (q : dot_S2048x624_S624x512_S2048x512_1_0_0_1_n_n.contr.Idx) :
    (dot_S2048x624_S624x512_S2048x512_1_0_0_1_n_n.lhsIdx i q 1).val = (q ⟨0, by decide⟩).val :=
  dot_S2048x624_S624x512_S2048x512_1_0_0_1_n_n.lhsIdx_val_of_single rfl i q
theorem rhs_0 (i : S2048x512.Idx) (q : dot_S2048x624_S624x512_S2048x512_1_0_0_1_n_n.contr.Idx) :
    (dot_S2048x624_S624x512_S2048x512_1_0_0_1_n_n.rhsIdx i q 0).val = (q ⟨0, by decide⟩).val :=
  dot_S2048x624_S624x512_S2048x512_1_0_0_1_n_n.rhsIdx_val_of_single rfl i q
theorem rhs_1 (i : S2048x512.Idx) (q : dot_S2048x624_S624x512_S2048x512_1_0_0_1_n_n.contr.Idx) :
    (dot_S2048x624_S624x512_S2048x512_1_0_0_1_n_n.rhsIdx i q 1).val = (i 1).val := by
  unfold DotDims.rhsIdx
  rw [dif_neg (show ¬(1 : Fin S624x512.rank) ∈ dot_S2048x624_S624x512_S2048x512_1_0_0_1_n_n.rhsBatch by decide), dif_pos (show (1 : Fin S624x512.rank) ∈ dot_S2048x624_S624x512_S2048x512_1_0_0_1_n_n.rhsNonContracting by decide)]
  rfl

/-- The matmul into a zero accumulator, read at (r, j): row r's products with column j, summed over the 624 features. -/
theorem mm_at (x0 : FVec Ideal S2048x624 .bf16) (x1 : FVec Ideal S624x512 .bf16) (r : Fin 2048) (j : Fin 512) :
    FloatOps.matmul (φ₁ := .bf16) (φ₂ := .bf16) dot_S2048x624_S624x512_S2048x512_1_0_0_1_n_n none x0 x1 (constant (F := Ideal) S2048x512 .f32 0x00000000#32) (ix2 r j)
      = ∑ k : Fin 624, x0 (ix2 r k) * x1 (ix2 k j) := by
  refine (Ideal.matmul_constant_zero_apply dot_S2048x624_S624x512_S2048x512_1_0_0_1_n_n none x0 x1 (ix2 r j)).trans ?_
  rw [← Equiv.sum_comp (ValueIdx.contrEquiv1 dot_S2048x624_S624x512_S2048x512_1_0_0_1_n_n 624 rfl rfl).symm]
  refine Finset.sum_congr rfl fun k _ => ?_
  have hk := ValueIdx.contrEquiv1_symm_val dot_S2048x624_S624x512_S2048x512_1_0_0_1_n_n 624 rfl rfl k
  have el : dot_S2048x624_S624x512_S2048x512_1_0_0_1_n_n.lhsIdx (ix2 r j) ((ValueIdx.contrEquiv1 dot_S2048x624_S624x512_S2048x512_1_0_0_1_n_n 624 rfl rfl).symm k) = ix2 r k := funext fun a => Fin.ext (by
    match a with
    | ⟨0, _⟩ => exact lhs_0 _ _
    | ⟨1, _⟩ => exact (lhs_1 _ _).trans hk)
  have er : dot_S2048x624_S624x512_S2048x512_1_0_0_1_n_n.rhsIdx (ix2 r j) ((ValueIdx.contrEquiv1 dot_S2048x624_S624x512_S2048x512_1_0_0_1_n_n 624 rfl rfl).symm k) = ix2 k j := funext fun a => Fin.ext (by
    match a with
    | ⟨0, _⟩ => exact (rhs_0 _ _).trans hk
    | ⟨1, _⟩ => exact rhs_1 _ _)
  rw [el, er]

/-- The tile's entry (r, j): row r times column j of the weights, plus the bias at j. -/
theorem pay3_at (x0 : Vec Ideal S2048x624 .bf16) (x1 : Vec Ideal S624x512 .bf16) (x2 : Vec Ideal S1x512 .f32) (r : Fin 2048) (j : Fin 512) :
    k0_pay3 x0 x1 x2 (ix2 r j) = (∑ k : Fin 624, x0 (ix2 r k) * x1 (ix2 k j)) + x2 (ix2 (0 : Fin 1) j) := by
  unfold k0_pay3
  show FloatOps.matmul (φ₁ := .bf16) (φ₂ := .bf16) dot_S2048x624_S624x512_S2048x512_1_0_0_1_n_n none (shapeCast S2048x624 x0 shapeCasts_S2048x624_S2048x624) (shapeCast S624x512 x1 shapeCasts_S624x512_S624x512) (constant (F := Ideal) S2048x512 .f32 0x00000000#32) (ix2 r j)
      + broadcastTo S2048x512 (shapeCast S1x512 x2 shapeCasts_S1x512_S1x512) broadcasts_S1x512_S2048x512 (ix2 r j) = _
  rw [shapeCast_self, shapeCast_self, shapeCast_self]
  refine congrArg₂ (· + ·) (mm_at x0 x1 r j) ?_
  exact broadcastTo_1b_ab_apply x2 broadcasts_S1x512_S2048x512 r j

/-! ### The column sum of a tile, and the keepdims cast -/

/-- The reduced index j with row k put back is (k, j). -/
theorem lift_at (h : S2048x512.Reduces [0] S512) (j : Fin 512) (k : Fin 2048) :
    h.lift (ix1 j) k = ix2 k j := by
  funext c; apply Fin.ext
  match c with
  | ⟨0, _⟩ => rfl
  | ⟨1, _⟩ => rfl

/-- A tile summed over its 2048 rows, read at column j. -/
theorem colsum_at (v : FVec Ideal S2048x512 .f32) (hφ : FKind.Formats .f32)
    (hacc : (0x00000000#32 : BitVec 32) = FKind.add.neutral .f32 hφ) (j : Fin 512) :
    multiReduction (F := Ideal) .add [0] S512 v 0x00000000#32 reduces_S2048x512_S512 hφ hacc (ix1 j) = ∑ r : Fin 2048, v (ix2 r j) := by
  refine (Ideal.multiReduction_add_single v 0x00000000#32 reduces_S2048x512_S512 hφ hacc (ix1 j)).trans ?_
  show ∑ k : Fin 2048, v (reduces_S2048x512_S512.lift (ix1 j) k) = _
  exact Finset.sum_congr rfl fun k _ => congrArg v (lift_at reduces_S2048x512_S512 j k)

/-- The running sum's update at column j: what was there plus the tile's column sum. -/
theorem pay4_at (x0 : Vec Ideal S2048x624 .bf16) (x1 : Vec Ideal S624x512 .bf16) (x2 : Vec Ideal S1x512 .f32) (a : Vec Ideal S1x512 .f32) (j : Fin 512) :
    k0_pay4 x0 x1 x2 a (ix2 (0 : Fin 1) j) = a (ix2 (0 : Fin 1) j) + ∑ r : Fin 2048, k0_pay3 x0 x1 x2 (ix2 r j) := by
  unfold k0_pay4
  show shapeCast S1x512 a shapeCasts_S1x512_S1x512 (ix2 (0 : Fin 1) j)
      + shapeCast S1x512 (multiReduction (F := Ideal) .add [0] S512 (k0_pay3 x0 x1 x2) 0x00000000#32 reduces_S2048x512_S512 (.inl rfl) rfl) shapeCasts_S512_S1x512 (ix2 (0 : Fin 1) j) = _
  rw [shapeCast_self]
  refine congrArg (a (ix2 (0 : Fin 1) j) + ·) ?_
  refine (shapeCast_a_1a_apply _ shapeCasts_S512_S1x512 (0 : Fin 1) j).trans ?_
  exact colsum_at (k0_pay3 x0 x1 x2) _ _ j

/-- The running sum of squares' update at column j: what was there plus the column sum of the tile's squares. -/
theorem pay5_at (x0 : Vec Ideal S2048x624 .bf16) (x1 : Vec Ideal S624x512 .bf16) (x2 : Vec Ideal S1x512 .f32) (a : Vec Ideal S1x512 .f32) (j : Fin 512) :
    k0_pay5 x0 x1 x2 a (ix2 (0 : Fin 1) j) = a (ix2 (0 : Fin 1) j) + ∑ r : Fin 2048, k0_pay3 x0 x1 x2 (ix2 r j) * k0_pay3 x0 x1 x2 (ix2 r j) := by
  unfold k0_pay5
  show shapeCast S1x512 a shapeCasts_S1x512_S1x512 (ix2 (0 : Fin 1) j)
      + shapeCast S1x512 (multiReduction (F := Ideal) .add [0] S512 (mulf (k0_pay3 x0 x1 x2) (k0_pay3 x0 x1 x2)) 0x00000000#32 reduces_S2048x512_S512 (.inl rfl) rfl) shapeCasts_S512_S1x512 (ix2 (0 : Fin 1) j) = _
  rw [shapeCast_self]
  refine congrArg (a (ix2 (0 : Fin 1) j) + ·) ?_
  refine (shapeCast_a_1a_apply _ shapeCasts_S512_S1x512 (0 : Fin 1) j).trans ?_
  exact colsum_at (mulf (k0_pay3 x0 x1 x2) (k0_pay3 x0 x1 x2)) _ _ j

/-- The zero row the two running sums start from. -/
theorem pay1_at (i : S1x512.Idx) : k0_pay1 (F := Ideal) i = 0 := by
  unfold k0_pay1
  show Ideal.ofBits .f32 0x00000000#32 = 0
  exact Ideal.ofBits_zero_f32
theorem pay2_at (i : S1x512.Idx) : k0_pay2 (F := Ideal) i = 0 := by
  unfold k0_pay2
  show Ideal.ofBits .f32 0x00000000#32 = 0
  exact Ideal.ofBits_zero_f32

variable (V : (c : Dev nD) → (b : Ref sig .tc) → Buf (Elt Ideal) ((c : Thread nD τ).loc b))

/-- Window 0's array: the batch's rows. -/
abbrev X0 (c : Dev nD) : Mat 65536 624 := fun r k => V c main_v55 (ix2 r k)
/-- Window 1's array: the first weight matrix. -/
abbrev Wt0 (c : Dev nD) : Mat 624 512 := fun k j => V c main_v56 (ix2 k j)
/-- Window 2's array: the bias row. -/
abbrev B0 (c : Dev nD) : Fin 512 → EReal := fun j => V c main_v58 (ix2 (0 : Fin 1) j)

/-- A grid point as a tile number. -/
def pt (t : Fin cfg0.N) : Fin 32 := ⟨t.val, lt_of_lt_of_eq t.isLt N_0⟩

/-- The printed index maps over the grid: the rows' window and the tile output move with the point along
    the rows; the weights, the bias and the two running sums stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ### The input blocks, read off their arrays -/

/-- Point t's block of the rows is rows t·2048 … t·2048 + 2047. -/
theorem blk0_0 (c : Dev nD) (t : Fin cfg0.N) (r : Fin 2048) (k : Fin 624) :
    iblk0 V c 0 t (ix2 r k) = V c main_v55 (ix2 (row (pt t) r) k) := by
  obtain ⟨e0, e1, -⟩ := idx0 t
  show V c main_v55 (((cfg0.win 0).blk t).view.emb (ix2 r k)) = V c main_v55 (ix2 (row (pt t) r) k)
  refine congrArg (V c main_v55) (funext fun a => Fin.ext ?_)
  match a with
  | ⟨0, _⟩ => show win0_0.index t (0 : Fin 2) * 2048 + 1 * r.val = t.val * 2048 + r.val; omega
  | ⟨1, _⟩ => show win0_0.index t (1 : Fin 2) * 624 + 1 * k.val = k.val; omega

/-- Every point's block of the weights is the whole matrix. -/
theorem blk0_1 (c : Dev nD) (t : Fin cfg0.N) (k : Fin 624) (j : Fin 512) :
    iblk0 V c 1 t (ix2 k j) = V c main_v56 (ix2 k j) := by
  obtain ⟨-, -, e0, e1, -⟩ := idx0 t
  show V c main_v56 (((cfg0.win 1).blk t).view.emb (ix2 k j)) = V c main_v56 (ix2 k j)
  refine congrArg (V c main_v56) (funext fun a => Fin.ext ?_)
  match a with
  | ⟨0, _⟩ => show win0_1.index t (0 : Fin 2) * 624 + 1 * k.val = k.val; omega
  | ⟨1, _⟩ => show win0_1.index t (1 : Fin 2) * 512 + 1 * j.val = j.val; omega

/-- Every point's block of the bias is the whole row. -/
theorem blk0_2 (c : Dev nD) (t : Fin cfg0.N) (j : Fin 512) :
    iblk0 V c 2 t (ix2 (0 : Fin 1) j) = V c main_v58 (ix2 (0 : Fin 1) j) := by
  obtain ⟨-, -, -, -, e0, e1, -⟩ := idx0 t
  show V c main_v58 (((cfg0.win 2).blk t).view.emb (ix2 (0 : Fin 1) j)) = V c main_v58 (ix2 (0 : Fin 1) j)
  refine congrArg (V c main_v58) (funext fun a => Fin.ext ?_)
  match a with
  | ⟨0, _⟩ => show win0_2.index t (0 : Fin 2) * 1 + 1 * 0 = 0; omega
  | ⟨1, _⟩ => show win0_2.index t (1 : Fin 2) * 512 + 1 * j.val = j.val; omega

/-! ### The tile at a point -/

/-- The tile point t computes, at (r, j): the affine layer at row t·2048 + r. -/
theorem tile0_at (c : Dev nD) (t : Fin cfg0.N) (r : Fin 2048) (j : Fin 512) :
    tile0 V c t (ix2 r j) = lin (X0 V c) (Wt0 V c) (B0 V c) (row (pt t) r) j := by
  unfold tile0
  refine (pay3_at (iblk0 V c 0 t) (iblk0 V c 1 t) (iblk0 V c 2 t) r j).trans ?_
  unfold lin
  exact congrArg₂ (· + ·) (Finset.sum_congr rfl fun k _ => congrArg₂ (· * ·) (blk0_0 V c t r k) (blk0_1 V c t k j)) (blk0_2 V c t j)

/-! ### From the tiles to the array -/

/-- The first layer's output, as contents of the tile output's array. -/
def G3 (c : Dev nD) : S65536x512.Idx → EReal := fun i => lin (X0 V c) (Wt0 V c) (B0 V c) (i 0) (i 1)

/-- What point t writes back to the tile output is block t of the layer's output: rows t·2048 … t·2048 + 2047. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  obtain ⟨-, -, -, -, -, -, e0, e1, -⟩ := idx0 t
  funext y
  obtain ⟨p, q, rfl⟩ : ∃ (p : Fin 2048) (q : Fin 512), y = ix2 p q := ⟨y 0, y 1, eq_ix2 y⟩
  show tile0 V c t (ix2 p q) = G3 V c (((cfg0.win 3).blk t).view.emb (ix2 p q))
  refine (tile0_at V c t p q).trans ?_
  have e : ((cfg0.win 3).blk t).view.emb (ix2 p q) = ix2 (row (pt t) p) q := funext fun a => Fin.ext (by
    match a with
    | ⟨0, _⟩ => show win0_3.index t (0 : Fin 2) * 2048 + 1 * p.val = t.val * 2048 + p.val; omega
    | ⟨1, _⟩ => show win0_3.index t (1 : Fin 2) * 512 + 1 * q.val = q.val; omega)
  rw [e]
  rfl

/-- An index of the tile output's array is in point t's block iff each coordinate is in the block's range. -/
theorem mem_blk3 (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v64_0).slice (win0_3.rect t)).set ↔ _
  rw [View.set_slice_whole, Rect.mem_set_unit]
  exact Iff.rfl

/-- Row r is in the block of point r / 2048. -/
theorem cover3 (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 32 := N_0
  refine ⟨⟨(i 0).val / 2048, by rw [hN]; omega⟩, flush0_3 _, ?_⟩
  obtain ⟨-, -, -, -, -, -, e0, e1, -⟩ := idx0 ⟨(i 0).val / 2048, by rw [hN]; omega⟩
  rw [mem_blk3]
  intro a
  match a with
  | ⟨0, _⟩ => show win0_3.index _ (0 : Fin 2) * 2048 ≤ (i 0).val ∧ (i 0).val < win0_3.index _ (0 : Fin 2) * 2048 + 2048; rw [e0]; dsimp only; omega
  | ⟨1, _⟩ => show win0_3.index _ (1 : Fin 2) * 512 ≤ (i 1).val ∧ (i 1).val < win0_3.index _ (1 : Fin 2) * 512 + 512; rw [e1]; omega

/-- The tile output's array after the run is the first layer's output. -/
theorem final3 (c : Dev nD) : (dat0 V c).arrAt 3 cfg0.N = G3 V c :=
  (dat0 V c).arrAt_eq_of_cover 3 (G3 V c) (fun t _ => flushed3_eq V c t) cover3

theorem arr0_3 (c : Dev nD) (r : Fin 65536) (j : Fin 512) :
    (dat0 V c).arrAt 3 cfg0.N (ix2 r j) = lin (X0 V c) (Wt0 V c) (B0 V c) r j :=
  congrFun (final3 V c) (ix2 r j)

/-! ### The two running sums -/

theorem lt31 : 31 < cfg0.N := by rw [show cfg0.N = 32 from N_0]; decide

/-- The running column sum after point n, at column j, is the tiles' column sums added up in order from zero. -/
theorem sum0_at (c : Dev nD) (j : Fin 512) : ∀ (n : ℕ) (hn : n < cfg0.N),
    sum0 V c n hn (ix2 (0 : Fin 1) j) = accSum (lin (X0 V c) (Wt0 V c) (B0 V c)) j n (lt_of_lt_of_eq hn N_0)
  | 0, hn => by
    rw [sum0]
    refine (pay4_at _ _ _ _ j).trans ?_
    rw [accSum]
    refine congrArg₂ (· + ·) (pay1_at _) ?_
    unfold tileSum
    exact Finset.sum_congr rfl fun r _ => tile0_at V c ⟨0, hn⟩ r j
  | n + 1, hn => by
    rw [sum0]
    refine (pay4_at _ _ _ _ j).trans ?_
    rw [accSum]
    refine congrArg₂ (· + ·) (sum0_at c j n (Nat.lt_of_succ_lt hn)) ?_
    unfold tileSum
    exact Finset.sum_congr rfl fun r _ => tile0_at V c ⟨n + 1, hn⟩ r j

/-- The running column sum of squares after point n, at column j. -/
theorem sq0_at (c : Dev nD) (j : Fin 512) : ∀ (n : ℕ) (hn : n < cfg0.N),
    sq0 V c n hn (ix2 (0 : Fin 1) j)
      = accSum (fun r j => lin (X0 V c) (Wt0 V c) (B0 V c) r j * lin (X0 V c) (Wt0 V c) (B0 V c) r j) j n (lt_of_lt_of_eq hn N_0)
  | 0, hn => by
    rw [sq0]
    refine (pay5_at _ _ _ _ j).trans ?_
    rw [accSum]
    refine congrArg₂ (· + ·) (pay2_at _) ?_
    unfold tileSum
    exact Finset.sum_congr rfl fun r _ => congrArg₂ (· * ·) (tile0_at V c ⟨0, hn⟩ r j) (tile0_at V c ⟨0, hn⟩ r j)
  | n + 1, hn => by
    rw [sq0]
    refine (pay5_at _ _ _ _ j).trans ?_
    rw [accSum]
    refine congrArg₂ (· + ·) (sq0_at c j n (Nat.lt_of_succ_lt hn)) ?_
    unfold tileSum
    exact Finset.sum_congr rfl fun r _ => congrArg₂ (· * ·) (tile0_at V c ⟨n + 1, hn⟩ r j) (tile0_at V c ⟨n + 1, hn⟩ r j)

/-- A running sum's one write-back, at the last point, writes what that point left: its block is its whole one-row array. -/
theorem flushed4_eq (c : Dev nD) (t : Fin cfg0.N) (hf : (cfg0.win 4).flush t = true) :
    (dat0 V c).flushed 4 t = ((cfg0.win 4).blk t).view.read (Elt Ideal) (sum0 V c 31 lt31) := by
  have hN : cfg0.N = 32 := N_0
  have h31 : t.val = 31 := by have := (flush0_4 t).mp hf; have := t.isLt; omega
  obtain rfl : t = ⟨31, lt31⟩ := Fin.ext h31
  show (cfg0.win 4).cut (grid0.coords ⟨31, lt31⟩) ((dat0 V c).after 4 ⟨31, lt31⟩) = _
  rw [after0_4]
  obtain ⟨-, -, -, -, -, -, -, -, e0, e1, -⟩ := idx0 ⟨31, lt31⟩
  funext y
  obtain ⟨u, q, rfl⟩ : ∃ (u : Fin 1) (q : Fin 512), y = ix2 u q := ⟨y 0, y 1, eq_ix2 y⟩
  show sum0 V c 31 lt31 (ix2 u q) = sum0 V c 31 lt31 (((cfg0.win 4).blk ⟨31, lt31⟩).view.emb (ix2 u q))
  refine congrArg (sum0 V c 31 lt31) (funext fun a => Fin.ext ?_)
  match a with
  | ⟨0, _⟩ => show u.val = win0_4.index ⟨31, lt31⟩ (0 : Fin 2) * 1 + 1 * u.val; omega
  | ⟨1, _⟩ => show q.val = win0_4.index ⟨31, lt31⟩ (1 : Fin 2) * 512 + 1 * q.val; omega

theorem flushed5_eq (c : Dev nD) (t : Fin cfg0.N) (hf : (cfg0.win 5).flush t = true) :
    (dat0 V c).flushed 5 t = ((cfg0.win 5).blk t).view.read (Elt Ideal) (sq0 V c 31 lt31) := by
  have hN : cfg0.N = 32 := N_0
  have h31 : t.val = 31 := by have := (flush0_5 t).mp hf; have := t.isLt; omega
  obtain rfl : t = ⟨31, lt31⟩ := Fin.ext h31
  show (cfg0.win 5).cut (grid0.coords ⟨31, lt31⟩) ((dat0 V c).after 5 ⟨31, lt31⟩) = _
  rw [after0_5]
  obtain ⟨-, -, -, -, -, -, -, -, -, -, e0, e1⟩ := idx0 ⟨31, lt31⟩
  funext y
  obtain ⟨u, q, rfl⟩ : ∃ (u : Fin 1) (q : Fin 512), y = ix2 u q := ⟨y 0, y 1, eq_ix2 y⟩
  show sq0 V c 31 lt31 (ix2 u q) = sq0 V c 31 lt31 (((cfg0.win 5).blk ⟨31, lt31⟩).view.emb (ix2 u q))
  refine congrArg (sq0 V c 31 lt31) (funext fun a => Fin.ext ?_)
  match a with
  | ⟨0, _⟩ => show u.val = win0_5.index ⟨31, lt31⟩ (0 : Fin 2) * 1 + 1 * u.val; omega
  | ⟨1, _⟩ => show q.val = win0_5.index ⟨31, lt31⟩ (1 : Fin 2) * 512 + 1 * q.val; omega

theorem mem_blk4 (t : Fin cfg0.N) (i : S1x512.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v64_1).slice (win0_4.rect t)).set ↔ _
  rw [View.set_slice_whole, Rect.mem_set_unit]
  exact Iff.rfl

theorem mem_blk5 (t : Fin cfg0.N) (i : S1x512.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v64_2).slice (win0_5.rect t)).set ↔ _
  rw [View.set_slice_whole, Rect.mem_set_unit]
  exact Iff.rfl

/-- The last point's block covers the whole one-row array. -/
theorem cover4 (i : S1x512.Idx) : ∃ t : Fin cfg0.N, (cfg0.win 4).flush t = true ∧ i ∈ ((cfg0.win 4).blk t).view.set := by
  have hi0 : (i 0).val < 1 := (i 0).isLt
  have hi1 : (i 1).val < 512 := (i 1).isLt
  refine ⟨⟨31, lt31⟩, (flush0_4 _).mpr rfl, ?_⟩
  obtain ⟨-, -, -, -, -, -, -, -, e0, e1, -⟩ := idx0 ⟨31, lt31⟩
  rw [mem_blk4]
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 512 ≤ (i 1).val ∧ (i 1).val < win0_4.index _ (1 : Fin 2) * 512 + 512; rw [e1]; omega

theorem cover5 (i : S1x512.Idx) : ∃ t : Fin cfg0.N, (cfg0.win 5).flush t = true ∧ i ∈ ((cfg0.win 5).blk t).view.set := by
  have hi0 : (i 0).val < 1 := (i 0).isLt
  have hi1 : (i 1).val < 512 := (i 1).isLt
  refine ⟨⟨31, lt31⟩, (flush0_5 _).mpr rfl, ?_⟩
  obtain ⟨-, -, -, -, -, -, -, -, -, -, e0, e1⟩ := idx0 ⟨31, lt31⟩
  rw [mem_blk5]
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 512 ≤ (i 1).val ∧ (i 1).val < win0_5.index _ (1 : Fin 2) * 512 + 512; rw [e1]; omega

/-- The two one-row arrays after the run hold what the last point left. -/
theorem final4 (c : Dev nD) : (dat0 V c).arrAt 4 cfg0.N = sum0 V c 31 lt31 :=
  (dat0 V c).arrAt_eq_of_cover 4 (sum0 V c 31 lt31) (flushed4_eq V c) cover4
theorem final5 (c : Dev nD) : (dat0 V c).arrAt 5 cfg0.N = sq0 V c 31 lt31 :=
  (dat0 V c).arrAt_eq_of_cover 5 (sq0 V c 31 lt31) (flushed5_eq V c) cover5

theorem arr0_4 (c : Dev nD) (j : Fin 512) :
    (dat0 V c).arrAt 4 cfg0.N (ix2 (0 : Fin 1) j) = tsum (lin (X0 V c) (Wt0 V c) (B0 V c)) j :=
  (congrFun (final4 V c) (ix2 (0 : Fin 1) j)).trans (sum0_at V c j 31 lt31)

theorem arr0_5 (c : Dev nD) (j : Fin 512) :
    (dat0 V c).arrAt 5 cfg0.N (ix2 (0 : Fin 1) j)
      = tsum (fun r j => lin (X0 V c) (Wt0 V c) (B0 V c) r j * lin (X0 V c) (Wt0 V c) (B0 V c) r j) j :=
  (congrFun (final5 V c) (ix2 (0 : Fin 1) j)).trans (sq0_at V c j 31 lt31)

end Cert.KernelIdeal.Hand.Val0

end
-- ==== Proof.Val1I.lean ====
/-
  What the second region leaves in its three output arrays, over the extended reals, for arbitrary
  contents of the buffers at the region's entry.

  A point of the grid takes a tile of 2048 rows of the first layer's output, normalises each entry
  with the given mean and reciprocal deviation, scales and shifts it, multiplies the tile by the
  second weight matrix and adds the bias: entry (r, j) of the tile at point t is the second layer's
  value for row 2048 t + r.  The tile is written to rows 2048 t … 2048 t + 2047 of the first output,
  so that array ends as the second layer's value row by row.  The other two outputs are one row
  each: a running sum over the points of the tiles' column sums, and of the column sums of the
  squares, started from zero at the first point and written out once after the last; they end as
  the column sums taken tile by tile.
-/
import proofs.«101859_j90958817394882_1_alg».proof.Proof.DatsI
import proofs.«101859_j90958817394882_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val1

open Cert.KernelIdeal Cert.KernelIdeal.Gen Cert.KernelIdeal.Hand Idealize.ShloMosaic Idealize.ShloMosaic.ValueIdx Cert.DeepFM
open Idealize.ShloMosaic.TcCoe Idealize.SL.Sem
open Idealize.ShloMosaic.Pipeline (Dat)
open scoped BigOperators

/-! ## The body's arithmetic at an index -/

/-- A one-row array, cast to its own shape and repeated over the rows, reads its one row. -/
theorem bcast_row {a b : ℕ} (v : (⟨2, ![1, b]⟩ : Shape).Idx → EReal)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) :=
  (broadcastTo_1b_ab_apply _ h2 p c).trans (congrFun (shapeCast_self v h1) _)

/-- The product of a tile of rows with the weights, at (r, j): the sum over the inner index. -/
theorem lhs_ax0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem lhs_ax1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_ax0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_ax1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The product of a tile of rows with the weights, at (r, j): the sum over the inner index. -/
theorem matmul_ix (L : FVec Ideal S2048x512 .bf16) (R : FVec Ideal S512x256 .bf16) (r : Fin 2048) (j : Fin 256) :
    matmul dot_S2048x512_S512x256_S2048x256_1_0_0_1_n_n none L R (constant (F := Ideal) S2048x256 .f32 0x00000000#32) (ix2 r j)
      = ∑ k : Fin 512, L (ix2 r k) * R (ix2 k j) := by
  refine (Ideal.matmul_constant_zero_apply dot_S2048x512_S512x256_S2048x256_1_0_0_1_n_n none L R (ix2 r j)).trans ?_
  refine (Equiv.sum_comp (contrEquiv1 dot_S2048x512_S512x256_S2048x256_1_0_0_1_n_n 512 rfl rfl).symm _).symm.trans ?_
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r j)
      ((contrEquiv1 dot_S2048x512_S512x256_S2048x256_1_0_0_1_n_n 512 rfl rfl).symm k) = ix2 r k :=
    funext fun a => Fin.ext (by
      match a with
      | ⟨0, _⟩ => exact lhs_ax0 _ _
      | ⟨1, _⟩ => exact (lhs_ax1 _ _).trans hk)
  have er : dot_S2048x512_S512x256_S2048x256_1_0_0_1_n_n.rhsIdx (ix2 r j)
      ((contrEquiv1 dot_S2048x512_S512x256_S2048x256_1_0_0_1_n_n 512 rfl rfl).symm k) = ix2 k j :=
    funext fun a => Fin.ext (by
      match a with
      | ⟨0, _⟩ => exact (rhs_ax0 _ _).trans hk
      | ⟨1, _⟩ => exact rhs_ax1 _ _)
  rw [el, er]

/-- The tile the body computes, at (r, j): the normalised row times the weights, plus the bias. -/
theorem pay4_apply (x0 : Vec Ideal S2048x512 .f32) (mu sd g be : Vec Ideal S1x512 .f32)
    (w : Vec Ideal S512x256 .bf16) (bb : Vec Ideal S1x256 .f32) (r : Fin 2048) (j : Fin 256) :
    k1_pay4 x0 mu sd g be w bb (ix2 r j)
      = (∑ k : Fin 512, ((x0 (ix2 r k) - mu (ix2 (0 : Fin 1) k)) * sd (ix2 (0 : Fin 1) k) * g (ix2 (0 : Fin 1) k)
            + be (ix2 (0 : Fin 1) k)) * w (ix2 k j)) + bb (ix2 (0 : Fin 1) j) := by
  unfold k1_pay4
  refine congrArg₂ (· + ·) ((matmul_ix _ _ r j).trans (Finset.sum_congr rfl fun k _ => ?_))
    (bcast_row bb shapeCasts_S1x256_S1x256 broadcasts_S1x256_S2048x256 r j)
  have e0 : shapeCast S2048x512 x0 shapeCasts_S2048x512_S2048x512 (ix2 r k) = x0 (ix2 r k) :=
    congrFun (shapeCast_self x0 _) _
  have e1 := bcast_row mu shapeCasts_S1x512_S1x512 broadcasts_S1x512_S2048x512 r k
  have e2 := bcast_row sd shapeCasts_S1x512_S1x512 broadcasts_S1x512_S2048x512 r k
  have e3 := bcast_row g shapeCasts_S1x512_S1x512 broadcasts_S1x512_S2048x512 r k
  have e4 := bcast_row be shapeCasts_S1x512_S1x512 broadcasts_S1x512_S2048x512 r k
  have e5 : shapeCast S512x256 w shapeCasts_S512x256_S512x256 (ix2 k j) = w (ix2 k j) :=
    congrFun (shapeCast_self w _) _
  exact congrArg₂ (· * ·) (congrArg₂ (· + ·) (congrArg₂ (· * ·) (congrArg₂ (· * ·) (congrArg₂ (· - ·) e0 e1) e2) e3) e4) e5

/-- A column sum over the 2048 rows of a tile, at column j. -/
theorem colsum_ix (src : FVec Ideal S2048x256 .f32) (hφ : FKind.Formats .f32)
    (hacc : (0x00000000#32 : BitVec 32) = 0x00000000#32) (j : Fin 256) :
    multiReduction (F := Ideal) .add [0] S256 src 0x00000000#32 reduces_S2048x256_S256 hφ hacc (ix1 j)
      = ∑ r : Fin 2048, src (ix2 r j) := by
  refine (Ideal.multiReduction_add_single src 0x00000000#32 reduces_S2048x256_S256 hφ hacc (ix1 j)).trans ?_
  refine Finset.sum_congr rfl fun r _ => congrArg src ?_
  funext a
  match a with
  | ⟨0, _⟩ => rfl
  | ⟨1, _⟩ => rfl

/-- The running column sum after a point, at column j: what the point before left plus the tile's column sum. -/
theorem pay5_apply (x0 : Vec Ideal S2048x512 .f32) (mu sd g be : Vec Ideal S1x512 .f32)
    (w : Vec Ideal S512x256 .bf16) (bb : Vec Ideal S1x256 .f32) (prev : Vec Ideal S1x256 .f32) (j : Fin 256) :
    k1_pay5 x0 mu sd g be w bb prev (ix2 (0 : Fin 1) j)
      = prev (ix2 (0 : Fin 1) j) + ∑ r : Fin 2048, k1_pay4 x0 mu sd g be w bb (ix2 r j) := by
  unfold k1_pay5
  exact congrArg₂ (· + ·) (congrFun (shapeCast_self prev _) _)
    ((shapeCast_a_1a_apply _ shapeCasts_S256_S1x256 (0 : Fin 1) j).trans (colsum_ix _ _ _ j))

/-- The running column sum of squares after a point, at column j. -/
theorem pay1_apply (tile : FVec Ideal S2048x256 .f32) (prev : Vec Ideal S1x256 .f32) (j : Fin 256) :
    k1_pay1 tile prev (ix2 (0 : Fin 1) j)
      = prev (ix2 (0 : Fin 1) j) + ∑ r : Fin 2048, tile (ix2 r j) * tile (ix2 r j) := by
  unfold k1_pay1
  exact congrArg₂ (· + ·) (congrFun (shapeCast_self prev _) _)
    ((shapeCast_a_1a_apply _ shapeCasts_S256_S1x256 (0 : Fin 1) j).trans (colsum_ix _ _ _ j))

/-- The zero row the sums start from. -/
theorem pay2_apply (i : S1x256.Idx) : k1_pay2 (F := Ideal) i = 0 := Ideal.ofBits_zero_f32
theorem pay3_apply (i : S1x256.Idx) : k1_pay3 (F := Ideal) i = 0 := Ideal.ofBits_zero_f32

/-! ## The arrays the region reads, and what it is to compute -/

variable (V : (c : Dev nD) → (b : Ref sig .tc) → Buf (Elt Ideal) ((c : Thread nD τ).loc b))

abbrev Y1 (c : Dev nD) : Mat 65536 512 := fun r j => V c main_v64_0 (ix2 r j)
abbrev Mean1 (c : Dev nD) : Fin 512 → EReal := fun j => V c main_v66 (ix2 0 j)
abbrev Rstd1 (c : Dev nD) : Fin 512 → EReal := fun j => V c main_v73 (ix2 0 j)
abbrev G1 (c : Dev nD) : Fin 512 → EReal := fun j => V c main_v60 (ix2 0 j)
abbrev Be1 (c : Dev nD) : Fin 512 → EReal := fun j => V c main_v61 (ix2 0 j)
abbrev Wt1 (c : Dev nD) : Mat 512 256 := fun k j => V c main_v57 (ix2 k j)
abbrev B1 (c : Dev nD) : Fin 256 → EReal := fun j => V c main_v59 (ix2 0 j)
abbrev Z1 (c : Dev nD) : Mat 65536 256 := lin (bn (Y1 V c) (Mean1 V c) (Rstd1 V c) (G1 V c) (Be1 V c)) (Wt1 V c) (B1 V c)

/-! ## Each window's block at a point, as entries of its array -/

/-- The windows' index maps over the grid: the two tiled windows move with the point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

theorem blk0 (c : Dev nD) (t : Fin cfg1.N) (r : Fin 2048) (k : Fin 512) (h : t.val * 2048 + r.val < 65536) :
    (iblk1 V c 0 t : Vec Ideal S2048x512 .f32) (ix2 r k) = V c main_v64_0 (ix2 ⟨t.val * 2048 + r.val, h⟩ k) := by
  show V c main_v64_0 (((cfg1.win 0).blk t).view.emb (ix2 r k)) = V c main_v64_0 _
  refine congrArg (V c main_v64_0) ?_
  funext a; apply Fin.ext
  match a with
  | ⟨0, _⟩ => show win1_0.index t (0 : Fin 2) * 2048 + 1 * r.val = t.val * 2048 + r.val; rw [(idx1 t).1]; omega
  | ⟨1, _⟩ => show win1_0.index t (1 : Fin 2) * 512 + 1 * k.val = k.val; rw [(idx1 t).2.1]; omega

theorem blk1 (c : Dev nD) (t : Fin cfg1.N) (k : Fin 512) :
    (iblk1 V c 1 t : Vec Ideal S1x512 .f32) (ix2 (0 : Fin 1) k) = V c main_v66 (ix2 (0 : Fin 1) k) := by
  show V c main_v66 (((cfg1.win 1).blk t).view.emb (ix2 (0 : Fin 1) k)) = V c main_v66 _
  refine congrArg (V c main_v66) ?_
  funext a; apply Fin.ext
  obtain ⟨-, -, e0, e1, -⟩ := idx1 t
  match a with
  | ⟨0, _⟩ => show win1_1.index t (0 : Fin 2) * 1 + 1 * 0 = 0; rw [e0]
  | ⟨1, _⟩ => show win1_1.index t (1 : Fin 2) * 512 + 1 * k.val = k.val; rw [e1]; omega

theorem blk2 (c : Dev nD) (t : Fin cfg1.N) (k : Fin 512) :
    (iblk1 V c 2 t : Vec Ideal S1x512 .f32) (ix2 (0 : Fin 1) k) = V c main_v73 (ix2 (0 : Fin 1) k) := by
  show V c main_v73 (((cfg1.win 2).blk t).view.emb (ix2 (0 : Fin 1) k)) = V c main_v73 _
  refine congrArg (V c main_v73) ?_
  funext a; apply Fin.ext
  obtain ⟨-, -, -, -, e0, e1, -⟩ := idx1 t
  match a with
  | ⟨0, _⟩ => show win1_2.index t (0 : Fin 2) * 1 + 1 * 0 = 0; rw [e0]
  | ⟨1, _⟩ => show win1_2.index t (1 : Fin 2) * 512 + 1 * k.val = k.val; rw [e1]; omega

theorem blk3 (c : Dev nD) (t : Fin cfg1.N) (k : Fin 512) :
    (iblk1 V c 3 t : Vec Ideal S1x512 .f32) (ix2 (0 : Fin 1) k) = V c main_v60 (ix2 (0 : Fin 1) k) := by
  show V c main_v60 (((cfg1.win 3).blk t).view.emb (ix2 (0 : Fin 1) k)) = V c main_v60 _
  refine congrArg (V c main_v60) ?_
  funext a; apply Fin.ext
  obtain ⟨-, -, -, -, -, -, e0, e1, -⟩ := idx1 t
  match a with
  | ⟨0, _⟩ => show win1_3.index t (0 : Fin 2) * 1 + 1 * 0 = 0; rw [e0]
  | ⟨1, _⟩ => show win1_3.index t (1 : Fin 2) * 512 + 1 * k.val = k.val; rw [e1]; omega

theorem blk4 (c : Dev nD) (t : Fin cfg1.N) (k : Fin 512) :
    (iblk1 V c 4 t : Vec Ideal S1x512 .f32) (ix2 (0 : Fin 1) k) = V c main_v61 (ix2 (0 : Fin 1) k) := by
  show V c main_v61 (((cfg1.win 4).blk t).view.emb (ix2 (0 : Fin 1) k)) = V c main_v61 _
  refine congrArg (V c main_v61) ?_
  funext a; apply Fin.ext
  obtain ⟨-, -, -, -, -, -, -, -, e0, e1, -⟩ := idx1 t
  match a with
  | ⟨0, _⟩ => show win1_4.index t (0 : Fin 2) * 1 + 1 * 0 = 0; rw [e0]
  | ⟨1, _⟩ => show win1_4.index t (1 : Fin 2) * 512 + 1 * k.val = k.val; rw [e1]; omega

theorem blk5 (c : Dev nD) (t : Fin cfg1.N) (k : Fin 512) (j : Fin 256) :
    (iblk1 V c 5 t : Vec Ideal S512x256 .bf16) (ix2 k j) = V c main_v57 (ix2 k j) := by
  show V c main_v57 (((cfg1.win 5).blk t).view.emb (ix2 k j)) = V c main_v57 _
  refine congrArg (V c main_v57) ?_
  funext a; apply Fin.ext
  obtain ⟨-, -, -, -, -, -, -, -, -, -, e0, e1, -⟩ := idx1 t
  match a with
  | ⟨0, _⟩ => show win1_5.index t (0 : Fin 2) * 512 + 1 * k.val = k.val; rw [e0]; omega
  | ⟨1, _⟩ => show win1_5.index t (1 : Fin 2) * 256 + 1 * j.val = j.val; rw [e1]; omega

theorem blk6 (c : Dev nD) (t : Fin cfg1.N) (j : Fin 256) :
    (iblk1 V c 6 t : Vec Ideal S1x256 .f32) (ix2 (0 : Fin 1) j) = V c main_v59 (ix2 (0 : Fin 1) j) := by
  show V c main_v59 (((cfg1.win 6).blk t).view.emb (ix2 (0 : Fin 1) j)) = V c main_v59 _
  refine congrArg (V c main_v59) ?_
  funext a; apply Fin.ext
  obtain ⟨-, -, -, -, -, -, -, -, -, -, -, -, e0, e1, -⟩ := idx1 t
  match a with
  | ⟨0, _⟩ => show win1_6.index t (0 : Fin 2) * 1 + 1 * 0 = 0; rw [e0]
  | ⟨1, _⟩ => show win1_6.index t (1 : Fin 2) * 256 + 1 * j.val = j.val; rw [e1]; omega

/-! ## The tile a point computes -/

/-- The tile at point t, at (r, j): the second layer's value for row 2048 t + r. -/
theorem tile1_apply (c : Dev nD) (t : Fin cfg1.N) (r : Fin 2048) (j : Fin 256) (h : t.val * 2048 + r.val < 65536) :
    tile1 V c t (ix2 r j) = Z1 V c ⟨t.val * 2048 + r.val, h⟩ j := by
  unfold tile1
  refine (pay4_apply (iblk1 V c 0 t) (iblk1 V c 1 t) (iblk1 V c 2 t) (iblk1 V c 3 t) (iblk1 V c 4 t) (iblk1 V c 5 t)
    (iblk1 V c 6 t) r j).trans ?_
  show _ = (∑ k : Fin 512, ((Y1 V c ⟨t.val * 2048 + r.val, h⟩ k - Mean1 V c k) * Rstd1 V c k * G1 V c k + Be1 V c k)
    * Wt1 V c k j) + B1 V c j
  refine congrArg₂ (· + ·) (Finset.sum_congr rfl fun k _ => ?_) (blk6 V c t j)
  exact congrArg₂ (· * ·) (congrArg₂ (· + ·) (congrArg₂ (· * ·) (congrArg₂ (· * ·)
    (congrArg₂ (· - ·) (blk0 V c t r k h) (blk1 V c t k)) (blk2 V c t k)) (blk3 V c t k)) (blk4 V c t k)) (blk5 V c t k j)

/-! ## The running sums -/

/-- The running column sum after point n is the sum taken tile by tile. -/
theorem sum1_apply (c : Dev nD) (j : Fin 256) :
    ∀ (n : ℕ) (hn : n < cfg1.N) (h : n < 32), sum1 V c n hn (ix2 (0 : Fin 1) j) = accSum (Z1 V c) j n h
  | 0, hn, h => by
    rw [sum1]
    refine (pay5_apply (iblk1 V c 0 ⟨0, hn⟩) (iblk1 V c 1 ⟨0, hn⟩) (iblk1 V c 2 ⟨0, hn⟩) (iblk1 V c 3 ⟨0, hn⟩)
      (iblk1 V c 4 ⟨0, hn⟩) (iblk1 V c 5 ⟨0, hn⟩) (iblk1 V c 6 ⟨0, hn⟩) (k1_pay2 (F := Ideal)) j).trans ?_
    show _ = 0 + ∑ r : Fin 2048, Z1 V c (row ⟨0, h⟩ r) j
    exact congrArg₂ (· + ·) (pay2_apply _) (Finset.sum_congr rfl fun r _ => tile1_apply V c ⟨0, hn⟩ r j _)
  | n + 1, hn, h => by
    rw [sum1]
    refine (pay5_apply (iblk1 V c 0 ⟨n + 1, hn⟩) (iblk1 V c 1 ⟨n + 1, hn⟩) (iblk1 V c 2 ⟨n + 1, hn⟩) (iblk1 V c 3 ⟨n + 1, hn⟩)
      (iblk1 V c 4 ⟨n + 1, hn⟩) (iblk1 V c 5 ⟨n + 1, hn⟩) (iblk1 V c 6 ⟨n + 1, hn⟩) (sum1 V c n (Nat.lt_of_succ_lt hn)) j).trans ?_
    show _ = accSum (Z1 V c) j n (Nat.lt_of_succ_lt h) + ∑ r : Fin 2048, Z1 V c (row ⟨n + 1, h⟩ r) j
    exact congrArg₂ (· + ·) (sum1_apply c j n (Nat.lt_of_succ_lt hn) (Nat.lt_of_succ_lt h))
      (Finset.sum_congr rfl fun r _ => tile1_apply V c ⟨n + 1, hn⟩ r j _)

/-- The running column sum of squares after point n is the sum of the squares taken tile by tile. -/
theorem sq1_apply (c : Dev nD) (j : Fin 256) :
    ∀ (n : ℕ) (hn : n < cfg1.N) (h : n < 32),
      sq1 V c n hn (ix2 (0 : Fin 1) j) = accSum (fun r j => Z1 V c r j * Z1 V c r j) j n h
  | 0, hn, h => by
    rw [sq1]
    refine (pay1_apply (tile1 V c ⟨0, hn⟩) (k1_pay3 (F := Ideal)) j).trans ?_
    show _ = 0 + ∑ r : Fin 2048, Z1 V c (row ⟨0, h⟩ r) j * Z1 V c (row ⟨0, h⟩ r) j
    exact congrArg₂ (· + ·) (pay3_apply _) (Finset.sum_congr rfl fun r _ =>
      congrArg₂ (· * ·) (tile1_apply V c ⟨0, hn⟩ r j _) (tile1_apply V c ⟨0, hn⟩ r j _))
  | n + 1, hn, h => by
    rw [sq1]
    refine (pay1_apply (tile1 V c ⟨n + 1, hn⟩) (sq1 V c n (Nat.lt_of_succ_lt hn)) j).trans ?_
    show _ = accSum (fun r j => Z1 V c r j * Z1 V c r j) j n (Nat.lt_of_succ_lt h)
      + ∑ r : Fin 2048, Z1 V c (row ⟨n + 1, h⟩ r) j * Z1 V c (row ⟨n + 1, h⟩ r) j
    exact congrArg₂ (· + ·) (sq1_apply c j n (Nat.lt_of_succ_lt hn) (Nat.lt_of_succ_lt h))
      (Finset.sum_congr rfl fun r _ =>
        congrArg₂ (· * ·) (tile1_apply V c ⟨n + 1, hn⟩ r j _) (tile1_apply V c ⟨n + 1, hn⟩ r j _))

/-! ## From blocks to the arrays -/

theorem h31 : 31 < cfg1.N := by rw [show cfg1.N = 32 from N_1]; norm_num

/-- What the tile output's array ends holding: the second layer's value, row by row. -/
abbrev G7 (c : Dev nD) : S65536x256.Idx → EReal := fun i => Z1 V c (i 0) (i 1)

/-- Point t writes back block t of that array. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  funext y
  obtain ⟨r, j, rfl⟩ : ∃ (r : Fin 2048) (j : Fin 256), y = ix2 r j := ⟨y 0, y 1, eq_ix2 y⟩
  have hN : cfg1.N = 32 := N_1
  have ht : t.val < 32 := lt_of_lt_of_eq t.isLt hN
  have h : t.val * 2048 + r.val < 65536 := by omega
  show tile1 V c t (ix2 r j)
    = Z1 V c (((cfg1.win 7).blk t).view.emb (ix2 r j) 0) (((cfg1.win 7).blk t).view.emb (ix2 r j) 1)
  refine (tile1_apply V c t r j h).trans ?_
  obtain ⟨-, -, -, -, -, -, -, -, -, -, -, -, -, -, e0, e1, -⟩ := idx1 t
  refine congrArg₂ (Z1 V c) (Fin.ext ?_) (Fin.ext ?_)
  · show t.val * 2048 + r.val = win1_7.index t (0 : Fin 2) * 2048 + 1 * r.val
    rw [e0]; omega
  · show j.val = win1_7.index t (1 : Fin 2) * 256 + 1 * j.val
    rw [e1]; omega

theorem mem_blk7 (t : Fin cfg1.N) (i : S65536x256.Idx) :
    i ∈ ((cfg1.win 7).blk t).view.set ↔ ∀ a : Fin 2, win1_7.index t a * S2048x256.size a ≤ (i a).val
      ∧ (i a).val < win1_7.index t a * S2048x256.size a + S2048x256.size a := by
  show i ∈ ((View.whole main_v74_0).slice (win1_7.rect t)).set ↔ _
  rw [View.set_slice_whole, Rect.mem_set_unit]
  exact Iff.rfl

/-- Row r is in the block of point r / 2048. -/
theorem cover7 (i : S65536x256.Idx) :
    ∃ t : Fin cfg1.N, (cfg1.win 7).flush t = true ∧ i ∈ ((cfg1.win 7).blk t).view.set := by
  have hN : cfg1.N = 32 := N_1
  have hi0 : (i 0).val < 65536 := (i 0).isLt
  have hi1 : (i 1).val < 256 := (i 1).isLt
  have hq : (i 0).val / 2048 < cfg1.N := lt_of_lt_of_eq (by omega) hN.symm
  refine ⟨⟨(i 0).val / 2048, hq⟩, flush1_7 _, ?_⟩
  rw [mem_blk7]
  obtain ⟨-, -, -, -, -, -, -, -, -, -, -, -, -, -, e0, e1, -⟩ := idx1 ⟨(i 0).val / 2048, hq⟩
  intro a
  match a with
  | ⟨0, _⟩ =>
    show win1_7.index ⟨(i 0).val / 2048, hq⟩ (0 : Fin 2) * 2048 ≤ (i 0).val
      ∧ (i 0).val < win1_7.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win1_7.index ⟨(i 0).val / 2048, hq⟩ (1 : Fin 2) * 256 ≤ (i 1).val
      ∧ (i 1).val < win1_7.index ⟨(i 0).val / 2048, hq⟩ (1 : Fin 2) * 256 + 256
    rw [e1]; omega

/-- The tile output's array after the run. -/
theorem arr1_7 (c : Dev nD) (r : Fin 65536) (j : Fin 256) : (dat1 V c).arrAt 7 cfg1.N (ix2 r j) = Z1 V c r j :=
  congrFun ((dat1 V c).arrAt_eq_of_cover 7 (G7 V c) (fun t _ => flushed7_eq V c t) cover7) (ix2 r j)

/-! ## The two one-row outputs: written back once, after the last point -/

/-- The one write-back of window 8, at the last point, writes what that point left. -/
theorem flushed8_eq (c : Dev nD) (t : Fin cfg1.N) (hf : (cfg1.win 8).flush t = true) :
    (dat1 V c).flushed 8 t = ((cfg1.win 8).blk t).view.read (Elt Ideal) (sum1 V c 31 h31) := by
  have hN : cfg1.N = 32 := N_1
  have h1 : t.val = 31 := by have := (flush1_8 t).mp hf; have := t.isLt; omega
  obtain rfl : t = ⟨31, h31⟩ := Fin.ext h1
  show (cfg1.win 8).cut (grid1.coords ⟨31, h31⟩) ((dat1 V c).after 8 ⟨31, h31⟩) = _
  rw [after1_8]
  funext y
  obtain ⟨u, j, rfl⟩ : ∃ (u : Fin 1) (j : Fin 256), y = ix2 u j := ⟨y 0, y 1, eq_ix2 y⟩
  obtain ⟨-, -, -, -, -, -, -, -, -, -, -, -, -, -, -, -, e0, e1, -⟩ := idx1 ⟨31, h31⟩
  show sum1 V c 31 h31 (ix2 u j) = sum1 V c 31 h31 (((cfg1.win 8).blk ⟨31, h31⟩).view.emb (ix2 u j))
  refine congrArg (sum1 V c 31 h31) ?_
  funext a; apply Fin.ext
  match a with
  | ⟨0, _⟩ =>
    show u.val = win1_8.index ⟨31, h31⟩ (0 : Fin 2) * 1 + 1 * u.val
    rw [e0]; omega
  | ⟨1, _⟩ =>
    show j.val = win1_8.index ⟨31, h31⟩ (1 : Fin 2) * 256 + 1 * j.val
    rw [e1]; omega

theorem mem_blk8 (t : Fin cfg1.N) (i : S1x256.Idx) :
    i ∈ ((cfg1.win 8).blk t).view.set ↔ ∀ a : Fin 2, win1_8.index t a * S1x256.size a ≤ (i a).val
      ∧ (i a).val < win1_8.index t a * S1x256.size a + S1x256.size a := by
  show i ∈ ((View.whole main_v74_1).slice (win1_8.rect t)).set ↔ _
  rw [View.set_slice_whole, Rect.mem_set_unit]
  exact Iff.rfl

/-- The last point's block is the whole one-row array. -/
theorem cover8 (i : S1x256.Idx) :
    ∃ t : Fin cfg1.N, (cfg1.win 8).flush t = true ∧ i ∈ ((cfg1.win 8).blk t).view.set := by
  have hi0 : (i 0).val < 1 := (i 0).isLt
  have hi1 : (i 1).val < 256 := (i 1).isLt
  refine ⟨⟨31, h31⟩, (flush1_8 _).mpr rfl, ?_⟩
  rw [mem_blk8]
  obtain ⟨-, -, -, -, -, -, -, -, -, -, -, -, -, -, -, -, e0, e1, -⟩ := idx1 ⟨31, h31⟩
  intro a
  match a with
  | ⟨0, _⟩ =>
    show win1_8.index ⟨31, h31⟩ (0 : Fin 2) * 1 ≤ (i 0).val ∧ (i 0).val < win1_8.index ⟨31, h31⟩ (0 : Fin 2) * 1 + 1
    rw [e0]; omega
  | ⟨1, _⟩ =>
    show win1_8.index ⟨31, h31⟩ (1 : Fin 2) * 256 ≤ (i 1).val ∧ (i 1).val < win1_8.index ⟨31, h31⟩ (1 : Fin 2) * 256 + 256
    rw [e1]; omega

/-- The column sums' array after the run: the sum taken tile by tile. -/
theorem arr1_8 (c : Dev nD) (j : Fin 256) : (dat1 V c).arrAt 8 cfg1.N (ix2 0 j) = tsum (Z1 V c) j :=
  (congrFun ((dat1 V c).arrAt_eq_of_cover 8 (sum1 V c 31 h31) (flushed8_eq V c) cover8) (ix2 (0 : Fin 1) j)).trans
    (sum1_apply V c j 31 h31 (by norm_num))

/-- The one write-back of window 9, at the last point, writes what that point left. -/
theorem flushed9_eq (c : Dev nD) (t : Fin cfg1.N) (hf : (cfg1.win 9).flush t = true) :
    (dat1 V c).flushed 9 t = ((cfg1.win 9).blk t).view.read (Elt Ideal) (sq1 V c 31 h31) := by
  have hN : cfg1.N = 32 := N_1
  have h1 : t.val = 31 := by have := (flush1_9 t).mp hf; have := t.isLt; omega
  obtain rfl : t = ⟨31, h31⟩ := Fin.ext h1
  show (cfg1.win 9).cut (grid1.coords ⟨31, h31⟩) ((dat1 V c).after 9 ⟨31, h31⟩) = _
  rw [after1_9]
  funext y
  obtain ⟨u, j, rfl⟩ : ∃ (u : Fin 1) (j : Fin 256), y = ix2 u j := ⟨y 0, y 1, eq_ix2 y⟩
  obtain ⟨-, -, -, -, -, -, -, -, -, -, -, -, -, -, -, -, -, -, e0, e1⟩ := idx1 ⟨31, h31⟩
  show sq1 V c 31 h31 (ix2 u j) = sq1 V c 31 h31 (((cfg1.win 9).blk ⟨31, h31⟩).view.emb (ix2 u j))
  refine congrArg (sq1 V c 31 h31) ?_
  funext a; apply Fin.ext
  match a with
  | ⟨0, _⟩ =>
    show u.val = win1_9.index ⟨31, h31⟩ (0 : Fin 2) * 1 + 1 * u.val
    rw [e0]; omega
  | ⟨1, _⟩ =>
    show j.val = win1_9.index ⟨31, h31⟩ (1 : Fin 2) * 256 + 1 * j.val
    rw [e1]; omega

theorem mem_blk9 (t : Fin cfg1.N) (i : S1x256.Idx) :
    i ∈ ((cfg1.win 9).blk t).view.set ↔ ∀ a : Fin 2, win1_9.index t a * S1x256.size a ≤ (i a).val
      ∧ (i a).val < win1_9.index t a * S1x256.size a + S1x256.size a := by
  show i ∈ ((View.whole main_v74_2).slice (win1_9.rect t)).set ↔ _
  rw [View.set_slice_whole, Rect.mem_set_unit]
  exact Iff.rfl

/-- The last point's block is the whole one-row array. -/
theorem cover9 (i : S1x256.Idx) :
    ∃ t : Fin cfg1.N, (cfg1.win 9).flush t = true ∧ i ∈ ((cfg1.win 9).blk t).view.set := by
  have hi0 : (i 0).val < 1 := (i 0).isLt
  have hi1 : (i 1).val < 256 := (i 1).isLt
  refine ⟨⟨31, h31⟩, (flush1_9 _).mpr rfl, ?_⟩
  rw [mem_blk9]
  obtain ⟨-, -, -, -, -, -, -, -, -, -, -, -, -, -, -, -, -, -, e0, e1⟩ := idx1 ⟨31, h31⟩
  intro a
  match a with
  | ⟨0, _⟩ =>
    show win1_9.index ⟨31, h31⟩ (0 : Fin 2) * 1 ≤ (i 0).val ∧ (i 0).val < win1_9.index ⟨31, h31⟩ (0 : Fin 2) * 1 + 1
    rw [e0]; omega
  | ⟨1, _⟩ =>
    show win1_9.index ⟨31, h31⟩ (1 : Fin 2) * 256 ≤ (i 1).val ∧ (i 1).val < win1_9.index ⟨31, h31⟩ (1 : Fin 2) * 256 + 256
    rw [e1]; omega

/-- The column sums of squares' array after the run: the sum of the squares taken tile by tile. -/
theorem arr1_9 (c : Dev nD) (j : Fin 256) :
    (dat1 V c).arrAt 9 cfg1.N (ix2 0 j) = tsum (fun r j => Z1 V c r j * Z1 V c r j) j :=
  (congrFun ((dat1 V c).arrAt_eq_of_cover 9 (sq1 V c 31 h31) (flushed9_eq V c) cover9) (ix2 (0 : Fin 1) j)).trans
    (sq1_apply V c j 31 h31 (by norm_num))

end Cert.KernelIdeal.Hand.Val1

end
-- ==== Proof.Val2I.lean ====
/-
  What the third pipeline leaves in its output array: for every row of the batch, the incoming
  column's entry plus the sum over the 256 columns of the row's normalised entries,
  (y - mean) * rstd * gamma + beta, read off the arrays the region finds when it is entered.

  First the body's value at one row of a tile, as a function of its six loaded blocks; then each
  window's block read back in its array (a tile's row r of point t is row t * 2048 + r of the
  batch, the one-row parameters are read whole at every point); then the tiles put together: the
  32 tiles cover the 65536 rows, and each is written back at its own point.
-/
import proofs.«101859_j90958817394882_1_alg».proof.Proof.DatsI
import proofs.«101859_j90958817394882_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val2

open Cert.KernelIdeal Cert.KernelIdeal.Gen Cert.KernelIdeal.Hand Idealize.ShloMosaic Idealize.ShloMosaic.ValueIdx Cert.DeepFM
open Idealize.ShloMosaic.TcCoe Idealize.SL.Sem
open Idealize.ShloMosaic.Pipeline (Dat)

/-! ## The body's value at a row of the tile -/

/-- A vector of `a` entries cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum over the columns of a tile, read at a row. -/
theorem rowSum_apply (src : FVec Ideal S2048x256 .f32) (h : S2048x256.Reduces [1] S2048) (hφ : FKind.Formats .f32)
    (hacc : (0x00000000#32 : BitVec 32) = FKind.add.neutral .f32 hφ) (p : Fin 2048) :
    multiReduction .add [1] S2048 src 0x00000000#32 h hφ hacc (ix1 p) = ∑ j : Fin 256, src (ix2 p j) := by
  refine (Ideal.multiReduction_add_single src _ h hφ hacc (ix1 p)).trans ?_
  refine Finset.sum_congr rfl fun j _ => congrArg src ?_
  funext a
  match a with
  | ⟨0, _⟩ => rfl
  | ⟨1, _⟩ => rfl

/-- A one-row parameter, spread over the tile's rows, read at `(p, j)`. -/
theorem param_apply (x : Vec Ideal S1x256 .f32) (p : Fin 2048) (j : Fin 256) :
    broadcastTo S2048x256 (shapeCast S1x256 x shapeCasts_S1x256_S1x256) broadcasts_S1x256_S2048x256 (ix2 p j)
      = x (ix2 (0 : Fin 1) j) :=
  (broadcastTo_1b_ab_apply _ _ p j).trans (congrFun (shapeCast_self x _) _)

/-- The body's column at row `p` of the tile: the incoming column's entry plus the sum over the columns of the
    row's normalised entries. -/
theorem pay_apply (x0 : Vec Ideal S2048x256 .f32) (x1 x2 x3 x4 : Vec Ideal S1x256 .f32) (x5 : Vec Ideal S2048x1 .f32)
    (p : Fin 2048) :
    k2_pay1 x0 x1 x2 x3 x4 x5 (ix2 p (0 : Fin 1))
      = x5 (ix2 p (0 : Fin 1)) + ∑ j : Fin 256,
          ((x0 (ix2 p j) - x1 (ix2 (0 : Fin 1) j)) * x2 (ix2 (0 : Fin 1) j) * x3 (ix2 (0 : Fin 1) j) + x4 (ix2 (0 : Fin 1) j)) := by
  unfold k2_pay1
  dsimp only
  refine congrArg₂ (· + ·) ?_ ?_
  · exact congrFun (shapeCast_self x5 _) _
  · refine (shapeCast_a_a1_apply _ _ p (0 : Fin 1)).trans ?_
    refine (rowSum_apply _ _ _ _ p).trans ?_
    refine Finset.sum_congr rfl fun j _ => ?_
    show (shapeCast S2048x256 x0 shapeCasts_S2048x256_S2048x256 (ix2 p j)
          - broadcastTo S2048x256 (shapeCast S1x256 x1 shapeCasts_S1x256_S1x256) broadcasts_S1x256_S2048x256 (ix2 p j))
        * broadcastTo S2048x256 (shapeCast S1x256 x2 shapeCasts_S1x256_S1x256) broadcasts_S1x256_S2048x256 (ix2 p j)
        * broadcastTo S2048x256 (shapeCast S1x256 x3 shapeCasts_S1x256_S1x256) broadcasts_S1x256_S2048x256 (ix2 p j)
        + broadcastTo S2048x256 (shapeCast S1x256 x4 shapeCasts_S1x256_S1x256) broadcasts_S1x256_S2048x256 (ix2 p j) = _
    rw [param_apply x1 p j, param_apply x2 p j, param_apply x3 p j, param_apply x4 p j,
      congrFun (shapeCast_self x0 shapeCasts_S2048x256_S2048x256) (ix2 p j)]

/-! ## Each window's block, read back in its array -/

variable (V : (c : Dev nD) → (b : Ref sig .tc) → Buf (Elt Ideal) ((c : Thread nD τ).loc b))

/-- The printed index maps over the grid: the tile windows' block index is the point, the one-row
    parameters' block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of the tile of the second layer's output at point `t` is row `t * 2048 + p` of the batch. -/
theorem blk0_apply (c : Dev nD) (t : Fin cfg2.N) (p : Fin 2048) (j : Fin 256) (r : Fin 65536)
    (hr : r.val = t.val * 2048 + p.val) :
    iblk2 V c 0 t (ix2 p j) = V c main_v74_0 (ix2 r j) := by
  show V c main_v74_0 (((cfg2.win 0).blk t).view.emb (ix2 p j)) = V c main_v74_0 (ix2 r j)
  refine congrArg (V c main_v74_0) (funext fun a => Fin.ext ?_)
  obtain ⟨e0, e1, -⟩ := idx_facts t
  match a with
  | ⟨0, _⟩ =>
    show win2_0.index t (0 : Fin 2) * 2048 + 1 * p.val = r.val
    omega
  | ⟨1, _⟩ =>
    show win2_0.index t (1 : Fin 2) * 256 + 1 * j.val = j.val
    omega

/-- The row of means is read whole at every point. -/
theorem blk1_apply (c : Dev nD) (t : Fin cfg2.N) (j : Fin 256) :
    iblk2 V c 1 t (ix2 (0 : Fin 1) j) = V c main_v76 (ix2 (0 : Fin 1) j) := by
  show V c main_v76 (((cfg2.win 1).blk t).view.emb (ix2 (0 : Fin 1) j)) = V c main_v76 (ix2 (0 : Fin 1) j)
  refine congrArg (V c main_v76) (funext fun a => Fin.ext ?_)
  obtain ⟨-, -, e10, e11, e20, e21, e30, e31, e40, e41, -⟩ := idx_facts t
  match a with
  | ⟨0, _⟩ =>
    show win2_1.index t (0 : Fin 2) * 1 + 1 * 0 = 0
    omega
  | ⟨1, _⟩ =>
    show win2_1.index t (1 : Fin 2) * 256 + 1 * j.val = j.val
    omega

/-- The row of reciprocal deviations is read whole at every point. -/
theorem blk2_apply (c : Dev nD) (t : Fin cfg2.N) (j : Fin 256) :
    iblk2 V c 2 t (ix2 (0 : Fin 1) j) = V c main_v83 (ix2 (0 : Fin 1) j) := by
  show V c main_v83 (((cfg2.win 2).blk t).view.emb (ix2 (0 : Fin 1) j)) = V c main_v83 (ix2 (0 : Fin 1) j)
  refine congrArg (V c main_v83) (funext fun a => Fin.ext ?_)
  obtain ⟨-, -, e10, e11, e20, e21, e30, e31, e40, e41, -⟩ := idx_facts t
  match a with
  | ⟨0, _⟩ =>
    show win2_2.index t (0 : Fin 2) * 1 + 1 * 0 = 0
    omega
  | ⟨1, _⟩ =>
    show win2_2.index t (1 : Fin 2) * 256 + 1 * j.val = j.val
    omega

/-- The row of scales is read whole at every point. -/
theorem blk3_apply (c : Dev nD) (t : Fin cfg2.N) (j : Fin 256) :
    iblk2 V c 3 t (ix2 (0 : Fin 1) j) = V c main_v62 (ix2 (0 : Fin 1) j) := by
  show V c main_v62 (((cfg2.win 3).blk t).view.emb (ix2 (0 : Fin 1) j)) = V c main_v62 (ix2 (0 : Fin 1) j)
  refine congrArg (V c main_v62) (funext fun a => Fin.ext ?_)
  obtain ⟨-, -, e10, e11, e20, e21, e30, e31, e40, e41, -⟩ := idx_facts t
  match a with
  | ⟨0, _⟩ =>
    show win2_3.index t (0 : Fin 2) * 1 + 1 * 0 = 0
    omega
  | ⟨1, _⟩ =>
    show win2_3.index t (1 : Fin 2) * 256 + 1 * j.val = j.val
    omega

/-- The row of shifts is read whole at every point. -/
theorem blk4_apply (c : Dev nD) (t : Fin cfg2.N) (j : Fin 256) :
    iblk2 V c 4 t (ix2 (0 : Fin 1) j) = V c main_v63 (ix2 (0 : Fin 1) j) := by
  show V c main_v63 (((cfg2.win 4).blk t).view.emb (ix2 (0 : Fin 1) j)) = V c main_v63 (ix2 (0 : Fin 1) j)
  refine congrArg (V c main_v63) (funext fun a => Fin.ext ?_)
  obtain ⟨-, -, e10, e11, e20, e21, e30, e31, e40, e41, -⟩ := idx_facts t
  match a with
  | ⟨0, _⟩ =>
    show win2_4.index t (0 : Fin 2) * 1 + 1 * 0 = 0
    omega
  | ⟨1, _⟩ =>
    show win2_4.index t (1 : Fin 2) * 256 + 1 * j.val = j.val
    omega

/-- Row `p` of the incoming column's tile at point `t` is row `t * 2048 + p` of the batch. -/
theorem blk5_apply (c : Dev nD) (t : Fin cfg2.N) (p : Fin 2048) (r : Fin 65536)
    (hr : r.val = t.val * 2048 + p.val) :
    iblk2 V c 5 t (ix2 p (0 : Fin 1)) = V c main_v53 (ix2 r (0 : Fin 1)) := by
  show V c main_v53 (((cfg2.win 5).blk t).view.emb (ix2 p (0 : Fin 1))) = V c main_v53 (ix2 r (0 : Fin 1))
  refine congrArg (V c main_v53) (funext fun a => Fin.ext ?_)
  obtain ⟨-, -, -, -, -, -, -, -, -, -, e50, e51, -⟩ := idx_facts t
  match a with
  | ⟨0, _⟩ =>
    show win2_5.index t (0 : Fin 2) * 2048 + 1 * p.val = r.val
    omega
  | ⟨1, _⟩ =>
    show win2_5.index t (1 : Fin 2) * 1 + 1 * 0 = 0
    omega

/-! ## The tiles put together -/

/-- The second layer's output, as the region finds it. -/
abbrev Y2 (c : Dev nD) : Mat 65536 256 := fun r j => V c main_v74_0 (ix2 r j)
/-- The row of column means. -/
abbrev Mean2 (c : Dev nD) : Fin 256 → EReal := fun j => V c main_v76 (ix2 0 j)
/-- The row of reciprocal deviations. -/
abbrev Rstd2 (c : Dev nD) : Fin 256 → EReal := fun j => V c main_v83 (ix2 0 j)
/-- The row of scales. -/
abbrev G2 (c : Dev nD) : Fin 256 → EReal := fun j => V c main_v62 (ix2 0 j)
/-- The row of shifts. -/
abbrev Be2 (c : Dev nD) : Fin 256 → EReal := fun j => V c main_v63 (ix2 0 j)
/-- The column added to the row sums. -/
abbrev Ex2 (c : Dev nD) : Fin 65536 → EReal := fun r => V c main_v53 (ix2 r 0)

/-- The column the pipeline leaves: at each row, the incoming entry plus the sum of the row's normalised entries. -/
def colOut (c : Dev nD) : S65536x1.Idx → EReal := fun i =>
  Ex2 V c (i 0) + ∑ j : Fin 256, bn (Y2 V c) (Mean2 V c) (Rstd2 V c) (G2 V c) (Be2 V c) (i 0) j

/-- The tile the body computes at point `t`, at its row `p`, is the column at row `t * 2048 + p`. -/
theorem tile_apply (c : Dev nD) (t : Fin cfg2.N) (p : Fin 2048) (r : Fin 65536) (hr : r.val = t.val * 2048 + p.val) :
    tile2 V c t (ix2 p (0 : Fin 1)) = colOut V c (ix2 r (0 : Fin 1)) := by
  unfold tile2
  refine (pay_apply (iblk2 V c 0 t) (iblk2 V c 1 t) (iblk2 V c 2 t) (iblk2 V c 3 t) (iblk2 V c 4 t) (iblk2 V c 5 t) p).trans ?_
  refine congrArg₂ (· + ·) (blk5_apply V c t p r hr) (Finset.sum_congr rfl fun j _ => ?_)
  exact congrArg₂ (· + ·) (congrArg₂ (· * ·) (congrArg₂ (· * ·) (congrArg₂ (· - ·) (blk0_apply V c t p j r hr) (blk1_apply V c t j))
    (blk2_apply V c t j)) (blk3_apply V c t j)) (blk4_apply V c t j)

theorem hN : cfg2.N = 32 := N_2

/-- What point `t` writes back is its block of the column. -/
theorem flushed_eq (c : Dev nD) (t : Fin cfg2.N) :
    (dat2 V c).flushed 6 t = ((cfg2.win 6).blk t).view.read (Elt Ideal) (colOut V c) := by
  show (cfg2.win 6).cut (grid2.coords t) ((dat2 V c).after 6 t) = _
  rw [after2_6]
  funext y
  have h0 : (y 0).val < 2048 := (y 0).isLt
  have h1 : (y 1).val < 1 := (y 1).isLt
  have ht : t.val < 32 := hN ▸ t.isLt
  obtain ⟨-, -, -, -, -, -, -, -, -, -, -, -, e60, e61⟩ := idx_facts t
  have eL : (cfg2.win 6).xinj (grid2.coords t) y = ix2 (⟨(y 0).val, h0⟩ : Fin 2048) (0 : Fin 1) :=
    funext fun a => Fin.ext (by
      match a with
      | ⟨0, _⟩ => rfl
      | ⟨1, _⟩ => show (y 1).val = 0; omega)
  have eR : ((cfg2.win 6).blk t).view.emb y = ix2 (⟨t.val * 2048 + (y 0).val, by omega⟩ : Fin 65536) (0 : Fin 1) :=
    funext fun a => Fin.ext (by
      match a with
      | ⟨0, _⟩ => show win2_6.index t (0 : Fin 2) * 2048 + 1 * (y 0).val = t.val * 2048 + (y 0).val; omega
      | ⟨1, _⟩ => show win2_6.index t (1 : Fin 2) * 1 + 1 * (y 1).val = 0; omega)
  show tile2 V c t ((cfg2.win 6).xinj (grid2.coords t) y) = colOut V c (((cfg2.win 6).blk t).view.emb y)
  rw [eL, eR]
  exact tile_apply V c t _ _ rfl

/-- An index of the column is in point `t`'s block iff each coordinate is in the block's range on its axis. -/
theorem mem_blk (t : Fin cfg2.N) (i : S65536x1.Idx) :
    i ∈ ((cfg2.win 6).blk t).view.set ↔ ∀ a : Fin 2, win2_6.index t a * S2048x1.size a ≤ (i a).val ∧ (i a).val < win2_6.index t a * S2048x1.size a + S2048x1.size a := by
  show i ∈ ((View.whole main_v84).slice (win2_6.rect t)).set ↔ _
  rw [View.set_slice_whole, Rect.mem_set_unit]
  exact Iff.rfl

/-- Every row is in some point's block: row `r` in that of point `r / 2048`. -/
theorem cover (i : S65536x1.Idx) :
    ∃ t : Fin cfg2.N, (cfg2.win 6).flush t = true ∧ i ∈ ((cfg2.win 6).blk t).view.set := by
  have hi0 : (i 0).val < 65536 := (i 0).isLt
  have hi1 : (i 1).val < 1 := (i 1).isLt
  let t : Fin cfg2.N := ⟨(i 0).val / 2048, by rw [hN]; omega⟩
  obtain ⟨-, -, -, -, -, -, -, -, -, -, -, -, e60, e61⟩ := idx_facts t
  have e60' : win2_6.index t (0 : Fin 2) = (i 0).val / 2048 := e60
  refine ⟨t, flush2_6 t, ?_⟩
  rw [mem_blk]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 1 ≤ (i 1).val ∧ (i 1).val < win2_6.index t (1 : Fin 2) * 1 + 1; omega

/-- The array after the run is the column. -/
theorem arr2_6_eq (c : Dev nD) : (dat2 V c).arrAt 6 cfg2.N = colOut V c :=
  (dat2 V c).arrAt_eq_of_cover 6 (colOut V c) (fun t _ => flushed_eq V c t) cover

/-- The third pipeline's output array at row `r`: the incoming column's entry plus the sum over the columns of
    the row's normalised entries. -/
theorem arr2_6 (c : Dev nD) (r : Fin 65536) :
    (dat2 V c).arrAt 6 cfg2.N (ix2 r 0)
      = Ex2 V c r + ∑ j : Fin 256, bn (Y2 V c) (Mean2 V c) (Rstd2 V c) (G2 V c) (Be2 V c) r j :=
  congrFun (arr2_6_eq V c) (ix2 r 0)

end Cert.KernelIdeal.Hand.Val2

end
-- ==== Proof.HostAI.lean ====
/-
  What the host operations before the first region leave in the buffers the regions read.

  The first sixty operations normalise the lookup indices, gather the first- and second-order
  embedding rows and multiply them by the feature values; the next eighteen sum the first-order
  products and the pairwise-interaction terms into one column, flatten the second-order products
  into a matrix of 624 columns, and lay the weights, biases, scales and shifts out as the regions
  read them.  Each buffer is read off the operations that wrote it, as a function of the launch
  arguments; the flattened products and the summed column are the same terms the whole-batch
  program computes for its own first layer's input and its additive column.
-/
import proofs.«101859_j90958817394882_1_alg».proof.Proof.FoldI
import proofs.«101859_j90958817394882_1_alg».proof.Proof.Gen.ReferenceIdeal.Read
import proofs.«101859_j90958817394882_1_alg».proof.Proof.Spec
import Idealize.ShloMosaic.Lib.ValueIdx
import Idealize.ShloMosaic.Lib.ValueLayout
import Idealize.ShloMosaic.Lib.IdealHost

set_option maxRecDepth 16384

noncomputable section

namespace Cert.KernelIdeal.Hand.HostA

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (ρ : Dev nD → PrngReg)

/-! ## The first sixty operations, from any contents `W` -/

set_option maxHeartbeats 4000000 in
theorem s1_arg4 (W : Valuation τ sig (Elt Ideal)) :
    StableHlo.after main_part0_ops0 W (Proc.devRef .tc main_arg4) = W (Proc.devRef .tc main_arg4) := by
  after_results_simp

set_option maxHeartbeats 4000000 in
theorem s1_arg5 (W : Valuation τ sig (Elt Ideal)) :
    StableHlo.after main_part0_ops0 W (Proc.devRef .tc main_arg5) = W (Proc.devRef .tc main_arg5) := by
  after_results_simp

set_option maxHeartbeats 4000000 in
theorem s1_arg6 (W : Valuation τ sig (Elt Ideal)) :
    StableHlo.after main_part0_ops0 W (Proc.devRef .tc main_arg6) = W (Proc.devRef .tc main_arg6) := by
  after_results_simp

set_option maxHeartbeats 4000000 in
theorem s1_arg7 (W : Valuation τ sig (Elt Ideal)) :
    StableHlo.after main_part0_ops0 W (Proc.devRef .tc main_arg7) = W (Proc.devRef .tc main_arg7) := by
  after_results_simp

set_option maxHeartbeats 4000000 in
theorem s1_arg8 (W : Valuation τ sig (Elt Ideal)) :
    StableHlo.after main_part0_ops0 W (Proc.devRef .tc main_arg8) = W (Proc.devRef .tc main_arg8) := by
  after_results_simp

set_option maxHeartbeats 4000000 in
theorem s1_arg9 (W : Valuation τ sig (Elt Ideal)) :
    StableHlo.after main_part0_ops0 W (Proc.devRef .tc main_arg9) = W (Proc.devRef .tc main_arg9) := by
  after_results_simp

set_option maxHeartbeats 4000000 in
theorem s1_arg10 (W : Valuation τ sig (Elt Ideal)) :
    StableHlo.after main_part0_ops0 W (Proc.devRef .tc main_arg10) = W (Proc.devRef .tc main_arg10) := by
  after_results_simp

set_option maxHeartbeats 4000000 in
theorem s1_arg11 (W : Valuation τ sig (Elt Ideal)) :
    StableHlo.after main_part0_ops0 W (Proc.devRef .tc main_arg11) = W (Proc.devRef .tc main_arg11) := by
  after_results_simp

set_option maxHeartbeats 4000000 in
theorem s1_arg12 (W : Valuation τ sig (Elt Ideal)) :
    StableHlo.after main_part0_ops0 W (Proc.devRef .tc main_arg12) = W (Proc.devRef .tc main_arg12) := by
  after_results_simp

/-! ## The next eighteen, from any contents `W` -/

set_option maxHeartbeats 4000000 in
theorem s2_w1 (W : Valuation τ sig (Elt Ideal)) :
    (StableHlo.after main_part1_ops0 W (Proc.devRef .tc main_v56) : S624x512.Idx → EReal) = W (Proc.devRef .tc main_arg4) := by
  after_results_simp
  rfl

set_option maxHeartbeats 4000000 in
theorem s2_w2 (W : Valuation τ sig (Elt Ideal)) :
    (StableHlo.after main_part1_ops0 W (Proc.devRef .tc main_v57) : S512x256.Idx → EReal) = W (Proc.devRef .tc main_arg8) := by
  after_results_simp
  rfl

set_option maxHeartbeats 4000000 in
theorem s2_b1 (W : Valuation τ sig (Elt Ideal)) :
    (StableHlo.after main_part1_ops0 W (Proc.devRef .tc main_v58) : S1x512.Idx → EReal)
      = shapeCast S1x512 (W (Proc.devRef .tc main_arg5) : S512.Idx → EReal) shapeCasts_S512_S1x512 := by
  after_results_simp
  rfl

set_option maxHeartbeats 4000000 in
theorem s2_b2 (W : Valuation τ sig (Elt Ideal)) :
    (StableHlo.after main_part1_ops0 W (Proc.devRef .tc main_v59) : S1x256.Idx → EReal)
      = shapeCast S1x256 (W (Proc.devRef .tc main_arg9) : S256.Idx → EReal) shapeCasts_S256_S1x256 := by
  after_results_simp
  rfl

set_option maxHeartbeats 4000000 in
theorem s2_g1 (W : Valuation τ sig (Elt Ideal)) :
    (StableHlo.after main_part1_ops0 W (Proc.devRef .tc main_v60) : S1x512.Idx → EReal)
      = shapeCast S1x512 (W (Proc.devRef .tc main_arg6) : S512.Idx → EReal) shapeCasts_S512_S1x512 := by
  after_results_simp
  rfl

set_option maxHeartbeats 4000000 in
theorem s2_be1 (W : Valuation τ sig (Elt Ideal)) :
    (StableHlo.after main_part1_ops0 W (Proc.devRef .tc main_v61) : S1x512.Idx → EReal)
      = shapeCast S1x512 (W (Proc.devRef .tc main_arg7) : S512.Idx → EReal) shapeCasts_S512_S1x512 := by
  after_results_simp
  rfl

set_option maxHeartbeats 4000000 in
theorem s2_g2 (W : Valuation τ sig (Elt Ideal)) :
    (StableHlo.after main_part1_ops0 W (Proc.devRef .tc main_v62) : S1x256.Idx → EReal)
      = shapeCast S1x256 (W (Proc.devRef .tc main_arg10) : S256.Idx → EReal) shapeCasts_S256_S1x256 := by
  after_results_simp
  rfl

set_option maxHeartbeats 4000000 in
theorem s2_be2 (W : Valuation τ sig (Elt Ideal)) :
    (StableHlo.after main_part1_ops0 W (Proc.devRef .tc main_v63) : S1x256.Idx → EReal)
      = shapeCast S1x256 (W (Proc.devRef .tc main_arg11) : S256.Idx → EReal) shapeCasts_S256_S1x256 := by
  after_results_simp
  rfl

/-! ## The weights, biases, scales and shifts as the regions read them -/

theorem p_w1 (c : Dev nD) (k : Fin 624) (j : Fin 512) :
    W2 m ρ c (Proc.devRef .tc main_v56) (ix2 k j) = m ((c : Thread nD τ).loc main_arg4) (ix2 k j) := by
  refine (congrFun (s2_w1 (W1 m ρ c)) (ix2 k j)).trans ?_
  exact congrFun (s1_arg4 (W0 m ρ c)) (ix2 k j)

theorem p_w2 (c : Dev nD) (k : Fin 512) (j : Fin 256) :
    W2 m ρ c (Proc.devRef .tc main_v57) (ix2 k j) = m ((c : Thread nD τ).loc main_arg8) (ix2 k j) := by
  refine (congrFun (s2_w2 (W1 m ρ c)) (ix2 k j)).trans ?_
  exact congrFun (s1_arg8 (W0 m ρ c)) (ix2 k j)

theorem p_b1 (c : Dev nD) (j : Fin 512) :
    W2 m ρ c (Proc.devRef .tc main_v58) (ix2 0 j) = m ((c : Thread nD τ).loc main_arg5) (ix1 j) := by
  refine (congrFun (s2_b1 (W1 m ρ c)) (ix2 0 j)).trans ?_
  refine (shapeCast_a_1a_apply _ shapeCasts_S512_S1x512 0 j).trans ?_
  exact congrFun (s1_arg5 (W0 m ρ c)) (ix1 j)

theorem p_b2 (c : Dev nD) (j : Fin 256) :
    W2 m ρ c (Proc.devRef .tc main_v59) (ix2 0 j) = m ((c : Thread nD τ).loc main_arg9) (ix1 j) := by
  refine (congrFun (s2_b2 (W1 m ρ c)) (ix2 0 j)).trans ?_
  refine (shapeCast_a_1a_apply _ shapeCasts_S256_S1x256 0 j).trans ?_
  exact congrFun (s1_arg9 (W0 m ρ c)) (ix1 j)

theorem p_g1 (c : Dev nD) (j : Fin 512) :
    W2 m ρ c (Proc.devRef .tc main_v60) (ix2 0 j) = m ((c : Thread nD τ).loc main_arg6) (ix1 j) := by
  refine (congrFun (s2_g1 (W1 m ρ c)) (ix2 0 j)).trans ?_
  refine (shapeCast_a_1a_apply _ shapeCasts_S512_S1x512 0 j).trans ?_
  exact congrFun (s1_arg6 (W0 m ρ c)) (ix1 j)

theorem p_be1 (c : Dev nD) (j : Fin 512) :
    W2 m ρ c (Proc.devRef .tc main_v61) (ix2 0 j) = m ((c : Thread nD τ).loc main_arg7) (ix1 j) := by
  refine (congrFun (s2_be1 (W1 m ρ c)) (ix2 0 j)).trans ?_
  refine (shapeCast_a_1a_apply _ shapeCasts_S512_S1x512 0 j).trans ?_
  exact congrFun (s1_arg7 (W0 m ρ c)) (ix1 j)

theorem p_g2 (c : Dev nD) (j : Fin 256) :
    W2 m ρ c (Proc.devRef .tc main_v62) (ix2 0 j) = m ((c : Thread nD τ).loc main_arg10) (ix1 j) := by
  refine (congrFun (s2_g2 (W1 m ρ c)) (ix2 0 j)).trans ?_
  refine (shapeCast_a_1a_apply _ shapeCasts_S256_S1x256 0 j).trans ?_
  exact congrFun (s1_arg10 (W0 m ρ c)) (ix1 j)

theorem p_be2 (c : Dev nD) (j : Fin 256) :
    W2 m ρ c (Proc.devRef .tc main_v63) (ix2 0 j) = m ((c : Thread nD τ).loc main_arg11) (ix1 j) := by
  refine (congrFun (s2_be2 (W1 m ρ c)) (ix2 0 j)).trans ?_
  refine (shapeCast_a_1a_apply _ shapeCasts_S256_S1x256 0 j).trans ?_
  exact congrFun (s1_arg11 (W0 m ρ c)) (ix1 j)

/-! ## The second-order products, flattened -/

set_option maxHeartbeats 40000000 in
/-- The products of the gathered second-order rows with the feature values, after the first sixty
    operations: the same term the whole-batch program computes. -/
theorem s1_v39 (W : Valuation τ sig (Elt Ideal)) :
    (StableHlo.after main_part0_ops0 W (Proc.devRef .tc main_v39) : S65536x39x16.Idx → EReal)
      = Cert.ReferenceIdeal.Read.val_main_v39 (F := Ideal) (W (Proc.devRef .tc main_arg0)) (W (Proc.devRef .tc main_arg1)) (W (Proc.devRef .tc main_arg3)) := by
  after_results_simp
  rfl

set_option maxHeartbeats 4000000 in
/-- The flattened copy in the narrower format: at the ideal instance a change of format is the identity. -/
theorem s2_v55 (W : Valuation τ sig (Elt Ideal)) :
    (StableHlo.after main_part1_ops0 W (Proc.devRef .tc main_v55) : S65536x624.Idx → EReal)
      = shapeCast S65536x624 (W (Proc.devRef .tc main_v39) : S65536x39x16.Idx → EReal) shapeCasts_S65536x39x16_S65536x624 := by
  after_results_simp
  rfl

theorem p_fm2 (c : Dev nD) (r : Fin 65536) (k : Fin 624) :
    W2 m ρ c (Proc.devRef .tc main_v55) (ix2 r k)
      = Cert.ReferenceIdeal.Read.val_main_v47 (F := Ideal) (m ((c : Thread nD τ).loc main_arg0)) (m ((c : Thread nD τ).loc main_arg1)) (m ((c : Thread nD τ).loc main_arg3)) (ix2 r k) := by
  refine (congrFun (s2_v55 (W1 m ρ c)) (ix2 r k)).trans ?_
  unfold Cert.ReferenceIdeal.Read.val_main_v47
  exact congrFun (congrArg (fun x => shapeCast S65536x624 x shapeCasts_S65536x39x16_S65536x624) (s1_v39 (W0 m ρ c))) (ix2 r k)

/-! ## The additive column: bias, first-order sum, pairwise-interaction sum -/

set_option maxHeartbeats 40000000 in
/-- The first-order products after the first sixty operations: the whole-batch program's term. -/
theorem s1_v36 (W : Valuation τ sig (Elt Ideal)) :
    (StableHlo.after main_part0_ops0 W (Proc.devRef .tc main_v36) : S65536x39.Idx → EReal)
      = Cert.ReferenceIdeal.Read.val_main_v21 (F := Ideal) (W (Proc.devRef .tc main_arg0)) (W (Proc.devRef .tc main_arg1)) (W (Proc.devRef .tc main_arg2)) := by
  after_results_simp <;> rfl

set_option maxHeartbeats 40000000 in
/-- Half the square of the sum minus the sum of the squares, after the first sixty operations: the
    whole-batch program's term. -/
theorem s1_v46 (W : Valuation τ sig (Elt Ideal)) :
    (StableHlo.after main_part0_ops0 W (Proc.devRef .tc main_v46) : S65536x16.Idx → EReal)
      = Cert.ReferenceIdeal.Read.val_main_v46 (F := Ideal) (W (Proc.devRef .tc main_arg0)) (W (Proc.devRef .tc main_arg1)) (W (Proc.devRef .tc main_arg3)) := by
  after_results_simp <;> rfl

set_option maxHeartbeats 4000000 in
/-- The zero the first-order sum starts from. -/
theorem s1_cst10 (W : Valuation τ sig (Elt Ideal)) :
    (StableHlo.after main_part0_ops0 W (Proc.devRef .tc main_cst_10) : S_.Idx → EReal)
      = Cert.ReferenceIdeal.Read.val_main_cst_20 (F := Ideal) := by
  after_results_simp <;> rfl

set_option maxHeartbeats 4000000 in
/-- The column after the next eighteen operations, over what they read. -/
theorem s2_v53 (W : Valuation τ sig (Elt Ideal)) :
    (StableHlo.after main_part1_ops0 W (Proc.devRef .tc main_v53) : S65536x1.Idx → EReal)
      = shapeCast S65536x1
          (addf (F := Ideal)
            (addf (F := Ideal)
              (broadcastInDim S65536 ![] bcast_S_S65536 (shapeCast S_ (W (Proc.devRef .tc main_arg12) : S1.Idx → EReal) shapeCasts_S1_S_))
              (Host.reduceAdd (F := Ideal) (W (Proc.devRef .tc main_v36) : (⟨S65536x39, .f32⟩ : BufTy).Contents (Elt Ideal)) (W (Proc.devRef .tc main_cst_10) : (⟨S_, .f32⟩ : BufTy).Contents (Elt Ideal)) reducesTo_S65536x39_S65536_d1 h_S_)
              : (⟨S65536, .f32⟩ : BufTy).Contents (Elt Ideal))
            (Host.reduceAdd (F := Ideal) (W (Proc.devRef .tc main_v46) : (⟨S65536x16, .f32⟩ : BufTy).Contents (Elt Ideal)) (constant (F := Ideal) S_ .f32 0x00000000#32) reducesTo_S65536x16_S65536_d1 h_S_)
            : (⟨S65536, .f32⟩ : BufTy).Contents (Elt Ideal))
          shapeCasts_S65536_S65536x1 := by
  after_results_simp <;> rfl

/-- A one-element array read through a scalar, broadcast to a column, is the array's one element
    broadcast along the column: both read the same element at every row. -/
theorem bias_bcast (x : S1.Idx → EReal) (r : Fin 65536) :
    broadcastInDim S65536 ![] bcast_S_S65536 (shapeCast S_ x shapeCasts_S1_S_) (ix1 r)
      = broadcastInDim S65536 ![0] Cert.ReferenceIdeal.Gen.bcast_S1_S65536_0 x (ix1 r) := by
  have h0 : ∀ k k' : S1.Idx, k 0 = k' 0 := fun k k' => Fin.ext (by
    have h1 : (k 0).val < 1 := (k 0).isLt
    have h2 : (k' 0).val < 1 := (k' 0).isLt
    omega)
  have hs : ∀ k k' : S1.Idx, k = k' := fun k k' =>
    (eq_ix1 k).trans ((congrArg (ix1 (n := 1)) (h0 k k')).trans (eq_ix1 k').symm)
  unfold broadcastInDim shapeCast
  exact congrArg x (hs _ _)

theorem p_extra (c : Dev nD) (r : Fin 65536) :
    W2 m ρ c (Proc.devRef .tc main_v53) (ix2 r 0)
      = Cert.ReferenceIdeal.Read.val_main_v110 (F := Ideal) (m ((c : Thread nD τ).loc main_arg0)) (m ((c : Thread nD τ).loc main_arg1))
          (m ((c : Thread nD τ).loc main_arg2)) (m ((c : Thread nD τ).loc main_arg3)) (m ((c : Thread nD τ).loc main_arg12)) (ix1 r) := by
  refine (congrFun (s2_v53 (W1 m ρ c)) (ix2 r 0)).trans ?_
  refine (shapeCast_apply _ shapeCasts_S65536_S65536x1 (ix2 r 0) (ix1 r) (by
    rw [Shape.rowMajor_val_one, Shape.rowMajor_val_two]; show r.val = r.val * 1 + 0; omega)).trans ?_
  have e36 : W1 m ρ c (Proc.devRef .tc main_v36) = _ := s1_v36 (W0 m ρ c)
  have e46 : W1 m ρ c (Proc.devRef .tc main_v46) = _ := s1_v46 (W0 m ρ c)
  have e10 : W1 m ρ c (Proc.devRef .tc main_cst_10) = _ := s1_cst10 (W0 m ρ c)
  have e12 : W1 m ρ c (Proc.devRef .tc main_arg12) = _ := s1_arg12 (W0 m ρ c)
  rw [e36, e46, e10, e12]
  unfold Cert.ReferenceIdeal.Read.val_main_v110 Cert.ReferenceIdeal.Read.val_main_v108 Cert.ReferenceIdeal.Read.val_main_v109
    Cert.ReferenceIdeal.Read.val_main_v107 Cert.ReferenceIdeal.Read.val_main_v106
  show (_ + _) + _ = (_ + _) + _
  refine congrArg₂ (· + ·) (congrArg₂ (· + ·) ?_ rfl) rfl
  exact bias_bcast _ r

end Cert.KernelIdeal.Hand.HostA

end
-- ==== Proof.HostBI.lean ====
/-
  What the three short host stretches of the program compute, read at an entry: between the first two regions the
  column sums become a mean and a reciprocal deviation  (mean = sum / B,  var = sumsq / B − mean²,
  rstd = rsqrt (var + eps)),  the same between the last two regions, and the closing step lays a one-column
  matrix out as a vector.
-/
import proofs.«101859_j90958817394882_1_alg».proof.Proof.FoldI
import proofs.«101859_j90958817394882_1_alg».proof.Proof.Spec
import Idealize.ShloMosaic.Lib.StableHlo.Run
import Idealize.ShloMosaic.Lib.ValueIdx
import Idealize.ShloMosaic.Lib.IdealHost
import Idealize.ShloMosaic.Lib.Pipeline.Value

set_option maxRecDepth 16384

noncomputable section

namespace Cert.KernelIdeal.Hand.HostB

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (ρ : Dev nD → PrngReg)

/-! ## The twelve operations of main_part1_ops1 -/

/-- The mean's buffer after the stretch, as a whole array: the column sums divided by the batch size. -/
theorem s1_mean_arr (W : Valuation τ sig (Elt Ideal)) :
    (StableHlo.after main_part1_ops1 W (Proc.devRef .tc main_v66) : S1x512.Idx → EReal)
      = Host.divf (F := Ideal) (W (Proc.devRef .tc main_v64_1) : S1x512.Idx → EReal)
          (broadcastInDim S1x512 ![] bcast_S_S1x512 (constant (F := Ideal) S_ .f32 0x47800000#32)) := by
  after_results

/-- The reciprocal deviation's buffer after the stretch, as a whole array. -/
theorem s1_rstd_arr (W : Valuation τ sig (Elt Ideal)) :
    (StableHlo.after main_part1_ops1 W (Proc.devRef .tc main_v73) : S1x512.Idx → EReal)
      = Host.rsqrt (F := Ideal) (addf (subf
          (Host.divf (F := Ideal) (W (Proc.devRef .tc main_v64_2) : S1x512.Idx → EReal)
            (broadcastInDim S1x512 ![] bcast_S_S1x512 (constant (F := Ideal) S_ .f32 0x47800000#32)))
          (mulf (Host.divf (F := Ideal) (W (Proc.devRef .tc main_v64_1) : S1x512.Idx → EReal)
              (broadcastInDim S1x512 ![] bcast_S_S1x512 (constant (F := Ideal) S_ .f32 0x47800000#32)))
            (Host.divf (F := Ideal) (W (Proc.devRef .tc main_v64_1) : S1x512.Idx → EReal)
              (broadcastInDim S1x512 ![] bcast_S_S1x512 (constant (F := Ideal) S_ .f32 0x47800000#32)))))
          (broadcastInDim S1x512 ![] bcast_S_S1x512 (constant (F := Ideal) S_ .f32 0x3727C5AC#32))) := by
  after_results

theorem s1_mean_W (W : Valuation τ sig (Elt Ideal)) (j : Fin 512) :
    (StableHlo.after main_part1_ops1 W (Proc.devRef .tc main_v66) : S1x512.Idx → EReal) (ix2 0 j)
      = Ideal.div ((W (Proc.devRef .tc main_v64_1) : S1x512.Idx → EReal) (ix2 0 j)) Cert.DeepFM.cB := by
  rw [s1_mean_arr]
  rfl

theorem s1_rstd_W (W : Valuation τ sig (Elt Ideal)) (j : Fin 512) :
    (StableHlo.after main_part1_ops1 W (Proc.devRef .tc main_v73) : S1x512.Idx → EReal) (ix2 0 j)
      = Ideal.rsqrt (Ideal.div ((W (Proc.devRef .tc main_v64_2) : S1x512.Idx → EReal) (ix2 0 j)) Cert.DeepFM.cB
          - @HMul.hMul EReal EReal EReal _ ((StableHlo.after main_part1_ops1 W (Proc.devRef .tc main_v66) : S1x512.Idx → EReal) (ix2 0 j))
              ((StableHlo.after main_part1_ops1 W (Proc.devRef .tc main_v66) : S1x512.Idx → EReal) (ix2 0 j))
          + Cert.DeepFM.cEps) := by
  rw [s1_rstd_arr, s1_mean_arr]
  rfl

/-- The mean: the column sum over the batch size. -/
theorem s1_mean (c : Dev nD) (j : Fin 512) :
    W4 m ρ c (Proc.devRef .tc main_v66) (ix2 0 j)
      = Ideal.div (W3 m ρ c (Proc.devRef .tc main_v64_1) (ix2 0 j)) Cert.DeepFM.cB :=
  s1_mean_W (W3 m ρ c) j

/-- The reciprocal deviation: rsqrt (sumsq / B − mean² + eps). -/
theorem s1_rstd (c : Dev nD) (j : Fin 512) :
    W4 m ρ c (Proc.devRef .tc main_v73) (ix2 0 j)
      = Ideal.rsqrt (Ideal.div (W3 m ρ c (Proc.devRef .tc main_v64_2) (ix2 0 j)) Cert.DeepFM.cB
          - @HMul.hMul EReal EReal EReal _ (W4 m ρ c (Proc.devRef .tc main_v66) (ix2 0 j)) (W4 m ρ c (Proc.devRef .tc main_v66) (ix2 0 j))
          + Cert.DeepFM.cEps) :=
  s1_rstd_W (W3 m ρ c) j

/-- The references the stretch writes. -/
abbrev ops1_W : List (Ref sig .tc) := [main_cst_12, main_v65, main_v66, main_cst_13, main_v67, main_v68, main_v69, main_v70, main_cst_14, main_v71, main_v72, main_v73]

theorem ops1_writes : (main_part1_ops1 : List (HloOp τ sig (Elt Ideal))).Forall
    fun op => op.writes ⊆ (ops1_W.map (Proc.devRef (τ := τ) .tc)).toFinset := by
  simp only [List.Forall, StableHlo.nullary_writes, StableHlo.unary_writes, StableHlo.binary_writes,
    Finset.singleton_subset_iff, List.mem_toFinset]
  refine ⟨?_, ?_, ?_, ?_, ?_, ?_, ?_, ?_, ?_, ?_, ?_, ?_⟩ <;> exact List.mem_map_of_mem (by decide)

/-- Every other buffer is as the stretch found it. -/
theorem s1_keep (c : Dev nD) (b : Ref sig .tc) (hb : b ∉ ops1_W) :
    W4 m ρ c (Proc.devRef .tc b) = W3 m ρ c (Proc.devRef .tc b) :=
  StableHlo.after_of_writes_sub main_part1_ops1 _ ops1_writes hb

/-! ## The twelve operations of main_part1_ops2 -/

/-- The mean's buffer after the stretch, as a whole array: the column sums divided by the batch size. -/
theorem s2_mean_arr (W : Valuation τ sig (Elt Ideal)) :
    (StableHlo.after main_part1_ops2 W (Proc.devRef .tc main_v76) : S1x256.Idx → EReal)
      = Host.divf (F := Ideal) (W (Proc.devRef .tc main_v74_1) : S1x256.Idx → EReal)
          (broadcastInDim S1x256 ![] bcast_S_S1x256 (constant (F := Ideal) S_ .f32 0x47800000#32)) := by
  after_results

/-- The reciprocal deviation's buffer after the stretch, as a whole array. -/
theorem s2_rstd_arr (W : Valuation τ sig (Elt Ideal)) :
    (StableHlo.after main_part1_ops2 W (Proc.devRef .tc main_v83) : S1x256.Idx → EReal)
      = Host.rsqrt (F := Ideal) (addf (subf
          (Host.divf (F := Ideal) (W (Proc.devRef .tc main_v74_2) : S1x256.Idx → EReal)
            (broadcastInDim S1x256 ![] bcast_S_S1x256 (constant (F := Ideal) S_ .f32 0x47800000#32)))
          (mulf (Host.divf (F := Ideal) (W (Proc.devRef .tc main_v74_1) : S1x256.Idx → EReal)
              (broadcastInDim S1x256 ![] bcast_S_S1x256 (constant (F := Ideal) S_ .f32 0x47800000#32)))
            (Host.divf (F := Ideal) (W (Proc.devRef .tc main_v74_1) : S1x256.Idx → EReal)
              (broadcastInDim S1x256 ![] bcast_S_S1x256 (constant (F := Ideal) S_ .f32 0x47800000#32)))))
          (broadcastInDim S1x256 ![] bcast_S_S1x256 (constant (F := Ideal) S_ .f32 0x3727C5AC#32))) := by
  after_results

theorem s2_mean_W (W : Valuation τ sig (Elt Ideal)) (j : Fin 256) :
    (StableHlo.after main_part1_ops2 W (Proc.devRef .tc main_v76) : S1x256.Idx → EReal) (ix2 0 j)
      = Ideal.div ((W (Proc.devRef .tc main_v74_1) : S1x256.Idx → EReal) (ix2 0 j)) Cert.DeepFM.cB := by
  rw [s2_mean_arr]
  rfl

theorem s2_rstd_W (W : Valuation τ sig (Elt Ideal)) (j : Fin 256) :
    (StableHlo.after main_part1_ops2 W (Proc.devRef .tc main_v83) : S1x256.Idx → EReal) (ix2 0 j)
      = Ideal.rsqrt (Ideal.div ((W (Proc.devRef .tc main_v74_2) : S1x256.Idx → EReal) (ix2 0 j)) Cert.DeepFM.cB
          - @HMul.hMul EReal EReal EReal _ ((StableHlo.after main_part1_ops2 W (Proc.devRef .tc main_v76) : S1x256.Idx → EReal) (ix2 0 j))
              ((StableHlo.after main_part1_ops2 W (Proc.devRef .tc main_v76) : S1x256.Idx → EReal) (ix2 0 j))
          + Cert.DeepFM.cEps) := by
  rw [s2_rstd_arr, s2_mean_arr]
  rfl

/-- The mean: the column sum over the batch size. -/
theorem s2_mean (c : Dev nD) (j : Fin 256) :
    W6 m ρ c (Proc.devRef .tc main_v76) (ix2 0 j)
      = Ideal.div (W5 m ρ c (Proc.devRef .tc main_v74_1) (ix2 0 j)) Cert.DeepFM.cB :=
  s2_mean_W (W5 m ρ c) j

/-- The reciprocal deviation: rsqrt (sumsq / B − mean² + eps). -/
theorem s2_rstd (c : Dev nD) (j : Fin 256) :
    W6 m ρ c (Proc.devRef .tc main_v83) (ix2 0 j)
      = Ideal.rsqrt (Ideal.div (W5 m ρ c (Proc.devRef .tc main_v74_2) (ix2 0 j)) Cert.DeepFM.cB
          - @HMul.hMul EReal EReal EReal _ (W6 m ρ c (Proc.devRef .tc main_v76) (ix2 0 j)) (W6 m ρ c (Proc.devRef .tc main_v76) (ix2 0 j))
          + Cert.DeepFM.cEps) :=
  s2_rstd_W (W5 m ρ c) j

/-- The references the stretch writes. -/
abbrev ops2_W : List (Ref sig .tc) := [main_cst_15, main_v75, main_v76, main_cst_16, main_v77, main_v78, main_v79, main_v80, main_cst_17, main_v81, main_v82, main_v83]

theorem ops2_writes : (main_part1_ops2 : List (HloOp τ sig (Elt Ideal))).Forall
    fun op => op.writes ⊆ (ops2_W.map (Proc.devRef (τ := τ) .tc)).toFinset := by
  simp only [List.Forall, StableHlo.nullary_writes, StableHlo.unary_writes, StableHlo.binary_writes,
    Finset.singleton_subset_iff, List.mem_toFinset]
  refine ⟨?_, ?_, ?_, ?_, ?_, ?_, ?_, ?_, ?_, ?_, ?_, ?_⟩ <;> exact List.mem_map_of_mem (by decide)

/-- Every other buffer is as the stretch found it. -/
theorem s2_keep (c : Dev nD) (b : Ref sig .tc) (hb : b ∉ ops2_W) :
    W6 m ρ c (Proc.devRef .tc b) = W5 m ρ c (Proc.devRef .tc b) :=
  StableHlo.after_of_writes_sub main_part1_ops2 _ ops2_writes hb

/-! ## The closing reshape -/

theorem t_out_W (W : Valuation τ sig (Elt Ideal)) (r : Fin 65536) :
    (StableHlo.after main_part1_ops3 W (Proc.devRef .tc main_v85) : S65536.Idx → EReal) (ix1 r)
      = (W (Proc.devRef .tc main_v84) : S65536x1.Idx → EReal) (ix2 r 0) := by
  have e : (StableHlo.after main_part1_ops3 W (Proc.devRef .tc main_v85) : S65536.Idx → EReal)
      = shapeCast S65536 (W (Proc.devRef .tc main_v84) : S65536x1.Idx → EReal) shapeCasts_S65536x1_S65536 := by
    after_results; rfl
  rw [e]
  exact shapeCast_apply _ _ _ _ (by
    show (S65536x1.rowMajor (ix2 r 0)).val = (S65536.rowMajor (ix1 r)).val
    rw [Shape.rowMajor_val_two, Shape.rowMajor_val_one]
    show r.val * 1 + 0 = r.val
    omega)

/-- The one-column result laid out as a vector: entry r is the column's entry (r, 0). -/
theorem t_out (c : Dev nD) (r : Fin 65536) :
    W8 m ρ c (Proc.devRef .tc main_v85) (ix1 r) = W7 m ρ c (Proc.devRef .tc main_v84) (ix2 r 0) :=
  t_out_W (W7 m ρ c) r

end Cert.KernelIdeal.Hand.HostB

end
-- ==== Proof.KValI.lean ====
/-
  The kernel program's result, assembled: the buffer the program returns, read at a row, is the
  tiled side's value of that row.

  The program is three regions between stretches of host operations.  The first stretch prepares
  the layers' operands from the program's arguments; region 0 is the first affine layer together
  with its two tiled column sums; a short stretch turns the sums into a mean and a reciprocal
  deviation; region 1 normalises, applies the second affine layer and again keeps the two tiled
  column sums; a second short stretch gives the second mean and reciprocal deviation; region 2
  normalises and adds each row's sum to the incoming column; the last operation reshapes that
  column into the result.  Each step is an equation between functions, and the equations chain
  from the arguments to the result.
-/
import proofs.«101859_j90958817394882_1_alg».proof.Proof.Val0I
import proofs.«101859_j90958817394882_1_alg».proof.Proof.Val1I
import proofs.«101859_j90958817394882_1_alg».proof.Proof.Val2I
import proofs.«101859_j90958817394882_1_alg».proof.Proof.HostAI
import proofs.«101859_j90958817394882_1_alg».proof.Proof.HostBI
import proofs.«101859_j90958817394882_1_alg».proof.Proof.Gen.ReferenceIdeal.Read

set_option maxRecDepth 16384

noncomputable section

namespace Cert.KernelIdeal.Hand.KVal

open Cert.KernelIdeal Cert.KernelIdeal.Gen Cert.KernelIdeal.Hand
open Idealize.ShloMosaic Idealize.ShloMosaic.TcCoe Idealize.ShloMosaic.ValueIdx
open Cert.DeepFM

variable (m : (ℓ : Loc nD τ sig) → Buf (Elt Ideal) ℓ) (ρ : Dev nD → PrngReg)

/-! ## The operands, as functions of the program's arguments -/

/-- The first layer's input rows. -/
abbrev xA (c : Dev nD) : Mat 65536 624 := fun r k =>
  Cert.ReferenceIdeal.Read.val_main_v47 (F := Ideal) (m ((c : Thread nD τ).loc main_arg0))
    (m ((c : Thread nD τ).loc main_arg1)) (m ((c : Thread nD τ).loc main_arg3)) (ix2 r k)
/-- The first weight matrix. -/
abbrev w1A (c : Dev nD) : Mat 624 512 := fun k j => (m ((c : Thread nD τ).loc main_arg4)) (ix2 k j)
/-- The first bias, scale and shift. -/
abbrev b1A (c : Dev nD) : Fin 512 → EReal := fun j => (m ((c : Thread nD τ).loc main_arg5)) (ix1 j)
abbrev g1A (c : Dev nD) : Fin 512 → EReal := fun j => (m ((c : Thread nD τ).loc main_arg6)) (ix1 j)
abbrev be1A (c : Dev nD) : Fin 512 → EReal := fun j => (m ((c : Thread nD τ).loc main_arg7)) (ix1 j)
/-- The second weight matrix. -/
abbrev w2A (c : Dev nD) : Mat 512 256 := fun k j => (m ((c : Thread nD τ).loc main_arg8)) (ix2 k j)
/-- The second bias, scale and shift. -/
abbrev b2A (c : Dev nD) : Fin 256 → EReal := fun j => (m ((c : Thread nD τ).loc main_arg9)) (ix1 j)
abbrev g2A (c : Dev nD) : Fin 256 → EReal := fun j => (m ((c : Thread nD τ).loc main_arg10)) (ix1 j)
abbrev be2A (c : Dev nD) : Fin 256 → EReal := fun j => (m ((c : Thread nD τ).loc main_arg11)) (ix1 j)
/-- The column each row's sum is added to. -/
abbrev exA (c : Dev nD) : Fin 65536 → EReal := fun r =>
  Cert.ReferenceIdeal.Read.val_main_v110 (F := Ideal) (m ((c : Thread nD τ).loc main_arg0))
    (m ((c : Thread nD τ).loc main_arg1)) (m ((c : Thread nD τ).loc main_arg2))
    (m ((c : Thread nD τ).loc main_arg3)) (m ((c : Thread nD τ).loc main_arg12)) (ix1 r)

/-- The first affine layer. -/
abbrev L1 (c : Dev nD) : Mat 65536 512 := lin (xA m c) (w1A m c) (b1A m c)
/-- The second affine layer, of the first one normalised with its tiled statistics. -/
abbrev L2 (c : Dev nD) : Mat 65536 256 := lin (bnT (L1 m c) (g1A m c) (be1A m c)) (w2A m c) (b2A m c)

/-! ## Region 0: the first layer and its tiled sums -/

/-- Region 0's operands are the first layer's. -/
theorem lin0_eq (c : Dev nD) :
    lin (Val0.X0 (V2 m ρ) c) (Val0.Wt0 (V2 m ρ) c) (Val0.B0 (V2 m ρ) c) = L1 m c := by
  have hx : Val0.X0 (V2 m ρ) c = xA m c := funext fun r => funext fun k => HostA.p_fm2 m ρ c r k
  have hw : Val0.Wt0 (V2 m ρ) c = w1A m c := funext fun k => funext fun j => HostA.p_w1 m ρ c k j
  have hb : Val0.B0 (V2 m ρ) c = b1A m c := funext fun j => HostA.p_b1 m ρ c j
  rw [hx, hw, hb]

/-- Region 0 leaves the first layer in its tile output. -/
theorem W3_y (c : Dev nD) (r : Fin 65536) (j : Fin 512) :
    W3 m ρ c (Proc.devRef .tc main_v64_0) (ix2 r j) = L1 m c r j :=
  (congrFun (W3_arr m ρ c 3) (ix2 r j)).trans
    ((Val0.arr0_3 (V2 m ρ) c r j).trans (congrFun (congrFun (lin0_eq m ρ c) r) j))

/-- … the tiled column sums in its second output … -/
theorem W3_sum (c : Dev nD) (j : Fin 512) :
    W3 m ρ c (Proc.devRef .tc main_v64_1) (ix2 0 j) = tsum (L1 m c) j :=
  (congrFun (W3_arr m ρ c 4) (ix2 0 j)).trans
    ((Val0.arr0_4 (V2 m ρ) c j).trans (by rw [lin0_eq]))

/-- … and the tiled column sums of the squares in its third. -/
theorem W3_sq (c : Dev nD) (j : Fin 512) :
    W3 m ρ c (Proc.devRef .tc main_v64_2) (ix2 0 j) = tsum (fun r j => L1 m c r j * L1 m c r j) j :=
  (congrFun (W3_arr m ρ c 5) (ix2 0 j)).trans
    ((Val0.arr0_5 (V2 m ρ) c j).trans (by rw [lin0_eq]))

/-! ## Region 1's operands -/

theorem Y1_eq (c : Dev nD) : Val1.Y1 (V4 m ρ) c = L1 m c :=
  funext fun r => funext fun j =>
    (congrFun (HostB.s1_keep m ρ c main_v64_0 (by decide)) (ix2 r j)).trans (W3_y m ρ c r j)

theorem Mean1_eq (c : Dev nD) : Val1.Mean1 (V4 m ρ) c = meanT (L1 m c) :=
  funext fun j => (HostB.s1_mean m ρ c j).trans (by rw [W3_sum]; rfl)

theorem Rstd1_eq (c : Dev nD) : Val1.Rstd1 (V4 m ρ) c = rstdT (L1 m c) := by
  funext j
  have hm : W4 m ρ c (Proc.devRef .tc main_v66) (ix2 0 j) = meanT (L1 m c) j := congrFun (Mean1_eq m ρ c) j
  refine (HostB.s1_rstd m ρ c j).trans ?_
  show Ideal.rsqrt (Ideal.div (W3 m ρ c (Proc.devRef .tc main_v64_2) (ix2 0 j)) cB
      - @HMul.hMul EReal EReal EReal instHMul (W4 m ρ c (Proc.devRef .tc main_v66) (ix2 0 j))
          (W4 m ρ c (Proc.devRef .tc main_v66) (ix2 0 j)) + cEps) = _
  rw [hm, W3_sq]; rfl

/-- A buffer the first stretch prepared, that neither region 0 nor the stretch after it writes, is at region 1's
    entry what it was at region 0's. -/
theorem keep4 (c : Dev nD) (b : Ref sig .tc) (h0 : ∀ w, Pipeline.arrRef spec0 w ≠ b) (h1 : b ∉ HostB.ops1_W) :
    W4 m ρ c (Proc.devRef .tc b) = W2 m ρ c (Proc.devRef .tc b) :=
  (HostB.s1_keep m ρ c b h1).trans (W3_of_ne m ρ c b h0)

theorem G1_eq (c : Dev nD) : Val1.G1 (V4 m ρ) c = g1A m c :=
  funext fun j => (congrFun (keep4 m ρ c main_v60 (by decide) (by decide)) (ix2 0 j)).trans (HostA.p_g1 m ρ c j)
theorem Be1_eq (c : Dev nD) : Val1.Be1 (V4 m ρ) c = be1A m c :=
  funext fun j => (congrFun (keep4 m ρ c main_v61 (by decide) (by decide)) (ix2 0 j)).trans (HostA.p_be1 m ρ c j)
theorem Wt1_eq (c : Dev nD) : Val1.Wt1 (V4 m ρ) c = w2A m c :=
  funext fun k => funext fun j =>
    (congrFun (keep4 m ρ c main_v57 (by decide) (by decide)) (ix2 k j)).trans (HostA.p_w2 m ρ c k j)
theorem B1_eq (c : Dev nD) : Val1.B1 (V4 m ρ) c = b2A m c :=
  funext fun j => (congrFun (keep4 m ρ c main_v59 (by decide) (by decide)) (ix2 0 j)).trans (HostA.p_b2 m ρ c j)

/-- Region 1 computes the second layer. -/
theorem Z1_eq (c : Dev nD) : Val1.Z1 (V4 m ρ) c = L2 m c := by
  show lin (bn (Val1.Y1 (V4 m ρ) c) (Val1.Mean1 (V4 m ρ) c) (Val1.Rstd1 (V4 m ρ) c) (Val1.G1 (V4 m ρ) c)
    (Val1.Be1 (V4 m ρ) c)) (Val1.Wt1 (V4 m ρ) c) (Val1.B1 (V4 m ρ) c) = _
  rw [Y1_eq, Mean1_eq, Rstd1_eq, G1_eq, Be1_eq, Wt1_eq, B1_eq]
  rfl

/-! ## Region 1: the second layer and its tiled sums -/

theorem W5_y (c : Dev nD) (r : Fin 65536) (j : Fin 256) :
    W5 m ρ c (Proc.devRef .tc main_v74_0) (ix2 r j) = L2 m c r j :=
  (congrFun (W5_arr m ρ c 7) (ix2 r j)).trans
    ((Val1.arr1_7 (V4 m ρ) c r j).trans (congrFun (congrFun (Z1_eq m ρ c) r) j))

theorem W5_sum (c : Dev nD) (j : Fin 256) :
    W5 m ρ c (Proc.devRef .tc main_v74_1) (ix2 0 j) = tsum (L2 m c) j :=
  (congrFun (W5_arr m ρ c 8) (ix2 0 j)).trans
    ((Val1.arr1_8 (V4 m ρ) c j).trans (by rw [Z1_eq]))

theorem W5_sq (c : Dev nD) (j : Fin 256) :
    W5 m ρ c (Proc.devRef .tc main_v74_2) (ix2 0 j) = tsum (fun r j => L2 m c r j * L2 m c r j) j :=
  (congrFun (W5_arr m ρ c 9) (ix2 0 j)).trans
    ((Val1.arr1_9 (V4 m ρ) c j).trans (by rw [Z1_eq]))

/-! ## Region 2's operands -/

theorem Y2_eq (c : Dev nD) : Val2.Y2 (V6 m ρ) c = L2 m c :=
  funext fun r => funext fun j =>
    (congrFun (HostB.s2_keep m ρ c main_v74_0 (by decide)) (ix2 r j)).trans (W5_y m ρ c r j)

theorem Mean2_eq (c : Dev nD) : Val2.Mean2 (V6 m ρ) c = meanT (L2 m c) :=
  funext fun j => (HostB.s2_mean m ρ c j).trans (by rw [W5_sum]; rfl)

theorem Rstd2_eq (c : Dev nD) : Val2.Rstd2 (V6 m ρ) c = rstdT (L2 m c) := by
  funext j
  have hm : W6 m ρ c (Proc.devRef .tc main_v76) (ix2 0 j) = meanT (L2 m c) j := congrFun (Mean2_eq m ρ c) j
  refine (HostB.s2_rstd m ρ c j).trans ?_
  show Ideal.rsqrt (Ideal.div (W5 m ρ c (Proc.devRef .tc main_v74_2) (ix2 0 j)) cB
      - @HMul.hMul EReal EReal EReal instHMul (W6 m ρ c (Proc.devRef .tc main_v76) (ix2 0 j))
          (W6 m ρ c (Proc.devRef .tc main_v76) (ix2 0 j)) + cEps) = _
  rw [hm, W5_sq]; rfl

/-- A buffer the first stretch prepared, that no region and no stretch before region 2 writes, is at region 2's
    entry what it was at region 0's. -/
theorem keep6 (c : Dev nD) (b : Ref sig .tc) (h0 : ∀ w, Pipeline.arrRef spec0 w ≠ b) (h1 : b ∉ HostB.ops1_W)
    (h2 : ∀ w, Pipeline.arrRef spec1 w ≠ b) (h3 : b ∉ HostB.ops2_W) :
    W6 m ρ c (Proc.devRef .tc b) = W2 m ρ c (Proc.devRef .tc b) :=
  (HostB.s2_keep m ρ c b h3).trans ((W5_of_ne m ρ c b h2).trans (keep4 m ρ c b h0 h1))

theorem G2_eq (c : Dev nD) : Val2.G2 (V6 m ρ) c = g2A m c :=
  funext fun j =>
    (congrFun (keep6 m ρ c main_v62 (by decide) (by decide) (by decide) (by decide)) (ix2 0 j)).trans (HostA.p_g2 m ρ c j)
theorem Be2_eq (c : Dev nD) : Val2.Be2 (V6 m ρ) c = be2A m c :=
  funext fun j =>
    (congrFun (keep6 m ρ c main_v63 (by decide) (by decide) (by decide) (by decide)) (ix2 0 j)).trans (HostA.p_be2 m ρ c j)
theorem Ex2_eq (c : Dev nD) : Val2.Ex2 (V6 m ρ) c = exA m c :=
  funext fun r =>
    (congrFun (keep6 m ρ c main_v53 (by decide) (by decide) (by decide) (by decide)) (ix2 r 0)).trans (HostA.p_extra m ρ c r)

/-! ## The result -/

/-- The buffer the program returns, at row `r`, is the tiled side's value of that row. -/
theorem kernel_value (c : Dev nD) (r : Fin 65536) :
    W8 m ρ c (Proc.devRef .tc main_v85) (ix1 r)
      = outT (fun r k => Cert.ReferenceIdeal.Read.val_main_v47 (F := Ideal) (m ((c : Thread nD τ).loc main_arg0))
            (m ((c : Thread nD τ).loc main_arg1)) (m ((c : Thread nD τ).loc main_arg3)) (ix2 r k))
          (fun k j => (m ((c : Thread nD τ).loc main_arg4)) (ix2 k j))
          (fun j => (m ((c : Thread nD τ).loc main_arg5)) (ix1 j))
          (fun j => (m ((c : Thread nD τ).loc main_arg6)) (ix1 j))
          (fun j => (m ((c : Thread nD τ).loc main_arg7)) (ix1 j))
          (fun k j => (m ((c : Thread nD τ).loc main_arg8)) (ix2 k j))
          (fun j => (m ((c : Thread nD τ).loc main_arg9)) (ix1 j))
          (fun j => (m ((c : Thread nD τ).loc main_arg10)) (ix1 j))
          (fun j => (m ((c : Thread nD τ).loc main_arg11)) (ix1 j))
          (fun r => Cert.ReferenceIdeal.Read.val_main_v110 (F := Ideal) (m ((c : Thread nD τ).loc main_arg0))
            (m ((c : Thread nD τ).loc main_arg1)) (m ((c : Thread nD τ).loc main_arg2))
            (m ((c : Thread nD τ).loc main_arg3)) (m ((c : Thread nD τ).loc main_arg12)) (ix1 r)) r := by
  refine (HostB.t_out m ρ c r).trans ?_
  refine (congrFun (W7_arr m ρ c 6) (ix2 r 0)).trans ?_
  refine (Val2.arr2_6 (V6 m ρ) c r).trans ?_
  rw [Y2_eq, Mean2_eq, Rstd2_eq, G2_eq, Be2_eq, Ex2_eq]
  rfl

end Cert.KernelIdeal.Hand.KVal

end
-- ==== Proof.RefValue.lean ====
import proofs.«101859_j90958817394882_1_alg».proof.Proof.Gen.ReferenceIdeal.Read
import proofs.«101859_j90958817394882_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.DeepFM

/-- A rank-2 buffer read as a matrix. -/
abbrev mat {a b : ℕ} (w : (⟨⟨2, ![a, b]⟩, .f32⟩ : BufTy).Contents (Elt Ideal)) : Mat a b := fun k j => w (ix2 k j)
/-- A rank-1 buffer read as a vector. -/
abbrev vec {n : ℕ} (v : (⟨⟨1, ![n]⟩, .f32⟩ : BufTy).Contents (Elt Ideal)) : Fin n → EReal := fun j => v (ix1 j)

variable (x0 : (⟨S65536x39x1, .i32⟩ : BufTy).Contents (Elt Ideal)) (x1 : (⟨S65536x39, .f32⟩ : BufTy).Contents (Elt Ideal))
  (x2 : (⟨S39x100000x1, .f32⟩ : BufTy).Contents (Elt Ideal)) (x3 : (⟨S39x100000x16, .f32⟩ : BufTy).Contents (Elt Ideal))
  (x4 : (⟨S624x512, .f32⟩ : BufTy).Contents (Elt Ideal)) (x5 x6 x7 : (⟨S512, .f32⟩ : BufTy).Contents (Elt Ideal))
  (x8 : (⟨S512x256, .f32⟩ : BufTy).Contents (Elt Ideal)) (x9 x10 x11 : (⟨S256, .f32⟩ : BufTy).Contents (Elt Ideal))
  (x12 : (⟨S1, .f32⟩ : BufTy).Contents (Elt Ideal))

/-- The first layer's input: the flattened second-order embeddings, one row per batch element. -/
abbrev X0 : Mat 65536 624 := fun r k => val_main_v47 (F := Ideal) x0 x1 x3 (ix2 r k)
/-- The first affine layer. -/
abbrev Y1 : Mat 65536 512 := lin (X0 x0 x1 x3) (mat x4) (vec x5)
/-- The first layer after its whole-batch normalisation. -/
abbrev A1 : Mat 65536 512 := bnW (Y1 x0 x1 x3 x4 x5) (vec x6) (vec x7)
/-- The second affine layer. -/
abbrev Y2 : Mat 65536 256 := lin (A1 x0 x1 x3 x4 x5 x6 x7) (mat x8) (vec x9)
/-- The second layer after its whole-batch normalisation. -/
abbrev A2 : Mat 65536 256 := bnW (Y2 x0 x1 x3 x4 x5 x6 x7 x8 x9) (vec x10) (vec x11)

/-! ### The first layer -/

/-- The broadcast bias reads the bias at the column. -/
theorem v50_eq (r : Fin 65536) (j : Fin 512) : val_main_v50 (F := Ideal) x5 (ix2 r j) = x5 (ix1 j) := by
  rw [val_main_v50_apply, val_main_v49_apply]
  exact congrArg x5 (funext fun a => by match a with | ⟨0, _⟩ => rfl)

/-- The affine layer, entry by entry. -/
theorem v51_eq (r : Fin 65536) (j : Fin 512) :
    val_main_v51 (F := Ideal) x0 x1 x3 x4 x5 (ix2 r j) = Y1 x0 x1 x3 x4 x5 r j := by
  rw [val_main_v51_apply, val_main_v48_apply, v50_eq]
  refine congrArg (· + x5 (ix1 j)) (Finset.sum_congr rfl fun k _ => ?_)
  have el : lidx_main_v48 (ix2 r j) k = ix2 r k := funext fun a => by match a with | ⟨0, _⟩ => rfl | ⟨1, _⟩ => rfl
  have er : ridx_main_v48 (ix2 r j) k = ix2 k j := funext fun a => by match a with | ⟨0, _⟩ => rfl | ⟨1, _⟩ => rfl
  rw [el, er]

/-- The column sum over the whole batch. -/
theorem v52_eq (j : Fin 512) :
    val_main_v52 (F := Ideal) x0 x1 x3 x4 x5 (ix1 j) = 0 + ∑ r : Fin 65536, Y1 x0 x1 x3 x4 x5 r j := by
  rw [val_main_v52_apply, val_main_cst_10_apply, Ideal.ofBits_def, Ideal.ofBits_zero_f32]
  refine congrArg (0 + ·) (Finset.sum_congr rfl fun k _ => ?_)
  have e : idx_main_v52 (ix1 j) k = ix2 k j := funext fun a => by match a with | ⟨0, _⟩ => rfl | ⟨1, _⟩ => rfl
  rw [e, v51_eq]

/-- The column mean. -/
theorem v54_eq (j : Fin 512) :
    val_main_v54 (F := Ideal) x0 x1 x3 x4 x5 (ix1 j) = meanW (Y1 x0 x1 x3 x4 x5) j := by
  rw [val_main_v54_apply, val_main_v53_apply, val_main_cst_11_apply, v52_eq]
  rfl

/-- The broadcast mean (first copy) reads the mean at the column. -/
theorem v56_eq (r : Fin 65536) (j : Fin 512) :
    val_main_v56 (F := Ideal) x0 x1 x3 x4 x5 (ix2 r j) = meanW (Y1 x0 x1 x3 x4 x5) j := by
  rw [val_main_v56_apply, val_main_v55_apply, ← v54_eq]
  exact congrArg (val_main_v54 (F := Ideal) x0 x1 x3 x4 x5) (funext fun a => by match a with | ⟨0, _⟩ => rfl)

/-- The broadcast mean (second copy) reads the mean at the column. -/
theorem v63_eq (r : Fin 65536) (j : Fin 512) :
    val_main_v63 (F := Ideal) x0 x1 x3 x4 x5 (ix2 r j) = meanW (Y1 x0 x1 x3 x4 x5) j := by
  rw [val_main_v63_apply, val_main_v62_apply, ← v54_eq]
  exact congrArg (val_main_v54 (F := Ideal) x0 x1 x3 x4 x5) (funext fun a => by match a with | ⟨0, _⟩ => rfl)

/-- The squared deviation from the mean. -/
theorem v58_eq (r : Fin 65536) (j : Fin 512) :
    val_main_v58 (F := Ideal) x0 x1 x3 x4 x5 (ix2 r j)
      = (Y1 x0 x1 x3 x4 x5 r j - meanW (Y1 x0 x1 x3 x4 x5) j) * (Y1 x0 x1 x3 x4 x5 r j - meanW (Y1 x0 x1 x3 x4 x5) j) := by
  rw [val_main_v58_apply, val_main_v57_apply, v51_eq, v56_eq]
  rfl

/-- The column variance: the mean of the squared deviations. -/
theorem v61_eq (j : Fin 512) :
    val_main_v61 (F := Ideal) x0 x1 x3 x4 x5 (ix1 j) = varW (Y1 x0 x1 x3 x4 x5) j := by
  rw [val_main_v61_apply, val_main_v60_apply, val_main_cst_13_apply, val_main_v59_apply, val_main_cst_12_apply,
    Ideal.ofBits_def, Ideal.ofBits_zero_f32]
  have e : ∀ k : Fin 65536, idx_main_v59 (ix1 j) k = ix2 k j :=
    fun k => funext fun a => by match a with | ⟨0, _⟩ => rfl | ⟨1, _⟩ => rfl
  simp only [e, v58_eq]
  rfl

/-- The reciprocal deviation. -/
theorem v67_eq (j : Fin 512) :
    val_main_v67 (F := Ideal) x0 x1 x3 x4 x5 (ix1 j) = rstdW (Y1 x0 x1 x3 x4 x5) j := by
  rw [val_main_v67_apply, val_main_v66_apply, val_main_v65_apply, val_main_cst_14_apply, v61_eq]
  rfl

/-- The broadcast reciprocal deviation reads it at the column. -/
theorem v69_eq (r : Fin 65536) (j : Fin 512) :
    val_main_v69 (F := Ideal) x0 x1 x3 x4 x5 (ix2 r j) = rstdW (Y1 x0 x1 x3 x4 x5) j := by
  rw [val_main_v69_apply, val_main_v68_apply, ← v67_eq]
  exact congrArg (val_main_v67 (F := Ideal) x0 x1 x3 x4 x5) (funext fun a => by match a with | ⟨0, _⟩ => rfl)

/-- The broadcast scale reads the scale at the column. -/
theorem v72_eq (r : Fin 65536) (j : Fin 512) : val_main_v72 (F := Ideal) x6 (ix2 r j) = x6 (ix1 j) := by
  rw [val_main_v72_apply, val_main_v71_apply]
  exact congrArg x6 (funext fun a => by match a with | ⟨0, _⟩ => rfl)

/-- The broadcast shift reads the shift at the column. -/
theorem v75_eq (r : Fin 65536) (j : Fin 512) : val_main_v75 (F := Ideal) x7 (ix2 r j) = x7 (ix1 j) := by
  rw [val_main_v75_apply, val_main_v74_apply]
  exact congrArg x7 (funext fun a => by match a with | ⟨0, _⟩ => rfl)

/-- The normalised first layer, entry by entry. -/
theorem v76_eq (r : Fin 65536) (j : Fin 512) :
    val_main_v76 (F := Ideal) x0 x1 x3 x4 x5 x6 x7 (ix2 r j) = A1 x0 x1 x3 x4 x5 x6 x7 r j := by
  rw [val_main_v76_apply, val_main_v73_apply, val_main_v70_apply, val_main_v64_apply, v51_eq, v63_eq, v69_eq,
    v72_eq, v75_eq]
  rfl

/-! ### The second layer -/

/-- The broadcast bias reads the bias at the column. -/
theorem v79_eq (r : Fin 65536) (j : Fin 256) : val_main_v79 (F := Ideal) x9 (ix2 r j) = x9 (ix1 j) := by
  rw [val_main_v79_apply, val_main_v78_apply]
  exact congrArg x9 (funext fun a => by match a with | ⟨0, _⟩ => rfl)

/-- The affine layer, entry by entry. -/
theorem v80_eq (r : Fin 65536) (j : Fin 256) :
    val_main_v80 (F := Ideal) x0 x1 x3 x4 x5 x6 x7 x8 x9 (ix2 r j) = Y2 x0 x1 x3 x4 x5 x6 x7 x8 x9 r j := by
  rw [val_main_v80_apply, val_main_v77_apply, v79_eq]
  refine congrArg (· + x9 (ix1 j)) (Finset.sum_congr rfl fun k _ => ?_)
  have el : lidx_main_v77 (ix2 r j) k = ix2 r k := funext fun a => by match a with | ⟨0, _⟩ => rfl | ⟨1, _⟩ => rfl
  have er : ridx_main_v77 (ix2 r j) k = ix2 k j := funext fun a => by match a with | ⟨0, _⟩ => rfl | ⟨1, _⟩ => rfl
  rw [el, er, v76_eq]

/-- The column sum over the whole batch. -/
theorem v81_eq (j : Fin 256) :
    val_main_v81 (F := Ideal) x0 x1 x3 x4 x5 x6 x7 x8 x9 (ix1 j)
      = 0 + ∑ r : Fin 65536, Y2 x0 x1 x3 x4 x5 x6 x7 x8 x9 r j := by
  rw [val_main_v81_apply, val_main_cst_15_apply, Ideal.ofBits_def, Ideal.ofBits_zero_f32]
  refine congrArg (0 + ·) (Finset.sum_congr rfl fun k _ => ?_)
  have e : idx_main_v81 (ix1 j) k = ix2 k j := funext fun a => by match a with | ⟨0, _⟩ => rfl | ⟨1, _⟩ => rfl
  rw [e, v80_eq]

/-- The column mean. -/
theorem v83_eq (j : Fin 256) :
    val_main_v83 (F := Ideal) x0 x1 x3 x4 x5 x6 x7 x8 x9 (ix1 j) = meanW (Y2 x0 x1 x3 x4 x5 x6 x7 x8 x9) j := by
  rw [val_main_v83_apply, val_main_v82_apply, val_main_cst_16_apply, v81_eq]
  rfl

/-- The broadcast mean (first copy) reads the mean at the column. -/
theorem v85_eq (r : Fin 65536) (j : Fin 256) :
    val_main_v85 (F := Ideal) x0 x1 x3 x4 x5 x6 x7 x8 x9 (ix2 r j) = meanW (Y2 x0 x1 x3 x4 x5 x6 x7 x8 x9) j := by
  rw [val_main_v85_apply, val_main_v84_apply, ← v83_eq]
  exact congrArg (val_main_v83 (F := Ideal) x0 x1 x3 x4 x5 x6 x7 x8 x9) (funext fun a => by match a with | ⟨0, _⟩ => rfl)

/-- The broadcast mean (second copy) reads the mean at the column. -/
theorem v92_eq (r : Fin 65536) (j : Fin 256) :
    val_main_v92 (F := Ideal) x0 x1 x3 x4 x5 x6 x7 x8 x9 (ix2 r j) = meanW (Y2 x0 x1 x3 x4 x5 x6 x7 x8 x9) j := by
  rw [val_main_v92_apply, val_main_v91_apply, ← v83_eq]
  exact congrArg (val_main_v83 (F := Ideal) x0 x1 x3 x4 x5 x6 x7 x8 x9) (funext fun a => by match a with | ⟨0, _⟩ => rfl)

/-- The squared deviation from the mean. -/
theorem v87_eq (r : Fin 65536) (j : Fin 256) :
    val_main_v87 (F := Ideal) x0 x1 x3 x4 x5 x6 x7 x8 x9 (ix2 r j)
      = (Y2 x0 x1 x3 x4 x5 x6 x7 x8 x9 r j - meanW (Y2 x0 x1 x3 x4 x5 x6 x7 x8 x9) j)
        * (Y2 x0 x1 x3 x4 x5 x6 x7 x8 x9 r j - meanW (Y2 x0 x1 x3 x4 x5 x6 x7 x8 x9) j) := by
  rw [val_main_v87_apply, val_main_v86_apply, v80_eq, v85_eq]
  rfl

/-- The column variance: the mean of the squared deviations. -/
theorem v90_eq (j : Fin 256) :
    val_main_v90 (F := Ideal) x0 x1 x3 x4 x5 x6 x7 x8 x9 (ix1 j) = varW (Y2 x0 x1 x3 x4 x5 x6 x7 x8 x9) j := by
  rw [val_main_v90_apply, val_main_v89_apply, val_main_cst_18_apply, val_main_v88_apply, val_main_cst_17_apply,
    Ideal.ofBits_def, Ideal.ofBits_zero_f32]
  have e : ∀ k : Fin 65536, idx_main_v88 (ix1 j) k = ix2 k j :=
    fun k => funext fun a => by match a with | ⟨0, _⟩ => rfl | ⟨1, _⟩ => rfl
  simp only [e, v87_eq]
  rfl

/-- The reciprocal deviation. -/
theorem v96_eq (j : Fin 256) :
    val_main_v96 (F := Ideal) x0 x1 x3 x4 x5 x6 x7 x8 x9 (ix1 j) = rstdW (Y2 x0 x1 x3 x4 x5 x6 x7 x8 x9) j := by
  rw [val_main_v96_apply, val_main_v95_apply, val_main_v94_apply, val_main_cst_19_apply, v90_eq]
  rfl

/-- The broadcast reciprocal deviation reads it at the column. -/
theorem v98_eq (r : Fin 65536) (j : Fin 256) :
    val_main_v98 (F := Ideal) x0 x1 x3 x4 x5 x6 x7 x8 x9 (ix2 r j) = rstdW (Y2 x0 x1 x3 x4 x5 x6 x7 x8 x9) j := by
  rw [val_main_v98_apply, val_main_v97_apply, ← v96_eq]
  exact congrArg (val_main_v96 (F := Ideal) x0 x1 x3 x4 x5 x6 x7 x8 x9) (funext fun a => by match a with | ⟨0, _⟩ => rfl)

/-- The broadcast scale reads the scale at the column. -/
theorem v101_eq (r : Fin 65536) (j : Fin 256) : val_main_v101 (F := Ideal) x10 (ix2 r j) = x10 (ix1 j) := by
  rw [val_main_v101_apply, val_main_v100_apply]
  exact congrArg x10 (funext fun a => by match a with | ⟨0, _⟩ => rfl)

/-- The broadcast shift reads the shift at the column. -/
theorem v104_eq (r : Fin 65536) (j : Fin 256) : val_main_v104 (F := Ideal) x11 (ix2 r j) = x11 (ix1 j) := by
  rw [val_main_v104_apply, val_main_v103_apply]
  exact congrArg x11 (funext fun a => by match a with | ⟨0, _⟩ => rfl)

/-- The normalised second layer, entry by entry. -/
theorem v105_eq (r : Fin 65536) (j : Fin 256) :
    val_main_v105 (F := Ideal) x0 x1 x3 x4 x5 x6 x7 x8 x9 x10 x11 (ix2 r j)
      = A2 x0 x1 x3 x4 x5 x6 x7 x8 x9 x10 x11 r j := by
  rw [val_main_v105_apply, val_main_v102_apply, val_main_v99_apply, val_main_v93_apply, v80_eq, v92_eq, v98_eq,
    v101_eq, v104_eq]
  rfl

/-! ### The result -/

/-- The row sum of the normalised second layer. -/
theorem v111_eq (r : Fin 65536) :
    val_main_v111 (F := Ideal) x0 x1 x3 x4 x5 x6 x7 x8 x9 x10 x11 (ix1 r)
      = 0 + ∑ j : Fin 256, A2 x0 x1 x3 x4 x5 x6 x7 x8 x9 x10 x11 r j := by
  rw [val_main_v111_apply, val_main_cst_22_apply, Ideal.ofBits_def, Ideal.ofBits_zero_f32]
  refine congrArg (0 + ·) (Finset.sum_congr rfl fun k _ => ?_)
  have e : idx_main_v111 (ix1 r) k = ix2 r k := funext fun a => by match a with | ⟨0, _⟩ => rfl | ⟨1, _⟩ => rfl
  rw [e, v105_eq]

/-- The reference program's result, row by row: the opaque first- and second-order part plus the row sum of the
    twice affinely mapped and whole-batch-normalised embeddings. -/
theorem result_eq (r : Fin 65536) :
    val_main_v112 (F := Ideal) x0 x1 x2 x3 x4 x5 x6 x7 x8 x9 x10 x11 x12 (ix1 r)
      = outW (fun r k => val_main_v47 (F := Ideal) x0 x1 x3 (ix2 r k)) (fun k j => x4 (ix2 k j)) (fun j => x5 (ix1 j))
          (fun j => x6 (ix1 j)) (fun j => x7 (ix1 j)) (fun k j => x8 (ix2 k j)) (fun j => x9 (ix1 j))
          (fun j => x10 (ix1 j)) (fun j => x11 (ix1 j)) (fun r => val_main_v110 (F := Ideal) x0 x1 x2 x3 x12 (ix1 r)) r := by
  rw [val_main_v112_apply, v111_eq]
  rfl

end Cert.ReferenceIdeal.RefValue

end
-- ==== Proof.RefFin.lean ====
import proofs.«101859_j90958817394882_1_alg».proof.Proof.Gen.ReferenceIdeal.Read
import proofs.«101859_j90958817394882_1_alg».proof.Proof.Spec
import Idealize.ShloMosaic.Lib.ValueIdx
import Idealize.ShloMosaic.PureOps.Ideal.Laws

noncomputable section

namespace Cert.ReferenceIdeal.RefFin

open Cert.ReferenceIdeal Cert.ReferenceIdeal.Read Idealize.ShloMosaic Idealize.ShloMosaic.ValueIdx Cert.DeepFM

/-- Every entry of a gather's result is an entry of its operand (at the clamped start index plus the
    offset), so a gather of a table of reals is a table of reals. -/
theorem v36_fin (x0 : (⟨S65536x39x1, .i32⟩ : BufTy).Contents (Elt Ideal))
    (x3 : (⟨S39x100000x16, .f32⟩ : BufTy).Contents (Elt Ideal)) (h3 : ∀ i, ∃ a : ℝ, x3 i = (a : EReal))
    (i : S65536x39x16.Idx) : ∃ b : ℝ, val_main_v36 (F := Ideal) x0 x3 i = (b : EReal) := by
  unfold val_main_v36 Host.gather
  exact h3 _

/-- The broadcast multiplier reads one entry of the dense feature values, a real. -/
theorem v38_fin (x1 : (⟨S65536x39, .f32⟩ : BufTy).Contents (Elt Ideal)) (h1 : ∀ i, ∃ a : ℝ, x1 i = (a : EReal))
    (i : S65536x39x16.Idx) : ∃ a : ℝ, val_main_v38 (F := Ideal) x1 i = (a : EReal) := by
  rw [val_main_v38_apply, val_main_v37_apply]
  exact h1 _

/-- The scaled embeddings are products of two reals, hence reals. -/
theorem v39_fin (x0 : (⟨S65536x39x1, .i32⟩ : BufTy).Contents (Elt Ideal)) (x1 : (⟨S65536x39, .f32⟩ : BufTy).Contents (Elt Ideal))
    (x3 : (⟨S39x100000x16, .f32⟩ : BufTy).Contents (Elt Ideal))
    (h1 : ∀ i, ∃ a : ℝ, x1 i = (a : EReal)) (h3 : ∀ i, ∃ a : ℝ, x3 i = (a : EReal))
    (i : S65536x39x16.Idx) : ∃ c : ℝ, val_main_v39 (F := Ideal) x0 x1 x3 i = (c : EReal) := by
  obtain ⟨b, hb⟩ := v36_fin x0 x3 h3 i
  obtain ⟨a, ha⟩ := v38_fin x1 h1 i
  refine ⟨b * a, ?_⟩
  rw [val_main_v39_apply, hb, ha, Ideal.mulf_def, EReal.coe_mul]

/-- The first layer's input, the flattened scaled embeddings, has only real entries. -/
theorem fm2_fin (x0 : (⟨S65536x39x1, .i32⟩ : BufTy).Contents (Elt Ideal)) (x1 : (⟨S65536x39, .f32⟩ : BufTy).Contents (Elt Ideal)) (x3 : (⟨S39x100000x16, .f32⟩ : BufTy).Contents (Elt Ideal))
    (h1 : ∀ i, ∃ a : ℝ, x1 i = (a : EReal)) (h3 : ∀ i, ∃ a : ℝ, x3 i = (a : EReal)) :
    Cert.DeepFM.FinM (fun r k => Cert.ReferenceIdeal.Read.val_main_v47 (F := Ideal) x0 x1 x3 (ix2 r k)) := by
  intro r k
  show ∃ c : ℝ, val_main_v47 (F := Ideal) x0 x1 x3 (ix2 r k) = (c : EReal)
  rw [val_main_v47_apply]
  exact v39_fin x0 x1 x3 h1 h3 _

end Cert.ReferenceIdeal.RefFin

end
-- ==== Proof.PreFin.lean ====
/-
  The precondition "every float input is finite", read back: the printed predicate ANDs, over the twelve
  float inputs x, the bit  all (|x| < +inf).  If the predicate is 1, every entry of every float input is a real number.
-/
import proofs.«101859_j90958817394882_1_alg».proof.Pre_finite_inputs
import Idealize.ShloMosaic.Lib.ReduceAll
import Idealize.ShloMosaic.Lib.ValueIdx

noncomputable section

namespace Cert.Pre_finite_inputs.Dec

open Cert.Pre_finite_inputs Idealize.ShloMosaic

/-- The rank-0 shape has exactly one index. -/
instance subsingleton_S_ : Subsingleton S_.Idx := ⟨fun a b => funext fun d => d.elim0⟩

/-- The bit pattern 0x7F800000 denotes +inf. -/
theorem inf_bits : Ideal.ofBits .f32 0x7F800000#32 = (⊤ : EReal) := by
  simp [Ideal.ofBits, Ideal.ieee]

/-- An extended real whose absolute value max x (-x) lies below +inf is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One tested value: the comparison |x| < +inf came out 1, so x is a real number. -/
theorem real_of_cmp (x : EReal)
    (h : Ideal.cmp .olt (max x (-x)) (Ideal.ofBits .f32 0x7F800000#32) = 1#1) : ∃ r : ℝ, x = (r : EReal) := by
  rw [inf_bits] at h
  apply real_of_abs_lt_top
  by_contra hn
  simp [Ideal.cmp, hn] at h

/-- One tested array: the reduction by "and" of the bits |x i| < +inf came out 1, so every entry is a real number. -/
theorem one_array {S : Shape} {axes : List (Fin S.rank)}
    (hb : S_.BroadcastsInDim S (![] : Fin 0 → Fin S.rank)) (hr : S.ReducesTo axes S_) (hu : 0 < S_.numel)
    (x : FVec Ideal S .f32) (j : S_.Idx)
    (e : Host.reduce IntOp.andi
          (cmpf .olt (Host.absf x) (broadcastInDim S ![] hb (constant (F := Ideal) S_ .f32 0x7F800000#32)))
          (constantI S_ 1 1#1) hr hu j = 1#1) :
    ∀ i, ∃ r : ℝ, x i = (r : EReal) := by
  intro i
  have hi := Host.reduce_andi_all _ _ hr hu j e i
  exact real_of_cmp (x i) hi

/-- The precondition decoded: when the printed predicate is 1, every entry of each of the twelve float inputs
    is a real number (neither infinity, nor the junk value that stands for a NaN). -/
theorem finite_of_fn [Cert.Pre_finite_inputs.Facts] (a0 : IVec S65536x39x1 32) (a1 : FVec Ideal S65536x39 .f32)
    (a2 : FVec Ideal S39x100000x1 .f32) (a3 : FVec Ideal S39x100000x16 .f32) (a4 : FVec Ideal S624x512 .f32)
    (a5 a6 a7 : FVec Ideal S512 .f32) (a8 : FVec Ideal S512x256 .f32) (a9 a10 a11 : FVec Ideal S256 .f32)
    (a12 : FVec Ideal S1 .f32)
    (h : Cert.Pre_finite_inputs.fn (F := Ideal) a0 a1 a2 a3 a4 a5 a6 a7 a8 a9 a10 a11 a12 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) ∧ (∀ i, ∃ r : ℝ, a12 i = (r : EReal)) := by
  have h0 := congrFun h ValueIdx.ix0
  dsimp only [fn, fn_part1, fn_part2, fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨one_array _ _ _ a1 _ h1, one_array _ _ _ a2 _ h2, one_array _ _ _ a3 _ h3,
    one_array _ _ _ a4 _ h4, one_array _ _ _ a5 _ h5, one_array _ _ _ a6 _ h6,
    one_array _ _ _ a7 _ h7, one_array _ _ _ a8 _ h8, one_array _ _ _ a9 _ h9,
    one_array _ _ _ a10 _ h10, one_array _ _ _ a11 _ h11, one_array _ _ _ a12 _ h12⟩

end Cert.Pre_finite_inputs.Dec

end
-- ==== Proof.Algebra.lean ====
/-
  The two ways of taking the batch statistics agree on finite data.

  * Adding the rows up tile by tile from a zero start gives the plain column sum, because
    addition of extended reals is commutative and associative and the 32 tiles of 2048
    consecutive rows cover each of the 65536 rows exactly once.
  * Over the reals, with  μ = (1/B) Σ y,  one has  (1/B) Σ (y − μ)² = (1/B) Σ y² − μ².
  * The variance is a mean of squares, hence non-negative, and the epsilon is positive, so the
    reciprocal square root is a finite real; a normalised finite matrix is again finite, and
    so is an affine image of a finite matrix.  Hence the identity applies to the second layer
    as well as to the first.
-/
import proofs.«101859_j90958817394882_1_alg».proof.Proof.Spec

noncomputable section

namespace Cert.DeepFM

open Idealize.ShloMosaic

namespace Alg

/-! ### The two float constants -/

/-- The batch size constant is the real number 65536. -/
theorem cB_eq : cB = ((65536 : ℝ) : EReal) := by
  unfold cB
  simp [Ideal.ofBits, Ideal.ieee, -EReal.coe_mul]; norm_num

/-- The epsilon constant is the real number 10995116 / 2^40. -/
theorem cEps_eq : cEps = ((10995116 / 2 ^ 40 : ℝ) : EReal) := by
  unfold cEps
  simp [Ideal.ofBits, Ideal.ieee, -EReal.coe_mul]; norm_num

/-- The epsilon constant is a positive real. -/
theorem cEps_pos : ∃ e : ℝ, 0 < e ∧ cEps = (e : EReal) :=
  ⟨10995116 / 2 ^ 40, by positivity, cEps_eq⟩

/-! ### Finite sums of reals inside the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite matrix is the coercion of a real matrix. -/
theorem exists_real {a b : ℕ} {m : Mat a b} (h : FinM m) :
    ∃ f : Fin a → Fin b → ℝ, m = fun i j => ((f i j : ℝ) : EReal) := by
  choose f hf using h
  exact ⟨f, funext fun i => funext fun j => hf i j⟩

/-! ### The tiled sum is the plain sum -/

/-- Tile `t`, row `r`  ↦  batch row `2048 t + r`  is a bijection onto the 65536 batch rows. -/
theorem row_bijective : Function.Bijective (fun p : Fin 32 × Fin 2048 => row p.1 p.2) := by
  constructor
  · rintro ⟨t, r⟩ ⟨t', r'⟩ h
    have h' : t.val * 2048 + r.val = t'.val * 2048 + r'.val := congrArg Fin.val h
    have ht := t.isLt; have hr := r.isLt; have ht' := t'.isLt; have hr' := r'.isLt
    have h1 : t.val = t'.val := by omega
    have h2 : r.val = r'.val := by omega
    exact Prod.ext (Fin.ext h1) (Fin.ext h2)
  · intro i
    have hi := i.isLt
    refine ⟨(⟨i.val / 2048, by omega⟩, ⟨i.val % 2048, by omega⟩), Fin.ext ?_⟩
    show i.val / 2048 * 2048 + i.val % 2048 = i.val
    omega

/-- The running sum after tiles `0 … n` is the sum of those tiles' sums. -/
theorem accSum_eq {N : ℕ} (y : Mat 65536 N) (j : Fin N) :
    ∀ (n : ℕ) (h : n < 32), accSum y j n h
      = ∑ t ∈ Finset.range (n + 1), (if ht : t < 32 then tileSum y ⟨t, ht⟩ j else 0)
  | 0, h => by
      rw [accSum, zero_add, Finset.sum_range_one, dif_pos h]
  | n + 1, h => by
      rw [accSum, accSum_eq y j n (Nat.lt_of_succ_lt h), Finset.sum_range_succ _ (n + 1), dif_pos h]

/-- Adding the 32 tiles up from a zero start gives the column sum over all 65536 rows. -/
theorem tsum_eq_sum {N : ℕ} (y : Mat 65536 N) (j : Fin N) :
    tsum y j = ∑ r : Fin 65536, y r j := by
  unfold tsum
  rw [accSum_eq y j 31 (by norm_num)]
  rw [← Fin.sum_univ_eq_sum_range (fun t => if ht : t < 32 then tileSum y ⟨t, ht⟩ j else 0) 32]
  have h1 : ∀ t : Fin 32, (if ht : t.val < 32 then tileSum y ⟨t.val, ht⟩ j else 0)
      = ∑ r : Fin 2048, y (row t r) j := by
    intro t
    rw [dif_pos t.isLt]
    rfl
  rw [Finset.sum_congr rfl (fun t _ => h1 t)]
  rw [← Fintype.sum_prod_type' (fun (t : Fin 32) (r : Fin 2048) => y (row t r) j)]
  exact Function.Bijective.sum_comp row_bijective (fun i => y i j)

/-! ### The variance identity over the reals -/

/-- With  μ = (1/B) Σ f  and  B  the number of terms:  (1/B) Σ (f − μ)² = (1/B) Σ f² − μ². -/
theorem var_identity {ι : Type} [Fintype ι] (f : ι → ℝ) (B : ℝ)
    (hcard : (Fintype.card ι : ℝ) = B) (hB : B ≠ 0) :
    (∑ i, (f i - (∑ i, f i) * (1 / B)) * (f i - (∑ i, f i) * (1 / B))) * (1 / B)
      = (∑ i, f i * f i) * (1 / B) - ((∑ i, f i) * (1 / B)) * ((∑ i, f i) * (1 / B)) := by
  set S : ℝ := ∑ i, f i with hS
  set μ : ℝ := S * (1 / B) with hμ
  have h1 : ∀ i, (f i - μ) * (f i - μ) = f i * f i - 2 * μ * f i + μ * μ := fun i => by ring
  rw [Finset.sum_congr rfl (fun i _ => h1 i), Finset.sum_add_distrib, Finset.sum_sub_distrib,
    ← Finset.mul_sum, Finset.sum_const, Finset.card_univ, nsmul_eq_mul, hcard, ← hS]
  rw [hμ]
  field_simp
  ring

/-! ### The statistics of a finite matrix, as reals -/

section stats

variable {N : ℕ} (yr : Fin 65536 → Fin N → ℝ)

/-- The real mean of column `j`. -/
def mu (j : Fin N) : ℝ := (∑ r, yr r j) * (1 / 65536)

/-- The real variance of column `j`, as a mean of squared deviations. -/
def va (j : Fin N) : ℝ := (∑ r, (yr r j - mu yr j) * (yr r j - mu yr j)) * (1 / 65536)

theorem va_nonneg (j : Fin N) : 0 ≤ va yr j :=
  mul_nonneg (Finset.sum_nonneg fun _ _ => mul_self_nonneg _) (by norm_num)

/-- The two means are the same expression once the tiled sum is the plain sum. -/
theorem meanT_eq_meanW (y : Mat 65536 N) : meanT y = meanW y := by
  funext j
  unfold meanT meanW
  rw [tsum_eq_sum, zero_add]

theorem meanW_coe (j : Fin N) :
    meanW (fun r j => ((yr r j : ℝ) : EReal)) j = ((mu yr j : ℝ) : EReal) := by
  show Ideal.div (0 + ∑ r : Fin 65536, ((yr r j : ℝ) : EReal)) cB = _
  rw [zero_add, cB_eq, Ideal.div_coe (by norm_num), ← coe_sum, ← EReal.coe_mul]
  rfl

theorem varW_coe (j : Fin N) :
    varW (fun r j => ((yr r j : ℝ) : EReal)) j = ((va yr j : ℝ) : EReal) := by
  unfold varW
  rw [meanW_coe]
  show Ideal.div (0 + ∑ r : Fin 65536,
      (((yr r j : ℝ) : EReal) - ((mu yr j : ℝ) : EReal)) * (((yr r j : ℝ) : EReal) - ((mu yr j : ℝ) : EReal))) cB = _
  have h : ∀ r : Fin 65536,
      (((yr r j : ℝ) : EReal) - ((mu yr j : ℝ) : EReal)) * (((yr r j : ℝ) : EReal) - ((mu yr j : ℝ) : EReal))
        = (((yr r j - mu yr j) * (yr r j - mu yr j) : ℝ) : EReal) := by
    intro r
    rw [EReal.coe_mul, EReal.coe_sub]
  rw [Finset.sum_congr rfl (fun r _ => h r), zero_add, cB_eq, Ideal.div_coe (by norm_num),
    ← coe_sum, ← EReal.coe_mul]
  rfl

theorem varT_coe (j : Fin N) :
    varT (fun r j => ((yr r j : ℝ) : EReal)) j = ((va yr j : ℝ) : EReal) := by
  unfold varT
  rw [meanT_eq_meanW, meanW_coe, tsum_eq_sum]
  show Ideal.div (∑ r : Fin 65536, ((yr r j : ℝ) : EReal) * ((yr r j : ℝ) : EReal)) cB
      - ((mu yr j : ℝ) : EReal) * ((mu yr j : ℝ) : EReal) = _
  have h : ∀ r : Fin 65536, ((yr r j : ℝ) : EReal) * ((yr r j : ℝ) : EReal)
      = ((yr r j * yr r j : ℝ) : EReal) := fun r => (EReal.coe_mul _ _).symm
  rw [Finset.sum_congr rfl (fun r _ => h r), cB_eq, Ideal.div_coe (by norm_num),
    ← coe_sum, ← EReal.coe_mul, ← EReal.coe_mul, ← EReal.coe_sub]
  congr 1
  unfold va mu
  exact (var_identity (fun r => yr r j) 65536 (by simp) (by norm_num)).symm

/-- The reciprocal square root of a positive real is a real. -/
theorem rsqrt_pos_coe {r : ℝ} (h : 0 < r) :
    Ideal.rsqrt (r : EReal) = (((Real.sqrt r)⁻¹ : ℝ) : EReal) := by
  rw [Ideal.rsqrt_coe, if_neg (not_lt.mpr h.le), if_neg h.ne']

theorem rstdW_fin (j : Fin N) :
    ∃ s : ℝ, rstdW (fun r j => ((yr r j : ℝ) : EReal)) j = (s : EReal) := by
  obtain ⟨e, he0, he⟩ := cEps_pos
  refine ⟨(Real.sqrt (va yr j + e))⁻¹, ?_⟩
  unfold rstdW
  rw [varW_coe, he, ← EReal.coe_add,
    rsqrt_pos_coe (add_pos_of_nonneg_of_pos (va_nonneg yr j) he0)]

end stats

/-! ### Finite data stays finite -/

theorem lin_fin {B K N : ℕ} {x : Mat B K} {w : Mat K N} {b : Fin N → EReal}
    (hx : FinM x) (hw : FinM w) (hb : FinV b) : FinM (lin x w b) := by
  obtain ⟨xr, rfl⟩ := exists_real hx
  obtain ⟨wr, rfl⟩ := exists_real hw
  intro r j
  obtain ⟨b', hb'⟩ := hb j
  refine ⟨(∑ k, xr r k * wr k j) + b', ?_⟩
  show (∑ k : Fin K, ((xr r k : ℝ) : EReal) * ((wr k j : ℝ) : EReal)) + b j = _
  rw [hb', EReal.coe_add, coe_sum]
  simp only [EReal.coe_mul]

theorem bn_fin {N : ℕ} {y : Mat 65536 N} {mean rstd g be : Fin N → EReal}
    (hy : FinM y) (hm : FinV mean) (hr : FinV rstd) (hg : FinV g) (hb : FinV be) :
    FinM (bn y mean rstd g be) := by
  intro r j
  obtain ⟨a, ha⟩ := hy r j
  obtain ⟨m, hm'⟩ := hm j
  obtain ⟨s, hs⟩ := hr j
  obtain ⟨c, hc⟩ := hg j
  obtain ⟨d, hd⟩ := hb j
  refine ⟨(a - m) * s * c + d, ?_⟩
  show (y r j - mean j) * rstd j * g j + be j = _
  rw [ha, hm', hs, hc, hd, EReal.coe_add, EReal.coe_mul, EReal.coe_mul, EReal.coe_sub]

/-- On a finite matrix the two normalisations are the same function. -/
theorem bnT_eq_bnW {N : ℕ} {y : Mat 65536 N} (hy : FinM y) (g be : Fin N → EReal) :
    bnT y g be = bnW y g be := by
  obtain ⟨yr, rfl⟩ := exists_real hy
  have hv : varT (fun r j => ((yr r j : ℝ) : EReal)) = varW (fun r j => ((yr r j : ℝ) : EReal)) := by
    funext j
    rw [varT_coe, varW_coe]
  have hr : rstdT (fun r j => ((yr r j : ℝ) : EReal)) = rstdW (fun r j => ((yr r j : ℝ) : EReal)) := by
    funext j
    unfold rstdT rstdW
    rw [hv]
  unfold bnT bnW
  rw [meanT_eq_meanW, hr]

/-- The whole-batch normalisation of a finite matrix with finite scale and shift is finite. -/
theorem bnW_fin {N : ℕ} {y : Mat 65536 N} (hy : FinM y) {g be : Fin N → EReal}
    (hg : FinV g) (hb : FinV be) : FinM (bnW y g be) := by
  obtain ⟨yr, rfl⟩ := exists_real hy
  unfold bnW
  refine bn_fin ?_ ?_ ?_ hg hb
  · exact fun i j => ⟨yr i j, rfl⟩
  · exact fun j => ⟨mu yr j, meanW_coe yr j⟩
  · exact fun j => rstdW_fin yr j

end Alg

/-- On finite inputs the tiled side and the whole-batch side compute the same result. -/
theorem outT_eq_outW (x : Mat 65536 624) (w1 : Mat 624 512) (b1 g1 be1 : Fin 512 → EReal)
    (w2 : Mat 512 256) (b2 g2 be2 : Fin 256 → EReal) (extra : Fin 65536 → EReal)
    (hx : FinM x) (hw1 : FinM w1) (hb1 : FinV b1) (hg1 : FinV g1) (hbe1 : FinV be1)
    (hw2 : FinM w2) (hb2 : FinV b2) (hg2 : FinV g2) (hbe2 : FinV be2) :
    outT x w1 b1 g1 be1 w2 b2 g2 be2 extra = outW x w1 b1 g1 be1 w2 b2 g2 be2 extra := by
  have hy1 : FinM (lin x w1 b1) := Alg.lin_fin hx hw1 hb1
  have e1 : bnT (lin x w1 b1) g1 be1 = bnW (lin x w1 b1) g1 be1 := Alg.bnT_eq_bnW hy1 g1 be1
  have hz1 : FinM (bnW (lin x w1 b1) g1 be1) := Alg.bnW_fin hy1 hg1 hbe1
  have hy2 : FinM (lin (bnW (lin x w1 b1) g1 be1) w2 b2) := Alg.lin_fin hz1 hw2 hb2
  have e2 : bnT (lin (bnW (lin x w1 b1) g1 be1) w2 b2) g2 be2
      = bnW (lin (bnW (lin x w1 b1) g1 be1) w2 b2) g2 be2 := Alg.bnT_eq_bnW hy2 g2 be2
  funext r
  unfold outT outW
  rw [e1, e2, zero_add]

end Cert.DeepFM

end
-- ==== Proof.lean ====
/-
  The certificate of a DeepFM forward pass: two embedding gathers feed a first- and a second-order
  term and a two-layer perceptron whose layers are each followed by a batch normalisation over the
  whole batch of 65536 rows; the result is the bias plus each row's sums.

  The kernel program runs the perceptron as three pipelines over tiles of 2048 rows.  The first
  two keep, beside each tile of the layer's output, running column sums of the output and of its
  square, from which the host takes the batch mean as  Σy / B  and the variance as
  Σy² / B − mean²; the third normalises and sums each row.  The reference takes each column's
  mean in one sum and the variance as the mean of  (y − mean)².  At the ideal instance a change
  of float format is the identity and a matrix product is a plain sum, so both sides compute, from
  the same first-layer input (the gathered embeddings times the field values, kept as one opaque
  term) and the same added column (bias and the first- and second-order sums), the functions
  `outT` and `outW` of Spec.lean; on finite inputs these agree (Algebra.lean): a sum taken tile by
  tile is the sum, and  E[y²] − (E[y])² = E[(y − E[y])²]  over the reals; the variance being a
  non-negative real keeps the reciprocal deviation, hence the second layer's input, finite.

  The frames: @main is eight segments — host operations and the three regions — whose buffer
  contents are folded from the launch memory (Fold); each region's pipeline runs from proof data
  naming what every window's staging buffer holds after the body at each point (Dats, Body0–2);
  no host operation and no region writes an argument array (Args).  The same run, read at the
  result buffer, gives the kernel's value (Val0–2, HostA, HostB, KVal); the reference's run and
  its value are read off its generated run (RefValue), its first-layer input is finite because a
  gather reads its operand (RefFin), and the precondition says every float input is finite
  (PreFin).  The ideal pass rewrote nothing, so the kernel's idealization claim is trivial.
-/
import proofs.«101859_j90958817394882_1_alg».proof.Defs
import proofs.«101859_j90958817394882_1_alg».proof.Proof.Gen.Kernel
import proofs.«101859_j90958817394882_1_alg».proof.Proof.Gen.KernelIdeal
import proofs.«101859_j90958817394882_1_alg».proof.Proof.Gen.ReferenceIdeal
import proofs.«101859_j90958817394882_1_alg».proof.Proof.Gen.ReferenceIdeal.Read
import proofs.«101859_j90958817394882_1_alg».proof.Proof.Gen.Pre_finite_inputs
import proofs.«101859_j90958817394882_1_alg».proof.Proof.RunK
import proofs.«101859_j90958817394882_1_alg».proof.Proof.ArgsK
import proofs.«101859_j90958817394882_1_alg».proof.Proof.RunI
import proofs.«101859_j90958817394882_1_alg».proof.Proof.ArgsI
import proofs.«101859_j90958817394882_1_alg».proof.Proof.KValI
import proofs.«101859_j90958817394882_1_alg».proof.Proof.RefValue
import proofs.«101859_j90958817394882_1_alg».proof.Proof.RefFin
import proofs.«101859_j90958817394882_1_alg».proof.Proof.PreFin
import proofs.«101859_j90958817394882_1_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs to the end and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c),
      (h c _ (Cert.Kernel.Hand.mem_uc Cert.Kernel.main_arg8 (by decide))).trans (Cert.Kernel.Hand.W8_main_arg8 m ρ c),
      (h c _ (Cert.Kernel.Hand.mem_uc Cert.Kernel.main_arg9 (by decide))).trans (Cert.Kernel.Hand.W8_main_arg9 m ρ c),
      (h c _ (Cert.Kernel.Hand.mem_uc Cert.Kernel.main_arg10 (by decide))).trans (Cert.Kernel.Hand.W8_main_arg10 m ρ c),
      (h c _ (Cert.Kernel.Hand.mem_uc Cert.Kernel.main_arg11 (by decide))).trans (Cert.Kernel.Hand.W8_main_arg11 m ρ c),
      (h c _ (Cert.Kernel.Hand.mem_uc Cert.Kernel.main_arg12 (by decide))).trans (Cert.Kernel.Hand.W8_main_arg12 m ρ c)⟩)
    (Cert.Kernel.Hand.run_all (F := Bits) m ρ)

/-- So does the idealized kernel. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c)⟩)
    (Cert.KernelIdeal.Hand.run_all (F := Ideal) m ρ)

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same result: the tiled statistics against the whole-batch ones. -/
theorem algebraic : Cert.algebraic_KernelIdeal_ReferenceIdeal := by
  intro m ρ m' ρ' hpre hagree
  refine ⟨fun c => Cert.KernelIdeal.Hand.W8 m ρ c (Proc.devRef .tc Cert.KernelIdeal.main_v85), ?_, ?_⟩
  · exact (θ_run Cert.KernelIdeal.defs _ _).mono (fun r h c =>
      ⟨h c _ (Cert.KernelIdeal.Hand.mem_uc Cert.KernelIdeal.main_v85 (by decide)),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨f1, f2, f3, f4, f5, f6, f7, f8, f9, f10, f11, f12⟩ := Cert.Pre_finite_inputs.Dec.finite_of_fn _ _ _ _ _ _ _ _ _ _ _ _ _ (hpre c)
    rw [Cert.ReferenceIdeal.Read.val_main_v112_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2]
    funext i
    obtain ⟨r, rfl⟩ : ∃ r : Fin 65536, i = ix1 r := ⟨i 0, eq_ix1 i⟩
    refine (Cert.ReferenceIdeal.RefValue.result_eq _ _ _ _ _ _ _ _ _ _ _ _ _ r).trans ?_
    refine Eq.trans ?_ (Cert.KernelIdeal.Hand.KVal.kernel_value m ρ c r).symm
    exact (congrFun (Cert.DeepFM.outT_eq_outW _ _ _ _ _ _ _ _ _ _
      (Cert.ReferenceIdeal.RefFin.fm2_fin _ _ _ f1 f3)
      (fun k j => f4 (ix2 k j)) (fun j => f5 (ix1 j)) (fun j => f6 (ix1 j)) (fun j => f7 (ix1 j))
      (fun k j => f8 (ix2 k j)) (fun j => f9 (ix1 j)) (fun j => f10 (ix1 j)) (fun j => f11 (ix1 j))) r).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
